-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S3200000x16 : Shape := ⟨2, ![3200000, 16]⟩
abbrev S16x16 : Shape := ⟨2, ![16, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_arg9 : FVec F S16 .f32) (main_arg10 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S16x16 .f32) (main_arg6 : FVec F S16 .f32) (main_arg7 : FVec F S16x16 .f32) (main_arg8 : FVec F S16 .f32) (main_arg9 : FVec F S16 .f32) (main_arg10 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x16 .f32) (main_arg1 : IVec S2x3200000 32) (main_arg2 : FVec F S3200000x16 .f32) (main_arg3 : FVec F S16x16 .f32) (main_arg4 : FVec F S16 .f32) (main_arg5 : FVec F S16x16 .f32) (main_arg6 : FVec F S16 .f32) (main_arg7 : FVec F S16x16 .f32) (main_arg8 : FVec F S16 .f32) (main_arg9 : FVec F S16 .f32) (main_arg10 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000x16 .f32 := Host.absf main_arg2
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S100000x16 : Shape := ⟨2, ![100000, 16]⟩
abbrev S2x3200000 : Shape := ⟨2, ![2, 3200000]⟩
abbrev S3200000x16 : Shape := ⟨2, ![3200000, 16]⟩
abbrev S16x16 : Shape := ⟨2, ![16, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x16 : Shape := ⟨2, ![1, 16]⟩
abbrev S8000x16 : Shape := ⟨2, ![8000, 16]⟩

abbrev nBuf : Space → Nat
  | .hbm => 53
  | .vmem => 28
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S3200000x16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S1x3200000, .i32⟩
  | .hbm, ⟨23, _⟩ => ⟨S3200000, .i32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x16, .f32⟩
  | .hbm, ⟨33, _⟩ => ⟨S16x16, .f32⟩
  | .hbm, ⟨34, _⟩ => ⟨S16x16, .f32⟩
  | .hbm, ⟨35, _⟩ => ⟨S16x16, .f32⟩
  | .hbm, ⟨36, _⟩ => ⟨S1x16, .f32⟩
  | .hbm, ⟨37, _⟩ => ⟨S1x16, .f32⟩
  | .hbm, ⟨38, _⟩ => ⟨S1x16, .f32⟩
  | .hbm, ⟨39, _⟩ => ⟨S3200000x16, .f32⟩
  | .hbm, ⟨40, _⟩ => ⟨S1x16, .f32⟩
  | .hbm, ⟨41, _⟩ => ⟨S1x16, .f32⟩
  | .hbm, ⟨42, _⟩ => ⟨S_, .f32⟩
  | .hbm, ⟨43, _⟩ => ⟨S1x16, .f32⟩
  | .hbm, ⟨44, _⟩ => ⟨S1x16, .f32⟩
  | .hbm, ⟨45, _⟩ => ⟨S_, .f32⟩
  | .hbm, ⟨46, _⟩ => ⟨S1x16, .f32⟩
  | .hbm, ⟨47, _⟩ => ⟨S1x16, .f32⟩
  | .hbm, ⟨48, _⟩ => ⟨S1x16, .f32⟩
  | .hbm, ⟨49, _⟩ => ⟨S1x16, .f32⟩
  | .hbm, ⟨50, _⟩ => ⟨S1x16, .f32⟩
  | .hbm, ⟨51, _⟩ => ⟨S1x16, .f32⟩
  | .hbm, ⟨52, _⟩ => ⟨S3200000x16, .f32⟩
  | .local _ .vmem, ⟨0, _⟩ => ⟨S8000x16, .f32⟩
  | .local _ .vmem, ⟨1, _⟩ => ⟨S8000x16, .f32⟩
  | .local _ .vmem, ⟨2, _⟩ => ⟨S8000x16, .f32⟩
  | .local _ .vmem, ⟨3, _⟩ => ⟨S8000x16, .f32⟩
  | .local _ .vmem, ⟨4, _⟩ => ⟨S8000x16, .f32⟩
  | .local _ .vmem, ⟨5, _⟩ => ⟨S8000x16, .f32⟩
  | .local _ .vmem, ⟨6, _⟩ => ⟨S16x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S8000x16, .f32⟩
  | .local _ .vmem, ⟨13, _⟩ => ⟨S8000x16, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S1x16, .f32⟩
  | .local _ .vmem, ⟨18, _⟩ => ⟨S8000x16, .f32⟩
  | .local _ .vmem, ⟨19, _⟩ => ⟨S8000x16, .f32⟩
  | .local _ .vmem, ⟨20, _⟩ => ⟨S8000x16, .f32⟩
  | .local _ .vmem, ⟨21, _⟩ => ⟨S8000x16, .f32⟩
  | .local _ .vmem, ⟨22, _⟩ => ⟨S1x16, .f32⟩
  | .local _ .vmem, ⟨23, _⟩ => ⟨S1x16, .f32⟩
  | .local _ .vmem, ⟨24, _⟩ => ⟨S1x16, .f32⟩
  | .local _ .vmem, ⟨25, _⟩ => ⟨S1x16, .f32⟩
  | .local _ .vmem, ⟨26, _⟩ => ⟨S8000x16, .f32⟩
  | .local _ .vmem, ⟨27, _⟩ => ⟨S8000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  transposes_S16x16_S16x16_1_0 : S16x16.Transposes [1, 0] S16x16
  shapeCasts_S16_S1x16 : S16.ShapeCasts S1x16
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  shapeCasts_S8000x16_S8000x16 : S8000x16.ShapeCasts S8000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  reduces_S8000x16_S16 : S8000x16.Reduces [0] S16
  bcast_S_S1x16 : S_.BroadcastsInDim S1x16 (![] : Fin 0 → Fin S1x16.rank)
  gather_S100000x16_S3200000x1_S3200000x16_1_0_n_n_0_1_116_wf : GatherDims.WF S100000x16 S3200000x1 S3200000x16 [1] [0] [] [0] [] 1 ![1, 16]
  dot_S8000x16_S16x16_S8000x16_1_0_0_1_n_n_wf : DotDims.WF S8000x16 S16x16 S8000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S3200000x16.size a
  hwx0_0 : ∀ i : grid0.Coords, EltTy.bits .f32 = 32 ∨ (Rect.block (s := S3200000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S3200000x16.size a
  hwx0_1 : ∀ i : grid0.Coords, EltTy.bits .f32 = 32 ∨ (Rect.block (s := S3200000x16) S8000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S3200000x16.size a
  hwx0_2 : ∀ i : grid0.Coords, EltTy.bits .f32 = 32 ∨ (Rect.block (s := S3200000x16) S8000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x16.size a ≤ S3200000x16.size a
  hwx0_9 : ∀ i : grid0.Coords, EltTy.bits .f32 = 32 ∨ (Rect.block (s := S3200000x16) S8000x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S3200000x16.size a
  hwx1_0 : ∀ i : grid1.Coords, EltTy.bits .f32 = 32 ∨ (Rect.block (s := S3200000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S3200000x16.size a
  hwx1_1 : ∀ i : grid1.Coords, EltTy.bits .f32 = 32 ∨ (Rect.block (s := S3200000x16) S8000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x16.size a ≤ S3200000x16.size a
  hwx1_6 : ∀ i : grid1.Coords, EltTy.bits .f32 = 32 ∨ (Rect.block (s := S3200000x16) S8000x16.size (cc1_transform_6 i) (hinb1_6 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf

abbrev win0_0 : Pipeline.Window sig grid0 :=
  Pipeline.Window.ofSpec (Memref.whole main_arg2) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24_0) S8000x16.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v24_1) S1x16.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24_2) S1x16.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v24_0) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S8000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S3200000x16 : Shape := ⟨2, ![3200000, 16]⟩
abbrev S16x16 : Shape := ⟨2, ![16, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S3200000x16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S1x3200000, .i32⟩
  | .hbm, ⟨23, _⟩ => ⟨S3200000, .i32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x16, .f32⟩
  | .hbm, ⟨33, _⟩ => ⟨S16x16, .f32⟩
  | .hbm, ⟨34, _⟩ => ⟨S3200000x16, .f32⟩
  | .hbm, ⟨35, _⟩ => ⟨S1x16, .f32⟩
  | .hbm, ⟨36, _⟩ => ⟨S3200000x16, .f32⟩
  | .hbm, ⟨37, _⟩ => ⟨S3200000x16, .f32⟩
  | .hbm, ⟨38, _⟩ => ⟨S16x16, .f32⟩
  | .hbm, ⟨39, _⟩ => ⟨S3200000x16, .f32⟩
  | .hbm, ⟨40, _⟩ => ⟨S1x16, .f32⟩
  | .hbm, ⟨41, _⟩ => ⟨S3200000x16, .f32⟩
  | .hbm, ⟨42, _⟩ => ⟨S3200000x16, .f32⟩
  | .hbm, ⟨43, _⟩ => ⟨S3200000x16, .f32⟩
  | .hbm, ⟨44, _⟩ => ⟨S16x16, .f32⟩
  | .hbm, ⟨45, _⟩ => ⟨S3200000x16, .f32⟩
  | .hbm, ⟨46, _⟩ => ⟨S1x16, .f32⟩
  | .hbm, ⟨47, _⟩ => ⟨S3200000x16, .f32⟩
  | .hbm, ⟨48, _⟩ => ⟨S3200000x16, .f32⟩
  | .hbm, ⟨49, _⟩ => ⟨S3200000x16, .f32⟩
  | .hbm, ⟨50, _⟩ => ⟨S_, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .i32⟩
  | .hbm, ⟨56, _⟩ => ⟨S_, .f32⟩
  | .hbm, ⟨57, _⟩ => ⟨S16, .f32⟩
  | .hbm, ⟨58, _⟩ => ⟨S1x16, .f32⟩
  | .hbm, ⟨59, _⟩ => ⟨S_, .f32⟩
  | .hbm, ⟨60, _⟩ => ⟨S1x16, .f32⟩
  | .hbm, ⟨61, _⟩ => ⟨S1x16, .f32⟩
  | .hbm, ⟨62, _⟩ => ⟨S3200000x16, .f32⟩
  | .hbm, ⟨63, _⟩ => ⟨S3200000x16, .f32⟩
  | .hbm, ⟨64, _⟩ => ⟨S3200000x16, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S1x16, .f32⟩
  | .hbm, ⟨79, _⟩ => ⟨S3200000x16, .f32⟩
  | .hbm, ⟨80, _⟩ => ⟨S3200000x16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S16, .f32⟩
  | .hbm, ⟨85, _⟩ => ⟨S1x16, .f32⟩
  | .hbm, ⟨86, _⟩ => ⟨S3200000x16, .f32⟩
  | .hbm, ⟨87, _⟩ => ⟨S3200000x16, .f32⟩
  | .hbm, ⟨88, _⟩ => ⟨S1x16, .f32⟩
  | .hbm, ⟨89, _⟩ => ⟨S3200000x16, .f32⟩
  | .hbm, ⟨90, _⟩ => ⟨S3200000x16, .f32⟩
  | .hbm, ⟨91, _⟩ => ⟨S1x16, .f32⟩
  | .hbm, ⟨92, _⟩ => ⟨S3200000x16, .f32⟩
  | .hbm, ⟨93, _⟩ => ⟨S3200000x16, .f32⟩
  | .hbm, ⟨94, _⟩ => ⟨S_, .f32⟩
  | .hbm, ⟨95, _⟩ => ⟨S3200000x16, .f32⟩
  | .hbm, ⟨96, _⟩ => ⟨S3200000x16, .f32⟩
  | .hbm, ⟨97, _⟩ => ⟨S3200000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_5 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call1_cst : Ref sig .tc := ⟨.hbm, 94, rfl⟩
abbrev main_call1_v0 : Ref sig .tc := ⟨.hbm, 95, rfl⟩
abbrev main_v54 : Ref sig .tc := ⟨.hbm, 96, rfl⟩
abbrev main_v55 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  transposes_S16x16_S16x16_1_0 : S16x16.Transposes [1, 0] S16x16
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  reducesTo_S3200000x16_S16_d0 : S3200000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S3200000x16 : S_.BroadcastsInDim S3200000x16 (![] : Fin 0 → Fin S3200000x16.rank)
  gather_S100000x16_S3200000x1_S3200000x16_1_0_n_n_0_1_116_wf : GatherDims.WF S100000x16 S3200000x1 S3200000x16 [1] [0] [] [0] [] 1 ![1, 16]
  dot_S3200000x16_S16x16_S3200000x16_1_0_0_1_n_n_wf : DotDims.WF S3200000x16 S16x16 S3200000x16 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf

class Facts : Prop extends Facts₀ where

variable [Facts]
-- ==== Proof.KReg0RunA.lean ====
import proofs.«110224_j19997367730282_1_alg».proof.Proof.Gen.Kernel.Launch
import proofs.«110224_j19997367730282_1_alg».proof.Proof.Gen.Kernel.Skeleton
import proofs.«110224_j19997367730282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch of the statistics body

The body resets its two running sums exactly when the grid coordinate is zero. -/

/-- The condition of the body's one conditional, from the grid coordinates. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The statistics body in the case of the grid's first point (the two running sums are reset before they are added to): the pieces its stores leave in the
    block of the pre-normalisation values, in the two outputs the running sums are copied to, and in the two running sums. -/
noncomputable def kernelRun0_A (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i)
    (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) :
    Σ' (L10 : List (View.Piece (Elt F) S8000x16 .f32)) (L11 : List (View.Piece (Elt F) S1x16 .f32)) (L12 : List (View.Piece (Elt F) S1x16 .f32)) (LS0 : List (View.Piece (Elt F) S1x16 .f32)), { LS1 : List (View.Piece (Elt F) S1x16 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [HS0]; · iexists _; iexact HS0
    iexists _; iexact HS1

end Cert.Kernel.Hand

end
-- ==== Proof.KReg0RunB.lean ====
import proofs.«110224_j19997367730282_1_alg».proof.Proof.Gen.Kernel.Launch
import proofs.«110224_j19997367730282_1_alg».proof.Proof.Gen.Kernel.Skeleton
import proofs.«110224_j19997367730282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.KReg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The statistics body in the case of a later point (the two running sums continue from what the point before left): the pieces its stores leave in the
    block of the pre-normalisation values, in the two outputs the running sums are copied to, and in the two running sums. -/
noncomputable def kernelRun0_B (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i)
    (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) :
    Σ' (L10 : List (View.Piece (Elt F) S8000x16 .f32)) (L11 : List (View.Piece (Elt F) S1x16 .f32)) (L12 : List (View.Piece (Elt F) S1x16 .f32)) (LS0 : List (View.Piece (Elt F) S1x16 .f32)), { LS1 : List (View.Piece (Elt F) S1x16 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hfs0; obtain rfl := harg14.eq_unread hfs1
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [HS0]; · iexists _; iexact HS0
    iexists _; iexact HS1

end Cert.Kernel.Hand

end
-- ==== Proof.KReg0.lean ====
import proofs.«110224_j19997367730282_1_alg».proof.Proof.Gen.Kernel.Launch
import proofs.«110224_j19997367730282_1_alg».proof.Proof.Gen.Kernel.Skeleton
import proofs.«110224_j19997367730282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.KReg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (the first kernel call), at the contents `V` it is entered from

Every point stores its block of pre-normalisation values; the two running sums live in scratch buffers carried
from point to point and are copied to the two small outputs at every point. -/

/-! ## Memrefs and views -/

abbrev ms0_0 (t : Fin cfg0.N) : Memref sig .tc .vmem S8000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8000x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8000x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16 .f32 := win0_11.stage (cfg0.slots t 11)
abbrev hs0_11 (t : Fin cfg0.N) : (ms0_11 t).IsWhole := hstage0_11 ((cfg0.slots t 11).cast nbuf0_11)
/-- The two scratch buffers: the running sum and the running sum of squares. -/
abbrev scM0 : Memref sig .tc .vmem S1x16 .f32 := Memref.whole cc0_scratch0
abbrev scM1 : Memref sig .tc .vmem S1x16 .f32 := Memref.whole cc0_scratch1
abbrev VS0_0 : View sig .tc .vmem S1x16 .f32 := scM0.view
abbrev VS0_1 : View sig .tc .vmem S1x16 .f32 := scM1.view
/-- One staging buffer of each output window, through which its contents are stated. -/
abbrev VO0_9 : View sig .tc .vmem S8000x16 .f32 := (Memref.whole cc0_stg9_0 : Memref sig .tc .vmem S8000x16 .f32).view
abbrev VO0_10 : View sig .tc .vmem S1x16 .f32 := (Memref.whole cc0_stg10_0 : Memref sig .tc .vmem S1x16 .f32).view
abbrev VO0_11 : View sig .tc .vmem S1x16 .f32 := (Memref.whole cc0_stg11_0 : Memref sig .tc .vmem S1x16 .f32).view

/-- No window of this region is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel

/-! ## What each case leaves -/

/-- Case A's pieces for the block of pre-normalisation values tile it, so they cover it. -/
theorem cover0_A_9_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S8000x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).1 S8000x16.size (by sl_kernel_rfl) y

/-- What case A leaves in the block of pre-normalisation values: its pieces read back. -/
def out0_A_9 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S8000x16 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).1)

/-- Case A's pieces for the output the running sum is copied to tile it, so they cover it. -/
theorem cover0_A_10_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.1 S1x16.size (by sl_kernel_rfl) y

/-- What case A leaves in the output the running sum is copied to: its pieces read back. -/
def out0_A_10 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.1)

/-- Case A's pieces for the output the running sum of squares is copied to tile it, so they cover it. -/
theorem cover0_A_11_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.1 S1x16.size (by sl_kernel_rfl) y

/-- What case A leaves in the output the running sum of squares is copied to: its pieces read back. -/
def out0_A_11 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.1)

/-- Case A's pieces for the running sum tile it, so they cover it. -/
theorem scover0_A_0_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.1 S1x16.size (by sl_kernel_rfl) y

/-- What case A leaves in the running sum: its pieces read back. -/
def sout0_A_0 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.1)

/-- Case A's pieces for the running sum of squares tile it, so they cover it. -/
theorem scover0_A_1_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.2.1 S1x16.size (by sl_kernel_rfl) y

/-- What case A leaves in the running sum of squares: its pieces read back. -/
def sout0_A_1 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.2.1)

/-- Case B's pieces for the block of pre-normalisation values tile it, so they cover it. -/
theorem cover0_B_9_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S8000x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).1 S8000x16.size (by sl_kernel_rfl) y

/-- What case B leaves in the block of pre-normalisation values: its pieces read back. -/
def out0_B_9 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S8000x16 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).1)

/-- Case B's pieces for the output the running sum is copied to tile it, so they cover it. -/
theorem cover0_B_10_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.1 S1x16.size (by sl_kernel_rfl) y

/-- What case B leaves in the output the running sum is copied to: its pieces read back. -/
def out0_B_10 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.1)

/-- Case B's pieces for the output the running sum of squares is copied to tile it, so they cover it. -/
theorem cover0_B_11_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.1 S1x16.size (by sl_kernel_rfl) y

/-- What case B leaves in the output the running sum of squares is copied to: its pieces read back. -/
def out0_B_11 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.1)

/-- Case B's pieces for the running sum tile it, so they cover it. -/
theorem scover0_B_0_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.1 S1x16.size (by sl_kernel_rfl) y

/-- What case B leaves in the running sum: its pieces read back. -/
def sout0_B_0 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.1)

/-- Case B's pieces for the running sum of squares tile it, so they cover it. -/
theorem scover0_B_1_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.2.1 S1x16.size (by sl_kernel_rfl) y

/-- What case B leaves in the running sum of squares: its pieces read back. -/
def sout0_B_1 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.2.1)

/-- The scoped buffers of the core that this region neither stages nor uses: the second region's staging buffers. -/
def tailR (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the two scratch buffers owned as memrefs. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ tailR (F := F) c) ∗ (∃ r, prngReg c r)) := by
  unfold Pipeline.ΦA tailR; rw [scopedRest0_eq]; simp only [scM0, scM1, owns_whole]; try rfl

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the running sums hold after each point -/

/-- The first point: the reset case at the point's blocks. -/
def caseA (c : Dev nD) (t : Fin cfg0.N) (h : t.val = 0) : Vec F S8000x16 .f32 × Vec F S1x16 .f32 × Vec F S1x16 .f32 × Vec F S1x16 .f32 × Vec F S1x16 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t))

/-- A later point: the continuing case at the point's blocks, over the running sums `p0`, `p1` the point before left. -/
def caseB (c : Dev nD) (t : Fin cfg0.N) (h : t.val ≠ 0) (p0 p1 : Vec F S1x16 .f32) : Vec F S8000x16 .f32 × Vec F S1x16 .f32 × Vec F S1x16 .f32 × Vec F S1x16 .f32 × Vec F S1x16 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1)

/-- THE ACCUMULATION: the three outputs' staging buffers and the two running sums after the body at position `n`. -/
def outsAt0 (c : Dev nD) : (n : ℕ) → n < cfg0.N → Vec F S8000x16 .f32 × Vec F S1x16 .f32 × Vec F S1x16 .f32 × Vec F S1x16 .f32 × Vec F S1x16 .f32
  | 0, hn => caseA V c ⟨0, hn⟩ rfl
  | n + 1, hn => caseB V c ⟨n + 1, hn⟩ (Nat.succ_ne_zero n) (outsAt0 c n (Nat.lt_of_succ_lt hn)).2.2.2.1 (outsAt0 c n (Nat.lt_of_succ_lt hn)).2.2.2.2

theorem outsAt0_A (c : Dev nD) (t : Fin cfg0.N) (h : t.val = 0) : outsAt0 V c t.val t.isLt = caseA V c t h := by
  obtain ⟨n, hn⟩ := t
  cases n with
  | zero => rfl
  | succ n => exact absurd h (Nat.succ_ne_zero n)

theorem outsAt0_B (c : Dev nD) (t : Fin cfg0.N) (h : t.val ≠ 0) :
    outsAt0 V c t.val t.isLt = caseB V c t h (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl h
  | succ n => rfl

/-- The region invariant before position `n`: before the first point the class's own; afterwards the two running sums at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2.2.1) ∗ owns (c : Thread nD τ) scM1 fullShare ((outsAt0 V c n hn).2.2.2.2) ∗ tailR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2.2.1) ∗ owns (c : Thread nD τ) scM1 fullShare ((outsAt0 V c n hn).2.2.2.2) ∗ tailR (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2.2.1) ∗ owns (c : Thread nD τ) scM1 fullShare ((outsAt0 V c (n - 1) (by omega)).2.2.2.2) ∗ tailR (F := F) c) ∗ (∃ r, prngReg c r)) := by
  cases n with
  | zero => exact absurd rfl hz
  | succ n => rfl

/-! ## The proof data -/

/-- The proof data of the statistics pipeline on core `c`: the arrays as the region finds them; after the body each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

end Regions

end Cert.Kernel.Hand

end
-- ==== Proof.KReg0Body.lean ====
import proofs.«110224_j19997367730282_1_alg».proof.Proof.Gen.Kernel.Launch
import proofs.«110224_j19997367730282_1_alg».proof.Proof.Gen.Kernel.Skeleton
import proofs.«110224_j19997367730282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.KReg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region: the body obligation -/

section Regions
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4800000 in
/-- The body at any point: the inputs' memrefs hold their blocks; the first point is the reset case (the running sums at
    anything before it), every later point the continuing case over what the point before left in the running sums; the
    invariant takes the running sums back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t], after0_10]
  rw [show (dat0 V c).leavesExact 11 t = owns (c : Thread nD τ) (ms0_11 t) fullShare ((dat0 V c).after 11 t) from by
    unfold Dat.leavesExact; rw [liveAt0_11 t], after0_11]
  by_cases h : t.val = 0
  · rw [outsAt0_A V c t h]
    unfold caseA out0_A_9 out0_A_10 out0_A_11 sout0_A_0 sout0_A_1; (try dsimp only)
    rw [PhiS_castSucc V c t, PhiS_zero V c _ _ h, PhiA0_eq]
    iintro ⟨⟨⟨HS0, HS1, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 HT Hg]
    · isplitl [HS0 HS1 HT]
      · isplitl [HS0]
        · unfold owns; iexists _; isplitr
          swap; · iexact HS0
          ipureintro; exact View.read_writes_of_cover _ _ _ _ _ (scover0_A_0_cov c _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1_cov c _ _ _ _ _ _ _ _ _ _ _ _ _ _ _ _ _ _ _ _ _ _ _ _ _ _ _ _ _ _ _ _ _ _ _ _ _ _ _)
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9_cov c _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10_cov c _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11_cov c _ _ _ _ _ _ _ _ _ _ _ _ _ _ _ _ _ _ _ _ _ _ _ _ _ _ _ _ _ _ _ _ _ _ _ _ _ _ _)
  · rw [outsAt0_B V c t h]
    unfold caseB out0_B_9 out0_B_10 out0_B_11 sout0_B_0 sout0_B_1; (try dsimp only)
    rw [PhiS_castSucc V c t, PhiS_pos V c _ _ h]
    iintro ⟨⟨⟨HS0, HS1, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 HT Hg]
    · isplitl [HS0 HS1 HT]
      · isplitl [HS0]
        · unfold owns; iexists _; isplitr
          swap; · iexact HS0
          ipureintro; exact View.read_writes_of_cover _ _ _ _ _ (scover0_B_0_cov c _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1_cov c _ _ _ _ _ _ _ _ _ _ _ _ _ _ _ _ _ _ _ _ _ _ _ _ _ _ _ _ _ _ _ _ _ _ _ _ _ _ _ _ _)
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9_cov c _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10_cov c _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11_cov c _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the running sums' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HT⟩, Hg⟩
  isplitl [HS0 HS1 HT]
  · isplitl [HS0]; · iexists _; iexact HS0
    isplitl [HS1]; · iexists _; iexact HS1
    iexact HT
  iexact Hg

theorem hout0 (c : Dev nD) : (dat0 V c).Φ (Fin.last cfg0.N) ⊢ Pipeline.ΦA spec0 c :=
  Phi_out0 V c _ (by rw [Fin.val_last]; have : cfg0.N = 400 := N_0; omega)

end Regions

end Cert.Kernel.Hand

end
-- ==== Proof.KReg1.lean ====
/- The class-A half of the second kernel region (custom_call 1, the body `cc1__norm_kernel`, pipeline `cfg1`):
   seven windows — inputs 0..5, output 6 — on a grid of 400 points. Windows 0, 1 and 6 have blocks of 8000 rows
   moving with the point; windows 2..5 are whole 1x16 arrays at a constant block index. The body loads every input
   block whole and stores the output block whole, once. Everything is stated for any float instance `F` and for any
   contents `V` of the TensorCore's buffers at the region's entry. -/
import proofs.«110224_j19997367730282_1_alg».proof.Proof.Gen.Kernel.Launch
import proofs.«110224_j19997367730282_1_alg».proof.Proof.Gen.Kernel.Skeleton
import proofs.«110224_j19997367730282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, `cc1__norm_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, so the previous point's block is this point's; the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is not
    fetched its block index has not moved, so the previous point's block is this point's; the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is not
    fetched its block index has not moved, so the previous point's block is this point's; the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 8000x16 block, and the whole 1x16 block. -/
abbrev r1_0 : Rect S8000x16 := Rect.unit (s := S8000x16) ![0, 0] S8000x16.size inb_S8000x16_S8000x16_0_0
abbrev r1_1 : Rect S1x16 := Rect.unit (s := S1x16) ![0, 0] S1x16.size inb_S1x16_S1x16_0_0

/-! ## What the body leaves in the output window's buffer -/

/-- Window 6's staging buffer after the body, from the six input windows' blocks: its one store of the whole block,
    whose value is the body's arithmetic over the loaded blocks. -/
def out1_6 (x0 : Vec F S8000x16 .f32) (x1 : Vec F S8000x16 .f32) (x2 : Vec F S1x16 .f32) (x3 : Vec F S1x16 .f32) (x4 : Vec F S1x16 .f32) (x5 : Vec F S1x16 .f32) : Vec F S8000x16 .f32 :=
  View.canon [⟨r1_0, k1_pay1 (View.ld x0 r1_0) (View.ld x2 r1_1) (View.ld x3 r1_1) (View.ld x4 r1_1) (View.ld x5 r1_1) (View.ld x1 r1_0)⟩]

/-- The one store is of the whole buffer, so it covers it. -/
theorem cover1_6 (p0 : Vec F S8000x16 .f32) (y : S8000x16.Idx) :
    ∃ pc ∈ ([⟨r1_0, p0⟩] : List (View.Piece (Elt F) S8000x16 .f32)), y ∈ pc.1.set :=
  View.cover_of_tiled [⟨r1_0, p0⟩] S8000x16.size (by rfl) y

/-! ## The body's triple -/

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords) (arg1 : Memref sig .tc .vmem S8000x16 .f32) (harg1 : arg1.IsWhole) (arg2 : Memref sig .tc .vmem S8000x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S8000x16 .f32) (harg7 : arg7.IsWhole)
    (x0 : Vec F S8000x16 .f32) (x1 : Vec F S8000x16 .f32) (x2 : Vec F S1x16 .f32) (x3 : Vec F S1x16 .f32) (x4 : Vec F S1x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__norm_kernel i arg1 harg1 arg2 harg2 arg3 harg3 arg4 harg4 arg5 harg5 arg6 harg6 arg7 harg7) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KFrame.lean ====
import proofs.«110224_j19997367730282_1_alg».proof.Proof.Gen.Kernel.Launch
import proofs.«110224_j19997367730282_1_alg».proof.Proof.Gen.Kernel.Skeleton
import proofs.«110224_j19997367730282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.Gen.Kernel.Regions
import proofs.«110224_j19997367730282_1_alg».proof.Proof.KReg0Body
import proofs.«110224_j19997367730282_1_alg».proof.Proof.KReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: host operations, the statistics region, host operations, the normalisation region -/

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first host stretch (the statistics region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the statistics region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the normalisation region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the normalisation region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  (W4_of_ne m c main_arg0 (by decide)).trans <| (StableHlo.after_of_writes_sub hostOps1 _ hostOps1_writes (by decide)).trans <|
    (W2_of_ne m c main_arg0 (by decide)).trans <| (StableHlo.after_of_writes_sub hostOps0 _ hostOps0_writes (by decide)).trans rfl

theorem W4_main_arg1 (c : Dev nD) : W4 m c (Proc.devRef .tc main_arg1) = m ((c : Thread nD τ).loc main_arg1) :=
  (W4_of_ne m c main_arg1 (by decide)).trans <| (StableHlo.after_of_writes_sub hostOps1 _ hostOps1_writes (by decide)).trans <|
    (W2_of_ne m c main_arg1 (by decide)).trans <| (StableHlo.after_of_writes_sub hostOps0 _ hostOps0_writes (by decide)).trans rfl

/-- The edge-attribute array is an input window of both regions: each leaves it as entered. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := (W4_arr m c 1).trans (((dat1 (V3 m) c).arrAt_in 1 rfl _).trans (A_eq1 (V3 m) c 1))
    _ = W2 m c (Proc.devRef .tc main_arg2) := StableHlo.after_of_writes_sub hostOps1 _ hostOps1_writes (by decide)
    _ = W1 m c (Proc.devRef .tc main_arg2) := (W2_arr m c 0).trans (((dat0 (V1 m) c).arrAt_in 0 rfl _).trans (A_eq0 (V1 m) c 0))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  (W4_of_ne m c main_arg3 (by decide)).trans <| (StableHlo.after_of_writes_sub hostOps1 _ hostOps1_writes (by decide)).trans <|
    (W2_of_ne m c main_arg3 (by decide)).trans <| (StableHlo.after_of_writes_sub hostOps0 _ hostOps0_writes (by decide)).trans rfl

theorem W4_main_arg4 (c : Dev nD) : W4 m c (Proc.devRef .tc main_arg4) = m ((c : Thread nD τ).loc main_arg4) :=
  (W4_of_ne m c main_arg4 (by decide)).trans <| (StableHlo.after_of_writes_sub hostOps1 _ hostOps1_writes (by decide)).trans <|
    (W2_of_ne m c main_arg4 (by decide)).trans <| (StableHlo.after_of_writes_sub hostOps0 _ hostOps0_writes (by decide)).trans rfl

theorem W4_main_arg5 (c : Dev nD) : W4 m c (Proc.devRef .tc main_arg5) = m ((c : Thread nD τ).loc main_arg5) :=
  (W4_of_ne m c main_arg5 (by decide)).trans <| (StableHlo.after_of_writes_sub hostOps1 _ hostOps1_writes (by decide)).trans <|
    (W2_of_ne m c main_arg5 (by decide)).trans <| (StableHlo.after_of_writes_sub hostOps0 _ hostOps0_writes (by decide)).trans rfl

theorem W4_main_arg6 (c : Dev nD) : W4 m c (Proc.devRef .tc main_arg6) = m ((c : Thread nD τ).loc main_arg6) :=
  (W4_of_ne m c main_arg6 (by decide)).trans <| (StableHlo.after_of_writes_sub hostOps1 _ hostOps1_writes (by decide)).trans <|
    (W2_of_ne m c main_arg6 (by decide)).trans <| (StableHlo.after_of_writes_sub hostOps0 _ hostOps0_writes (by decide)).trans rfl

theorem W4_main_arg7 (c : Dev nD) : W4 m c (Proc.devRef .tc main_arg7) = m ((c : Thread nD τ).loc main_arg7) :=
  (W4_of_ne m c main_arg7 (by decide)).trans <| (StableHlo.after_of_writes_sub hostOps1 _ hostOps1_writes (by decide)).trans <|
    (W2_of_ne m c main_arg7 (by decide)).trans <| (StableHlo.after_of_writes_sub hostOps0 _ hostOps0_writes (by decide)).trans rfl

theorem W4_main_arg8 (c : Dev nD) : W4 m c (Proc.devRef .tc main_arg8) = m ((c : Thread nD τ).loc main_arg8) :=
  (W4_of_ne m c main_arg8 (by decide)).trans <| (StableHlo.after_of_writes_sub hostOps1 _ hostOps1_writes (by decide)).trans <|
    (W2_of_ne m c main_arg8 (by decide)).trans <| (StableHlo.after_of_writes_sub hostOps0 _ hostOps0_writes (by decide)).trans rfl

theorem W4_main_arg9 (c : Dev nD) : W4 m c (Proc.devRef .tc main_arg9) = m ((c : Thread nD τ).loc main_arg9) :=
  (W4_of_ne m c main_arg9 (by decide)).trans <| (StableHlo.after_of_writes_sub hostOps1 _ hostOps1_writes (by decide)).trans <|
    (W2_of_ne m c main_arg9 (by decide)).trans <| (StableHlo.after_of_writes_sub hostOps0 _ hostOps0_writes (by decide)).trans rfl

theorem W4_main_arg10 (c : Dev nD) : W4 m c (Proc.devRef .tc main_arg10) = m ((c : Thread nD τ).loc main_arg10) :=
  (W4_of_ne m c main_arg10 (by decide)).trans <| (StableHlo.after_of_writes_sub hostOps1 _ hostOps1_writes (by decide)).trans <|
    (W2_of_ne m c main_arg10 (by decide)).trans <| (StableHlo.after_of_writes_sub hostOps0 _ hostOps0_writes (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (V1 m) c)
  hout c := by
    rw [Pipeline.ownSems0_none]
    have h2 : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c)⟩) (run_all m ρ)

end Cert.Kernel.Hand

end
-- ==== Proof.KIReg0RunA.lean ====
import proofs.«110224_j19997367730282_1_alg».proof.Proof.Gen.KernelIdeal.Launch
import proofs.«110224_j19997367730282_1_alg».proof.Proof.Gen.KernelIdeal.Skeleton
import proofs.«110224_j19997367730282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch of the statistics body

The body resets its two running sums exactly when the grid coordinate is zero. -/

/-- The condition of the body's one conditional, from the grid coordinates. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The statistics body in the case of the grid's first point (the two running sums are reset before they are added to): the pieces its stores leave in the
    block of the pre-normalisation values, in the two outputs the running sums are copied to, and in the two running sums. -/
noncomputable def kernelRun0_A (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i)
    (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) :
    Σ' (L10 : List (View.Piece (Elt F) S8000x16 .f32)) (L11 : List (View.Piece (Elt F) S1x16 .f32)) (L12 : List (View.Piece (Elt F) S1x16 .f32)) (LS0 : List (View.Piece (Elt F) S1x16 .f32)), { LS1 : List (View.Piece (Elt F) S1x16 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [HS0]; · iexists _; iexact HS0
    iexists _; iexact HS1

end Cert.KernelIdeal.Hand

end
-- ==== Proof.KIReg0RunB.lean ====
import proofs.«110224_j19997367730282_1_alg».proof.Proof.Gen.KernelIdeal.Launch
import proofs.«110224_j19997367730282_1_alg».proof.Proof.Gen.KernelIdeal.Skeleton
import proofs.«110224_j19997367730282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.KIReg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The statistics body in the case of a later point (the two running sums continue from what the point before left): the pieces its stores leave in the
    block of the pre-normalisation values, in the two outputs the running sums are copied to, and in the two running sums. -/
noncomputable def kernelRun0_B (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i)
    (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) :
    Σ' (L10 : List (View.Piece (Elt F) S8000x16 .f32)) (L11 : List (View.Piece (Elt F) S1x16 .f32)) (L12 : List (View.Piece (Elt F) S1x16 .f32)) (LS0 : List (View.Piece (Elt F) S1x16 .f32)), { LS1 : List (View.Piece (Elt F) S1x16 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hfs0; obtain rfl := harg14.eq_unread hfs1
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [HS0]; · iexists _; iexact HS0
    iexists _; iexact HS1

end Cert.KernelIdeal.Hand

end
-- ==== Proof.KIReg0.lean ====
import proofs.«110224_j19997367730282_1_alg».proof.Proof.Gen.KernelIdeal.Launch
import proofs.«110224_j19997367730282_1_alg».proof.Proof.Gen.KernelIdeal.Skeleton
import proofs.«110224_j19997367730282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.KIReg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (the first kernel call), at the contents `V` it is entered from

Every point stores its block of pre-normalisation values; the two running sums live in scratch buffers carried
from point to point and are copied to the two small outputs at every point. -/

/-! ## Memrefs and views -/

abbrev ms0_0 (t : Fin cfg0.N) : Memref sig .tc .vmem S8000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8000x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8000x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16 .f32 := win0_11.stage (cfg0.slots t 11)
abbrev hs0_11 (t : Fin cfg0.N) : (ms0_11 t).IsWhole := hstage0_11 ((cfg0.slots t 11).cast nbuf0_11)
/-- The two scratch buffers: the running sum and the running sum of squares. -/
abbrev scM0 : Memref sig .tc .vmem S1x16 .f32 := Memref.whole cc0_scratch0
abbrev scM1 : Memref sig .tc .vmem S1x16 .f32 := Memref.whole cc0_scratch1
abbrev VS0_0 : View sig .tc .vmem S1x16 .f32 := scM0.view
abbrev VS0_1 : View sig .tc .vmem S1x16 .f32 := scM1.view
/-- One staging buffer of each output window, through which its contents are stated. -/
abbrev VO0_9 : View sig .tc .vmem S8000x16 .f32 := (Memref.whole cc0_stg9_0 : Memref sig .tc .vmem S8000x16 .f32).view
abbrev VO0_10 : View sig .tc .vmem S1x16 .f32 := (Memref.whole cc0_stg10_0 : Memref sig .tc .vmem S1x16 .f32).view
abbrev VO0_11 : View sig .tc .vmem S1x16 .f32 := (Memref.whole cc0_stg11_0 : Memref sig .tc .vmem S1x16 .f32).view

/-- No window of this region is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel

/-! ## What each case leaves -/

/-- Case A's pieces for the block of pre-normalisation values tile it, so they cover it. -/
theorem cover0_A_9_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S8000x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).1 S8000x16.size (by sl_kernel_rfl) y

/-- What case A leaves in the block of pre-normalisation values: its pieces read back. -/
def out0_A_9 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S8000x16 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).1)

/-- Case A's pieces for the output the running sum is copied to tile it, so they cover it. -/
theorem cover0_A_10_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.1 S1x16.size (by sl_kernel_rfl) y

/-- What case A leaves in the output the running sum is copied to: its pieces read back. -/
def out0_A_10 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.1)

/-- Case A's pieces for the output the running sum of squares is copied to tile it, so they cover it. -/
theorem cover0_A_11_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.1 S1x16.size (by sl_kernel_rfl) y

/-- What case A leaves in the output the running sum of squares is copied to: its pieces read back. -/
def out0_A_11 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.1)

/-- Case A's pieces for the running sum tile it, so they cover it. -/
theorem scover0_A_0_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.1 S1x16.size (by sl_kernel_rfl) y

/-- What case A leaves in the running sum: its pieces read back. -/
def sout0_A_0 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.1)

/-- Case A's pieces for the running sum of squares tile it, so they cover it. -/
theorem scover0_A_1_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (y : S1x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.2.1 S1x16.size (by sl_kernel_rfl) y

/-- What case A leaves in the running sum of squares: its pieces read back. -/
def sout0_A_1 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) : Vec F S1x16 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9).2.2.2.2.1)

/-- Case B's pieces for the block of pre-normalisation values tile it, so they cover it. -/
theorem cover0_B_9_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S8000x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).1 S8000x16.size (by sl_kernel_rfl) y

/-- What case B leaves in the block of pre-normalisation values: its pieces read back. -/
def out0_B_9 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S8000x16 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).1)

/-- Case B's pieces for the output the running sum is copied to tile it, so they cover it. -/
theorem cover0_B_10_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.1 S1x16.size (by sl_kernel_rfl) y

/-- What case B leaves in the output the running sum is copied to: its pieces read back. -/
def out0_B_10 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.1)

/-- Case B's pieces for the output the running sum of squares is copied to tile it, so they cover it. -/
theorem cover0_B_11_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.1 S1x16.size (by sl_kernel_rfl) y

/-- What case B leaves in the output the running sum of squares is copied to: its pieces read back. -/
def out0_B_11 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.1)

/-- Case B's pieces for the running sum tile it, so they cover it. -/
theorem scover0_B_0_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.1 S1x16.size (by sl_kernel_rfl) y

/-- What case B leaves in the running sum: its pieces read back. -/
def sout0_B_0 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.1)

/-- Case B's pieces for the running sum of squares tile it, so they cover it. -/
theorem scover0_B_1_cov (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) (y : S1x16.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.2.1 S1x16.size (by sl_kernel_rfl) y

/-- What case B leaves in the running sum of squares: its pieces read back. -/
def sout0_B_1 (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) : Vec F S1x16 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1).2.2.2.2.1)

/-- The scoped buffers of the core that this region neither stages nor uses: the second region's staging buffers. -/
def tailR (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the two scratch buffers owned as memrefs. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ tailR (F := F) c) ∗ (∃ r, prngReg c r)) := by
  unfold Pipeline.ΦA tailR; rw [scopedRest0_eq]; simp only [scM0, scM1, owns_whole]; try rfl

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the running sums hold after each point -/

/-- The first point: the reset case at the point's blocks. -/
def caseA (c : Dev nD) (t : Fin cfg0.N) (h : t.val = 0) : Vec F S8000x16 .f32 × Vec F S1x16 .f32 × Vec F S1x16 .f32 × Vec F S1x16 .f32 × Vec F S1x16 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t),
     sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t))

/-- A later point: the continuing case at the point's blocks, over the running sums `p0`, `p1` the point before left. -/
def caseB (c : Dev nD) (t : Fin cfg0.N) (h : t.val ≠ 0) (p0 p1 : Vec F S1x16 .f32) : Vec F S8000x16 .f32 × Vec F S1x16 .f32 × Vec F S1x16 .f32 × Vec F S1x16 .f32 × Vec F S1x16 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1,
     sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) p0 p1)

/-- THE ACCUMULATION: the three outputs' staging buffers and the two running sums after the body at position `n`. -/
def outsAt0 (c : Dev nD) : (n : ℕ) → n < cfg0.N → Vec F S8000x16 .f32 × Vec F S1x16 .f32 × Vec F S1x16 .f32 × Vec F S1x16 .f32 × Vec F S1x16 .f32
  | 0, hn => caseA V c ⟨0, hn⟩ rfl
  | n + 1, hn => caseB V c ⟨n + 1, hn⟩ (Nat.succ_ne_zero n) (outsAt0 c n (Nat.lt_of_succ_lt hn)).2.2.2.1 (outsAt0 c n (Nat.lt_of_succ_lt hn)).2.2.2.2

theorem outsAt0_A (c : Dev nD) (t : Fin cfg0.N) (h : t.val = 0) : outsAt0 V c t.val t.isLt = caseA V c t h := by
  obtain ⟨n, hn⟩ := t
  cases n with
  | zero => rfl
  | succ n => exact absurd h (Nat.succ_ne_zero n)

theorem outsAt0_B (c : Dev nD) (t : Fin cfg0.N) (h : t.val ≠ 0) :
    outsAt0 V c t.val t.isLt = caseB V c t h (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl h
  | succ n => rfl

/-- The region invariant before position `n`: before the first point the class's own; afterwards the two running sums at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2.2.1) ∗ owns (c : Thread nD τ) scM1 fullShare ((outsAt0 V c n hn).2.2.2.2) ∗ tailR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2.2.1) ∗ owns (c : Thread nD τ) scM1 fullShare ((outsAt0 V c n hn).2.2.2.2) ∗ tailR (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2.2.1) ∗ owns (c : Thread nD τ) scM1 fullShare ((outsAt0 V c (n - 1) (by omega)).2.2.2.2) ∗ tailR (F := F) c) ∗ (∃ r, prngReg c r)) := by
  cases n with
  | zero => exact absurd rfl hz
  | succ n => rfl

/-! ## The proof data -/

/-- The proof data of the statistics pipeline on core `c`: the arrays as the region finds them; after the body each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

end Regions

end Cert.KernelIdeal.Hand

end
-- ==== Proof.KIReg0Body.lean ====
import proofs.«110224_j19997367730282_1_alg».proof.Proof.Gen.KernelIdeal.Launch
import proofs.«110224_j19997367730282_1_alg».proof.Proof.Gen.KernelIdeal.Skeleton
import proofs.«110224_j19997367730282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.KIReg0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region: the body obligation -/

section Regions
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4800000 in
/-- The body at any point: the inputs' memrefs hold their blocks; the first point is the reset case (the running sums at
    anything before it), every later point the continuing case over what the point before left in the running sums; the
    invariant takes the running sums back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t], after0_10]
  rw [show (dat0 V c).leavesExact 11 t = owns (c : Thread nD τ) (ms0_11 t) fullShare ((dat0 V c).after 11 t) from by
    unfold Dat.leavesExact; rw [liveAt0_11 t], after0_11]
  by_cases h : t.val = 0
  · rw [outsAt0_A V c t h]
    unfold caseA out0_A_9 out0_A_10 out0_A_11 sout0_A_0 sout0_A_1; (try dsimp only)
    rw [PhiS_castSucc V c t, PhiS_zero V c _ _ h, PhiA0_eq]
    iintro ⟨⟨⟨HS0, HS1, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 HT Hg]
    · isplitl [HS0 HS1 HT]
      · isplitl [HS0]
        · unfold owns; iexists _; isplitr
          swap; · iexact HS0
          ipureintro; exact View.read_writes_of_cover _ _ _ _ _ (scover0_A_0_cov c _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1_cov c _ _ _ _ _ _ _ _ _ _ _ _ _ _ _ _ _ _ _ _ _ _ _ _ _ _ _ _ _ _ _ _ _ _ _ _ _ _ _)
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9_cov c _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10_cov c _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11_cov c _ _ _ _ _ _ _ _ _ _ _ _ _ _ _ _ _ _ _ _ _ _ _ _ _ _ _ _ _ _ _ _ _ _ _ _ _ _ _)
  · rw [outsAt0_B V c t h]
    unfold caseB out0_B_9 out0_B_10 out0_B_11 sout0_B_0 sout0_B_1; (try dsimp only)
    rw [PhiS_castSucc V c t, PhiS_pos V c _ _ h]
    iintro ⟨⟨⟨HS0, HS1, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ (fun hc => h ((hcond0 t).mp hc)) (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 HT Hg]
    · isplitl [HS0 HS1 HT]
      · isplitl [HS0]
        · unfold owns; iexists _; isplitr
          swap; · iexact HS0
          ipureintro; exact View.read_writes_of_cover _ _ _ _ _ (scover0_B_0_cov c _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1_cov c _ _ _ _ _ _ _ _ _ _ _ _ _ _ _ _ _ _ _ _ _ _ _ _ _ _ _ _ _ _ _ _ _ _ _ _ _ _ _ _ _)
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9_cov c _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10_cov c _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11_cov c _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the running sums' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HT⟩, Hg⟩
  isplitl [HS0 HS1 HT]
  · isplitl [HS0]; · iexists _; iexact HS0
    isplitl [HS1]; · iexists _; iexact HS1
    iexact HT
  iexact Hg

theorem hout0 (c : Dev nD) : (dat0 V c).Φ (Fin.last cfg0.N) ⊢ Pipeline.ΦA spec0 c :=
  Phi_out0 V c _ (by rw [Fin.val_last]; have : cfg0.N = 400 := N_0; omega)

end Regions

end Cert.KernelIdeal.Hand

end
-- ==== Proof.KIReg1.lean ====
/- The class-A half of the second kernel region (custom_call 1, the body `cc1__norm_kernel`, pipeline `cfg1`):
   seven windows — inputs 0..5, output 6 — on a grid of 400 points. Windows 0, 1 and 6 have blocks of 8000 rows
   moving with the point; windows 2..5 are whole 1x16 arrays at a constant block index. The body loads every input
   block whole and stores the output block whole, once. Everything is stated for any float instance `F` and for any
   contents `V` of the TensorCore's buffers at the region's entry. -/
import proofs.«110224_j19997367730282_1_alg».proof.Proof.Gen.KernelIdeal.Launch
import proofs.«110224_j19997367730282_1_alg».proof.Proof.Gen.KernelIdeal.Skeleton
import proofs.«110224_j19997367730282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, `cc1__norm_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, so the previous point's block is this point's; the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is not
    fetched its block index has not moved, so the previous point's block is this point's; the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is not
    fetched its block index has not moved, so the previous point's block is this point's; the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 8000x16 block, and the whole 1x16 block. -/
abbrev r1_0 : Rect S8000x16 := Rect.unit (s := S8000x16) ![0, 0] S8000x16.size inb_S8000x16_S8000x16_0_0
abbrev r1_1 : Rect S1x16 := Rect.unit (s := S1x16) ![0, 0] S1x16.size inb_S1x16_S1x16_0_0

/-! ## What the body leaves in the output window's buffer -/

/-- Window 6's staging buffer after the body, from the six input windows' blocks: its one store of the whole block,
    whose value is the body's arithmetic over the loaded blocks. -/
def out1_6 (x0 : Vec F S8000x16 .f32) (x1 : Vec F S8000x16 .f32) (x2 : Vec F S1x16 .f32) (x3 : Vec F S1x16 .f32) (x4 : Vec F S1x16 .f32) (x5 : Vec F S1x16 .f32) : Vec F S8000x16 .f32 :=
  View.canon [⟨r1_0, k1_pay1 (View.ld x0 r1_0) (View.ld x2 r1_1) (View.ld x3 r1_1) (View.ld x4 r1_1) (View.ld x5 r1_1) (View.ld x1 r1_0)⟩]

/-- The one store is of the whole buffer, so it covers it. -/
theorem cover1_6 (p0 : Vec F S8000x16 .f32) (y : S8000x16.Idx) :
    ∃ pc ∈ ([⟨r1_0, p0⟩] : List (View.Piece (Elt F) S8000x16 .f32)), y ∈ pc.1.set :=
  View.cover_of_tiled [⟨r1_0, p0⟩] S8000x16.size (by rfl) y

/-! ## The body's triple -/

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords) (arg1 : Memref sig .tc .vmem S8000x16 .f32) (harg1 : arg1.IsWhole) (arg2 : Memref sig .tc .vmem S8000x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S8000x16 .f32) (harg7 : arg7.IsWhole)
    (x0 : Vec F S8000x16 .f32) (x1 : Vec F S8000x16 .f32) (x2 : Vec F S1x16 .f32) (x3 : Vec F S1x16 .f32) (x4 : Vec F S1x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__norm_kernel i arg1 harg1 arg2 harg2 arg3 harg3 arg4 harg4 arg5 harg5 arg6 harg6 arg7 harg7) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIFrame.lean ====
import proofs.«110224_j19997367730282_1_alg».proof.Proof.Gen.KernelIdeal.Launch
import proofs.«110224_j19997367730282_1_alg».proof.Proof.Gen.KernelIdeal.Skeleton
import proofs.«110224_j19997367730282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110224_j19997367730282_1_alg».proof.Proof.Gen.KernelIdeal.Regions
import proofs.«110224_j19997367730282_1_alg».proof.Proof.KIReg0Body
import proofs.«110224_j19997367730282_1_alg».proof.Proof.KIReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: host operations, the statistics region, host operations, the normalisation region -/

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first host stretch (the statistics region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the statistics region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the normalisation region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the normalisation region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  (W4_of_ne m c main_arg0 (by decide)).trans <| (StableHlo.after_of_writes_sub hostOps1 _ hostOps1_writes (by decide)).trans <|
    (W2_of_ne m c main_arg0 (by decide)).trans <| (StableHlo.after_of_writes_sub hostOps0 _ hostOps0_writes (by decide)).trans rfl

theorem W4_main_arg1 (c : Dev nD) : W4 m c (Proc.devRef .tc main_arg1) = m ((c : Thread nD τ).loc main_arg1) :=
  (W4_of_ne m c main_arg1 (by decide)).trans <| (StableHlo.after_of_writes_sub hostOps1 _ hostOps1_writes (by decide)).trans <|
    (W2_of_ne m c main_arg1 (by decide)).trans <| (StableHlo.after_of_writes_sub hostOps0 _ hostOps0_writes (by decide)).trans rfl

/-- The edge-attribute array is an input window of both regions: each leaves it as entered. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := (W4_arr m c 1).trans (((dat1 (V3 m) c).arrAt_in 1 rfl _).trans (A_eq1 (V3 m) c 1))
    _ = W2 m c (Proc.devRef .tc main_arg2) := StableHlo.after_of_writes_sub hostOps1 _ hostOps1_writes (by decide)
    _ = W1 m c (Proc.devRef .tc main_arg2) := (W2_arr m c 0).trans (((dat0 (V1 m) c).arrAt_in 0 rfl _).trans (A_eq0 (V1 m) c 0))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  (W4_of_ne m c main_arg3 (by decide)).trans <| (StableHlo.after_of_writes_sub hostOps1 _ hostOps1_writes (by decide)).trans <|
    (W2_of_ne m c main_arg3 (by decide)).trans <| (StableHlo.after_of_writes_sub hostOps0 _ hostOps0_writes (by decide)).trans rfl

theorem W4_main_arg4 (c : Dev nD) : W4 m c (Proc.devRef .tc main_arg4) = m ((c : Thread nD τ).loc main_arg4) :=
  (W4_of_ne m c main_arg4 (by decide)).trans <| (StableHlo.after_of_writes_sub hostOps1 _ hostOps1_writes (by decide)).trans <|
    (W2_of_ne m c main_arg4 (by decide)).trans <| (StableHlo.after_of_writes_sub hostOps0 _ hostOps0_writes (by decide)).trans rfl

theorem W4_main_arg5 (c : Dev nD) : W4 m c (Proc.devRef .tc main_arg5) = m ((c : Thread nD τ).loc main_arg5) :=
  (W4_of_ne m c main_arg5 (by decide)).trans <| (StableHlo.after_of_writes_sub hostOps1 _ hostOps1_writes (by decide)).trans <|
    (W2_of_ne m c main_arg5 (by decide)).trans <| (StableHlo.after_of_writes_sub hostOps0 _ hostOps0_writes (by decide)).trans rfl

theorem W4_main_arg6 (c : Dev nD) : W4 m c (Proc.devRef .tc main_arg6) = m ((c : Thread nD τ).loc main_arg6) :=
  (W4_of_ne m c main_arg6 (by decide)).trans <| (StableHlo.after_of_writes_sub hostOps1 _ hostOps1_writes (by decide)).trans <|
    (W2_of_ne m c main_arg6 (by decide)).trans <| (StableHlo.after_of_writes_sub hostOps0 _ hostOps0_writes (by decide)).trans rfl

theorem W4_main_arg7 (c : Dev nD) : W4 m c (Proc.devRef .tc main_arg7) = m ((c : Thread nD τ).loc main_arg7) :=
  (W4_of_ne m c main_arg7 (by decide)).trans <| (StableHlo.after_of_writes_sub hostOps1 _ hostOps1_writes (by decide)).trans <|
    (W2_of_ne m c main_arg7 (by decide)).trans <| (StableHlo.after_of_writes_sub hostOps0 _ hostOps0_writes (by decide)).trans rfl

theorem W4_main_arg8 (c : Dev nD) : W4 m c (Proc.devRef .tc main_arg8) = m ((c : Thread nD τ).loc main_arg8) :=
  (W4_of_ne m c main_arg8 (by decide)).trans <| (StableHlo.after_of_writes_sub hostOps1 _ hostOps1_writes (by decide)).trans <|
    (W2_of_ne m c main_arg8 (by decide)).trans <| (StableHlo.after_of_writes_sub hostOps0 _ hostOps0_writes (by decide)).trans rfl

theorem W4_main_arg9 (c : Dev nD) : W4 m c (Proc.devRef .tc main_arg9) = m ((c : Thread nD τ).loc main_arg9) :=
  (W4_of_ne m c main_arg9 (by decide)).trans <| (StableHlo.after_of_writes_sub hostOps1 _ hostOps1_writes (by decide)).trans <|
    (W2_of_ne m c main_arg9 (by decide)).trans <| (StableHlo.after_of_writes_sub hostOps0 _ hostOps0_writes (by decide)).trans rfl

theorem W4_main_arg10 (c : Dev nD) : W4 m c (Proc.devRef .tc main_arg10) = m ((c : Thread nD τ).loc main_arg10) :=
  (W4_of_ne m c main_arg10 (by decide)).trans <| (StableHlo.after_of_writes_sub hostOps1 _ hostOps1_writes (by decide)).trans <|
    (W2_of_ne m c main_arg10 (by decide)).trans <| (StableHlo.after_of_writes_sub hostOps0 _ hostOps0_writes (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (V1 m) c)
  hout c := by
    rw [Pipeline.ownSems0_none]
    have h2 : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c)⟩) (run_all m ρ)

end Cert.KernelIdeal.Hand

end
-- ==== Proof.KIReg0Value.lean ====
/- What each case of the statistics body leaves, as plain terms of the point's input blocks and of the running sums
   the point before left. The body stores the block of pre-normalisation values (the three linear layers of the three
   row blocks, summed), adds the block's column sums to the running sum and the column sums of its squares to the
   running sum of squares — at the first point after resetting both to zero — and copies the two running sums to the
   two small outputs. Each buffer is written whole, so what is read back from it is the last value stored. -/
import proofs.«110224_j19997367730282_1_alg».proof.Proof.KIReg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rectangles the body reads and writes through start at the origin. -/
theorem hz0 : (![0, 0] : Fin 2 → Nat) = fun _ => 0 := funext fun a => by fin_cases a <;> rfl

/-- A whole-buffer load after a list of stores whose LAST store was of the whole buffer reads that store's value,
    whatever the earlier stores were. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

/-! ## The first point (the running sums are reset) -/

/-- The block of pre-normalisation values stored at the first point. -/
theorem out0_A_9_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 = k0_pay5 x1 x2 x3 x4 x6 x8 x5 x7 x9 := by
  unfold out0_A_9
  rw [View.read_writes_eq_canon _ _ _ (cover0_A_9_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9)]
  unfold kernelRun0_A
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The running sum after the first point: the block's column sums added to the reset value. -/
theorem sout0_A_0_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 = k0_pay3 (k0_pay5 x1 x2 x3 x4 x6 x8 x5 x7 x9) k0_pay1 := by
  unfold sout0_A_0
  rw [View.read_writes_eq_canon _ _ _ (scover0_A_0_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9)]
  unfold kernelRun0_A
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The running sum of squares after the first point. -/
theorem sout0_A_1_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 = k0_pay4 (k0_pay5 x1 x2 x3 x4 x6 x8 x5 x7 x9) k0_pay2 := by
  unfold sout0_A_1
  rw [View.read_writes_eq_canon _ _ _ (scover0_A_1_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9)]
  unfold kernelRun0_A
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The first small output holds a copy of the running sum. -/
theorem out0_A_10_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 = k0_pay3 (k0_pay5 x1 x2 x3 x4 x6 x8 x5 x7 x9) k0_pay1 := by
  unfold out0_A_10
  rw [View.read_writes_eq_canon _ _ _ (cover0_A_10_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9)]
  unfold kernelRun0_A
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The second small output holds a copy of the running sum of squares. -/
theorem out0_A_11_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 = k0_pay4 (k0_pay5 x1 x2 x3 x4 x6 x8 x5 x7 x9) k0_pay2 := by
  unfold out0_A_11
  rw [View.read_writes_eq_canon _ _ _ (cover0_A_11_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9)]
  unfold kernelRun0_A
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-! ## A later point (the running sums continue from `xs0`, `xs1`) -/

/-- The block of pre-normalisation values stored at a later point. -/
theorem out0_B_9_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1 = k0_pay5 x1 x2 x3 x4 x6 x8 x5 x7 x9 := by
  unfold out0_B_9
  rw [View.read_writes_eq_canon _ _ _ (cover0_B_9_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1)]
  unfold kernelRun0_B
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The running sum after a later point: the block's column sums added to what the point before left. -/
theorem sout0_B_0_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1 = k0_pay3 (k0_pay5 x1 x2 x3 x4 x6 x8 x5 x7 x9) xs0 := by
  unfold sout0_B_0
  rw [View.read_writes_eq_canon _ _ _ (scover0_B_0_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1)]
  unfold kernelRun0_B
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The running sum of squares after a later point. -/
theorem sout0_B_1_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1 = k0_pay4 (k0_pay5 x1 x2 x3 x4 x6 x8 x5 x7 x9) xs1 := by
  unfold sout0_B_1
  rw [View.read_writes_eq_canon _ _ _ (scover0_B_1_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1)]
  unfold kernelRun0_B
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The first small output holds a copy of the running sum. -/
theorem out0_B_10_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1 = k0_pay3 (k0_pay5 x1 x2 x3 x4 x6 x8 x5 x7 x9) xs0 := by
  unfold out0_B_10
  rw [View.read_writes_eq_canon _ _ _ (cover0_B_10_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1)]
  unfold kernelRun0_B
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

/-- The second small output holds a copy of the running sum of squares. -/
theorem out0_B_11_eq (c : Dev nD) (i : grid0.Coords) (arg1 : Memref sig .tc .vmem S8000x16 .f32) (harg1 : arg1.IsWhole) (arg2 : Memref sig .tc .vmem S8000x16 .f32) (harg2 : arg2.IsWhole) (arg3 : Memref sig .tc .vmem S8000x16 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S16x16 .f32) (harg8 : arg8.IsWhole) (arg9 : Memref sig .tc .vmem S1x16 .f32) (harg9 : arg9.IsWhole) (arg10 : Memref sig .tc .vmem S8000x16 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x16 .f32) (harg14 : arg14.IsWhole) (hc0 : ¬cond0 i) (x1 : Vec F S8000x16 .f32) (x2 : Vec F S8000x16 .f32) (x3 : Vec F S8000x16 .f32) (x4 : Vec F S16x16 .f32) (x5 : Vec F S1x16 .f32) (x6 : Vec F S16x16 .f32) (x7 : Vec F S1x16 .f32) (x8 : Vec F S16x16 .f32) (x9 : Vec F S1x16 .f32) (xs0 : Vec F S1x16 .f32) (xs1 : Vec F S1x16 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1 = k0_pay4 (k0_pay5 x1 x2 x3 x4 x6 x8 x5 x7 x9) xs1 := by
  unfold out0_B_11
  rw [View.read_writes_eq_canon _ _ _ (cover0_B_11_cov c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 xs0 xs1)]
  unfold kernelRun0_B
  dsimp only
  sl_unfold_words
  rw [View.canon_cons_unit_zero hz0]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8000x16) hz0, View.ld_unit_zero (S := S16x16) hz0, View.ld_unit_zero (S := S1x16) hz0, readCov_cons_unit_zero (S := S1x16) _ hz0, readCov_cons_unit_zero (S := S8000x16) _ hz0]

end Cert.KernelIdeal.Hand

end
-- ==== Proof.Spec.lean ====
/-
  The specification both programs are read against, over plain index functions on the extended reals.

  For an edge r and a channel d the pre-normalisation value is
    E r d = (Σₖ ea r k · W0 d k + b0 d) + (Σₖ hs r k · W1 d k + b1 d) + (Σₖ hd r k · W2 d k + b2 d),
  the column mean is  mean d = (Σᵣ E r d) / N  with N = 3 200 000, and the result is
    out r d = ea r d + max (((E r d − mean d) · rsqrt (var d + ε)) · γ d + β d) 0 .
  The two programs differ only in the variance they use: the kernel takes the second moment minus the squared
  mean (`varK`), the reference the mean of the squared deviations (`varR`). On real entries these are equal.
-/
import Idealize.ShloMosaic.PureOps.Ideal

noncomputable section

namespace Cert.Spec

open Idealize.ShloMosaic

/-- The number of edges. -/
abbrev NE : ℕ := 3200000

/-- The literal 3.2e6 both programs divide by. -/
abbrev cN : EReal := Ideal.ofBits .f32 0x4A435000#32

/-- The literal ε (the float nearest 1e-5) both programs add to the variance. -/
abbrev cEps : EReal := Ideal.ofBits .f32 0x3727C5AC#32

/-- One linear layer at a row: Σₖ a k · W d k + b d. -/
def lin (a : Fin 16 → EReal) (W : Fin 16 → Fin 16 → EReal) (b : Fin 16 → EReal) (d : Fin 16) : EReal :=
  (∑ k : Fin 16, a k * W d k) + b d

/-- The pre-normalisation value: the three linear layers summed, associated to the left. -/
def E (ea hs hd : Fin NE → Fin 16 → EReal) (W0 W1 W2 : Fin 16 → Fin 16 → EReal) (b0 b1 b2 : Fin 16 → EReal)
    (r : Fin NE) (d : Fin 16) : EReal :=
  (lin (ea r) W0 b0 d + lin (hs r) W1 b1 d) + lin (hd r) W2 b2 d

/-- The column sum and the column sum of squares. -/
def S1 (e : Fin NE → Fin 16 → EReal) (d : Fin 16) : EReal := ∑ r : Fin NE, e r d
def S2 (e : Fin NE → Fin 16 → EReal) (d : Fin 16) : EReal := ∑ r : Fin NE, e r d * e r d

/-- The column mean. -/
def mean (e : Fin NE → Fin 16 → EReal) (d : Fin 16) : EReal := Ideal.div (S1 e d) cN

/-- The kernel's variance: second moment minus squared mean. -/
def varK (e : Fin NE → Fin 16 → EReal) (d : Fin 16) : EReal := Ideal.div (S2 e d) cN - mean e d * mean e d

/-- The reference's variance: mean of the squared deviations. -/
def varR (e : Fin NE → Fin 16 → EReal) (d : Fin 16) : EReal :=
  Ideal.div (∑ r : Fin NE, (e r d - mean e d) * (e r d - mean e d)) cN

/-- The result at an entry, for a given variance vector. -/
def out (ea e : Fin NE → Fin 16 → EReal) (var g bt : Fin 16 → EReal) (r : Fin NE) (d : Fin 16) : EReal :=
  ea r d + max (((e r d - mean e d) * Ideal.rsqrt (var d + cEps)) * g d + bt d) 0

end Cert.Spec

end
-- ==== Proof.KIPay0.lean ====
/-
  The statistics kernel's payloads read at an index, on the extended reals.

  The block payload is three linear layers summed: each a product of an [8000,16] block with a [16,16] matrix into a
  zero accumulator, Σₖ v(y,k) · w(k,d), plus a bias row repeated down the 8000 rows; a change of float format and a
  cast of an array to its own shape change nothing. The two accumulator payloads add to the stored row the column sums
  of the block, Σ_y v(y,d), respectively of its squares, Σ_y v(y,d)²: a reduction along the row axis from the zero word.
  The two initial payloads are the zero row.
-/
import proofs.«110224_j19997367730282_1_alg».proof.Proof.Gen.KernelIdeal.Skeleton
import proofs.«110224_j19997367730282_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- The dimension numbers of the three products: contract the block's axis 1 with the matrix's axis 0. -/
abbrev D := dot_S8000x16_S16x16_S8000x16_1_0_0_1_n_n

/-- The left operand index of the product at output (y, d) and contraction position k is (y, k). -/
theorem lhs_idx (y : Fin 8000) (d : Fin 16) (k : Fin 16) :
    D.lhsIdx (ix2 y d) ((contrEquiv1 D 16 rfl rfl).symm k) = ix2 y k := by
  have c2 := contrEquiv1_symm_val D 16 rfl rfl k
  funext ax; apply Fin.ext
  match ax with
  | ⟨0, _⟩ => simp [DotDims.lhsIdx, D, dot_S8000x16_S16x16_S8000x16_1_0_0_1_n_n]; rfl
  | ⟨1, _⟩ => simp [DotDims.lhsIdx, D, dot_S8000x16_S16x16_S8000x16_1_0_0_1_n_n]; exact c2

/-- The right operand index of the product at output (y, d) and contraction position k is (k, d). -/
theorem rhs_idx (y : Fin 8000) (d : Fin 16) (k : Fin 16) :
    D.rhsIdx (ix2 y d) ((contrEquiv1 D 16 rfl rfl).symm k) = ix2 k d := by
  have c2 := contrEquiv1_symm_val D 16 rfl rfl k
  funext ax; apply Fin.ext
  match ax with
  | ⟨0, _⟩ => simp [DotDims.rhsIdx, D, dot_S8000x16_S16x16_S8000x16_1_0_0_1_n_n]; exact c2
  | ⟨1, _⟩ => simp [DotDims.rhsIdx, D, dot_S8000x16_S16x16_S8000x16_1_0_0_1_n_n]; rfl

/-- One linear layer of the block payload at (y, d): Σₖ a(y,k) · w(k,d) + b(0,d). -/
theorem layer_apply (a : FVec Ideal S8000x16 .f32) (w : FVec Ideal S16x16 .f32) (b : FVec Ideal S1x16 .f32)
    (y : Fin 8000) (d : Fin 16) :
    addf (matmul D none (truncf .bf16 a bitsLt_bf16_f32) (truncf .bf16 w bitsLt_bf16_f32)
            (constant S8000x16 .f32 0x00000000#32))
          (broadcastTo S8000x16 b broadcasts_S1x16_S8000x16) (ix2 y d)
      = Cert.Spec.lin (fun k => a (ix2 y k)) (fun d k => w (ix2 k d)) (fun d => b (ix2 0 d)) d := by
  unfold Cert.Spec.lin
  refine congrArg₂ (· + ·) ?_ (broadcastTo_1b_ab_apply b broadcasts_S1x16_S8000x16 y d)
  refine (Ideal.matmul_constant_zero_apply D none _ _ (ix2 y d)).trans ?_
  rw [← Equiv.sum_comp (contrEquiv1 D 16 rfl rfl).symm]
  refine Finset.sum_congr rfl fun k _ => ?_
  rw [lhs_idx, rhs_idx]
  rfl

/-- The block payload at (y, d): the three linear layers, summed to the left. -/
theorem pay5_apply (v0 v2 v5 : Vec Ideal S8000x16 .f32) (v8 v11 v14 : Vec Ideal S16x16 .f32)
    (v18 v23 v28 : Vec Ideal S1x16 .f32) (y : Fin 8000) (d : Fin 16) :
    k0_pay5 (F := Ideal) v0 v2 v5 v8 v11 v14 v18 v23 v28 (ix2 y d)
      = (Cert.Spec.lin (fun k => v0 (ix2 y k)) (fun d k => v8 (ix2 k d)) (fun d => v18 (ix2 0 d)) d
          + Cert.Spec.lin (fun k => v2 (ix2 y k)) (fun d k => v11 (ix2 k d)) (fun d => v23 (ix2 0 d)) d)
        + Cert.Spec.lin (fun k => v5 (ix2 y k)) (fun d k => v14 (ix2 k d)) (fun d => v28 (ix2 0 d)) d := by
  unfold k0_pay5
  simp only [shapeCast_self]
  exact congrArg₂ (· + ·) (congrArg₂ (· + ·) (layer_apply v0 v8 v18 y d) (layer_apply v2 v11 v23 y d))
    (layer_apply v5 v14 v28 y d)

/-- The source index over column d with row coordinate y, for the reduction along the row axis, is (y, d). -/
theorem lift_idx (d : Fin 16) (y : Fin 8000) :
    reduces_S8000x16_S16.lift (ix1 d) y = ix2 y d := by
  funext ax; apply Fin.ext
  match ax with
  | ⟨0, _⟩ => rfl
  | ⟨1, _⟩ => rfl

/-- A column sum of an [8000,16] block from the zero word, given a leading unit axis, read at (0, d). -/
theorem colsum_apply (x : FVec Ideal S8000x16 .f32) (d : Fin 16) :
    shapeCast S1x16 (multiReduction .add [0] S16 x 0x00000000#32 reduces_S8000x16_S16 (.inl rfl) rfl)
        shapeCasts_S16_S1x16 (ix2 0 d)
      = ∑ y : Fin 8000, x (ix2 y d) := by
  refine (shapeCast_a_1a_apply _ shapeCasts_S16_S1x16 0 d).trans ?_
  refine (Ideal.multiReduction_add_single x 0x00000000#32 reduces_S8000x16_S16 (.inl rfl) rfl (ix1 d)).trans ?_
  exact Finset.sum_congr rfl fun y _ => congrArg x (lift_idx d y)

/-- The sum accumulator's payload at (0, d): the stored row plus the block's column sum. -/
theorem pay3_apply (v33 : Vec Ideal S8000x16 .f32) (v38 : Vec Ideal S1x16 .f32) (d : Fin 16) :
    k0_pay3 (F := Ideal) v33 v38 (ix2 0 d) = v38 (ix2 0 d) + ∑ y : Fin 8000, v33 (ix2 y d) := by
  unfold k0_pay3
  simp only [shapeCast_self]
  exact congrArg (v38 (ix2 0 d) + ·) (colsum_apply v33 d)

/-- The sum-of-squares accumulator's payload at (0, d): the stored row plus the column sum of the squares. -/
theorem pay4_apply (v33 : Vec Ideal S8000x16 .f32) (v45 : Vec Ideal S1x16 .f32) (d : Fin 16) :
    k0_pay4 (F := Ideal) v33 v45 (ix2 0 d) = v45 (ix2 0 d) + ∑ y : Fin 8000, v33 (ix2 y d) * v33 (ix2 y d) := by
  unfold k0_pay4
  simp only [shapeCast_self]
  exact congrArg (v45 (ix2 0 d) + ·) (colsum_apply (mulf v33 v33) d)

/-- The sum accumulator starts as the zero row. -/
theorem pay1_apply (d : Fin 16) : k0_pay1 (F := Ideal) (ix2 0 d) = 0 := by
  unfold k0_pay1
  simp only [shapeCast_self]
  exact Ideal.ofBits_zero_f32

/-- The sum-of-squares accumulator starts as the zero row. -/
theorem pay2_apply (d : Fin 16) : k0_pay2 (F := Ideal) (ix2 0 d) = 0 := by
  unfold k0_pay2
  simp only [shapeCast_self]
  exact Ideal.ofBits_zero_f32

end Cert.KernelIdeal.Hand

end
-- ==== Proof.KIReg0Sum.lean ====
/- The running sums of the statistics region, point by point, on the extended reals: after point n the first
   running sum holds, per channel, the sum over the points up to n of the column sums of their blocks of
   pre-normalisation values, and the second the same for the squares; the two small outputs hold copies. -/
import proofs.«110224_j19997367730282_1_alg».proof.Proof.KIReg0Value
import proofs.«110224_j19997367730282_1_alg».proof.Proof.KIPay0

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Sums
variable (V : (c : Dev nD) → (b : Ref sig .tc) → Buf (Elt Ideal) ((c : Thread nD τ).loc b))

/-- The block of pre-normalisation values point `t` computes from its nine input blocks (the three row blocks, the
    three weight matrices, the three bias rows — in the order the body's arithmetic takes them). -/
def eblk (c : Dev nD) (t : Fin cfg0.N) : Vec Ideal S8000x16 .f32 :=
  k0_pay5 (F := Ideal) (iblk0 V c 0 t) (iblk0 V c 1 t) (iblk0 V c 2 t) (iblk0 V c 3 t) (iblk0 V c 5 t) (iblk0 V c 7 t)
    (iblk0 V c 4 t) (iblk0 V c 6 t) (iblk0 V c 8 t)

/-- The same indexed by a natural number: zero past the grid. -/
def eblkN (c : Dev nD) (t : ℕ) : Vec Ideal S8000x16 .f32 :=
  if h : t < cfg0.N then eblk V c ⟨t, h⟩ else fun _ => 0

theorem eblkN_of_lt (c : Dev nD) (t : ℕ) (h : t < cfg0.N) : eblkN V c t = eblk V c ⟨t, h⟩ := by
  unfold eblkN; rw [dif_pos h]

/-! ## The recursion, unfolded one step -/

theorem outsAt0_zero (c : Dev nD) (hn : 0 < cfg0.N) : outsAt0 V c 0 hn = caseA V c ⟨0, hn⟩ rfl := rfl

theorem outsAt0_succ (c : Dev nD) (n : ℕ) (hn : n + 1 < cfg0.N) :
    outsAt0 V c (n + 1) hn = caseB V c ⟨n + 1, hn⟩ (Nat.succ_ne_zero n) (outsAt0 V c n (Nat.lt_of_succ_lt hn)).2.2.2.1
      (outsAt0 V c n (Nat.lt_of_succ_lt hn)).2.2.2.2 := rfl

/-! ## Each component after each point, as the body's arithmetic -/

/-- The stored block at the first point, -/
theorem blk_zero (c : Dev nD) (hn : 0 < cfg0.N) : (outsAt0 V c 0 hn).1 = eblk V c ⟨0, hn⟩ := by
  rw [outsAt0_zero]; unfold caseA eblk; dsimp only; exact out0_A_9_eq ..
/-- and at a later point. -/
theorem blk_succ (c : Dev nD) (n : ℕ) (hn : n + 1 < cfg0.N) : (outsAt0 V c (n + 1) hn).1 = eblk V c ⟨n + 1, hn⟩ := by
  rw [outsAt0_succ]; unfold caseB eblk; dsimp only; exact out0_B_9_eq ..

/-- The stored block at every point is the point's block of pre-normalisation values. -/
theorem blk_eq (c : Dev nD) (n : ℕ) (hn : n < cfg0.N) : (outsAt0 V c n hn).1 = eblk V c ⟨n, hn⟩ := by
  cases n with
  | zero => exact blk_zero V c hn
  | succ n => exact blk_succ V c n hn

/-- The running sum after the first point: the block's column sums added to the zero row, -/
theorem acc_zero (c : Dev nD) (hn : 0 < cfg0.N) : (outsAt0 V c 0 hn).2.2.2.1 = k0_pay3 (F := Ideal) (eblk V c ⟨0, hn⟩) (k0_pay1 (F := Ideal)) := by
  rw [outsAt0_zero]; unfold caseA eblk; dsimp only; exact sout0_A_0_eq ..
/-- and after a later point: the block's column sums added to what the point before left. -/
theorem acc_succ (c : Dev nD) (n : ℕ) (hn : n + 1 < cfg0.N) :
    (outsAt0 V c (n + 1) hn).2.2.2.1 = k0_pay3 (F := Ideal) (eblk V c ⟨n + 1, hn⟩) (outsAt0 V c n (Nat.lt_of_succ_lt hn)).2.2.2.1 := by
  rw [outsAt0_succ]; unfold caseB eblk; dsimp only; exact sout0_B_0_eq ..

/-- The running sum of squares after the first point, -/
theorem accsq_zero (c : Dev nD) (hn : 0 < cfg0.N) : (outsAt0 V c 0 hn).2.2.2.2 = k0_pay4 (F := Ideal) (eblk V c ⟨0, hn⟩) (k0_pay2 (F := Ideal)) := by
  rw [outsAt0_zero]; unfold caseA eblk; dsimp only; exact sout0_A_1_eq ..
/-- and after a later point. -/
theorem accsq_succ (c : Dev nD) (n : ℕ) (hn : n + 1 < cfg0.N) :
    (outsAt0 V c (n + 1) hn).2.2.2.2 = k0_pay4 (F := Ideal) (eblk V c ⟨n + 1, hn⟩) (outsAt0 V c n (Nat.lt_of_succ_lt hn)).2.2.2.2 := by
  rw [outsAt0_succ]; unfold caseB eblk; dsimp only; exact sout0_B_1_eq ..

/-- The first small output holds what the running sum holds, at every point. -/
theorem out10_eq_acc (c : Dev nD) (n : ℕ) (hn : n < cfg0.N) : (outsAt0 V c n hn).2.1 = (outsAt0 V c n hn).2.2.2.1 := by
  cases n with
  | zero => rw [acc_zero, outsAt0_zero]; unfold caseA eblk; dsimp only; exact out0_A_10_eq ..
  | succ n => rw [acc_succ, outsAt0_succ]; unfold caseB eblk; dsimp only; exact out0_B_10_eq ..

/-- The second small output holds what the running sum of squares holds, at every point. -/
theorem out11_eq_accsq (c : Dev nD) (n : ℕ) (hn : n < cfg0.N) : (outsAt0 V c n hn).2.2.1 = (outsAt0 V c n hn).2.2.2.2 := by
  cases n with
  | zero => rw [accsq_zero, outsAt0_zero]; unfold caseA eblk; dsimp only; exact out0_A_11_eq ..
  | succ n => rw [accsq_succ, outsAt0_succ]; unfold caseB eblk; dsimp only; exact out0_B_11_eq ..

/-! ## The sums -/

/-- After point `n` the running sum holds, at channel `d`, the column sums of the blocks of the points `0 … n`, added up. -/
theorem acc_sum (c : Dev nD) : ∀ (n : ℕ) (hn : n < cfg0.N) (d : Fin 16),
    (outsAt0 V c n hn).2.2.2.1 (ix2 0 d) = ∑ t ∈ Finset.range (n + 1), ∑ y : Fin 8000, eblkN V c t (ix2 y d)
  | 0, hn, d => by
    rw [acc_zero, pay3_apply, pay1_apply, zero_add, Finset.sum_range_one, eblkN_of_lt V c 0 hn]
  | n + 1, hn, d => by
    rw [acc_succ, pay3_apply, acc_sum c n (Nat.lt_of_succ_lt hn) d, Finset.sum_range_succ _ (n + 1), eblkN_of_lt V c (n + 1) hn]

/-- After point `n` the running sum of squares holds the column sums of the squares, added up. -/
theorem accsq_sum (c : Dev nD) : ∀ (n : ℕ) (hn : n < cfg0.N) (d : Fin 16),
    (outsAt0 V c n hn).2.2.2.2 (ix2 0 d)
      = ∑ t ∈ Finset.range (n + 1), ∑ y : Fin 8000, eblkN V c t (ix2 y d) * eblkN V c t (ix2 y d)
  | 0, hn, d => by
    rw [accsq_zero, pay4_apply, pay2_apply, zero_add, Finset.sum_range_one, eblkN_of_lt V c 0 hn]
  | n + 1, hn, d => by
    rw [accsq_succ, pay4_apply, accsq_sum c n (Nat.lt_of_succ_lt hn) d, Finset.sum_range_succ _ (n + 1), eblkN_of_lt V c (n + 1) hn]

/-- The two small outputs hold the same sums. -/
theorem out10_sum (c : Dev nD) (n : ℕ) (hn : n < cfg0.N) (d : Fin 16) :
    (outsAt0 V c n hn).2.1 (ix2 0 d) = ∑ t ∈ Finset.range (n + 1), ∑ y : Fin 8000, eblkN V c t (ix2 y d) := by
  rw [out10_eq_acc]; exact acc_sum V c n hn d

theorem out11_sum (c : Dev nD) (n : ℕ) (hn : n < cfg0.N) (d : Fin 16) :
    (outsAt0 V c n hn).2.2.1 (ix2 0 d)
      = ∑ t ∈ Finset.range (n + 1), ∑ y : Fin 8000, eblkN V c t (ix2 y d) * eblkN V c t (ix2 y d) := by
  rw [out11_eq_accsq]; exact accsq_sum V c n hn d

end Sums

end Cert.KernelIdeal.Hand

end
-- ==== Proof.KIReg0Final.lean ====
/- From blocks to the arrays, for the three outputs of the statistics region. The block of pre-normalisation values
   is written back at every point and the 400 blocks tile the 3200000 rows: the first output ends holding, at row r
   and channel d, the three linear layers of row r of the three row arrays, summed. The two small outputs are written
   back once, after the last point, whole: they end holding what their staging buffers hold then, the two sums. -/
import proofs.«110224_j19997367730282_1_alg».proof.Proof.KIReg0Sum

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The last point of the grid. -/
theorem h399 : 399 < cfg0.N := by show 399 < grid0.N; rw [N_0]; decide

/-- Row `y` of point `t`'s block is row `8000·t + y` of the array. -/
def rowOf (t : Fin cfg0.N) (y : Fin 8000) : Fin 3200000 :=
  ⟨8000 * t.val + y.val, by
    have hN : grid0.N = 400 := N_0
    have hlt : t.val < grid0.N := t.isLt
    have hy : y.val < 8000 := y.isLt
    omega⟩

theorem rowOf_val (t : Fin cfg0.N) (y : Fin 8000) : (rowOf t y).val = 8000 * t.val + y.val := rfl

/-- The pre-normalisation values as one function of the three row arrays, the three matrices and the three bias rows:
    at row r and channel d, the three linear layers of row r, summed to the left. -/
def Ge (a0 a1 a2 : Vec Ideal S3200000x16 .f32) (w0 w1 w2 : Vec Ideal S16x16 .f32) (b0 b1 b2 : Vec Ideal S1x16 .f32) :
    Vec Ideal S3200000x16 .f32 :=
  fun j => (Cert.Spec.lin (fun k => a0 (ix2 (j 0 : Fin 3200000) k)) (fun d k => w0 (ix2 k d)) (fun d => b0 (ix2 0 d)) (j 1 : Fin 16)
      + Cert.Spec.lin (fun k => a1 (ix2 (j 0 : Fin 3200000) k)) (fun d k => w1 (ix2 k d)) (fun d => b1 (ix2 0 d)) (j 1 : Fin 16))
    + Cert.Spec.lin (fun k => a2 (ix2 (j 0 : Fin 3200000) k)) (fun d k => w2 (ix2 k d)) (fun d => b2 (ix2 0 d)) (j 1 : Fin 16)

/-- The same at a row and a channel. -/
theorem Ge_apply (a0 a1 a2 : Vec Ideal S3200000x16 .f32) (w0 w1 w2 : Vec Ideal S16x16 .f32) (b0 b1 b2 : Vec Ideal S1x16 .f32)
    (r : Fin 3200000) (d : Fin 16) :
    Ge a0 a1 a2 w0 w1 w2 b0 b1 b2 (ix2 r d)
      = (Cert.Spec.lin (fun k => a0 (ix2 r k)) (fun d k => w0 (ix2 k d)) (fun d => b0 (ix2 0 d)) d
          + Cert.Spec.lin (fun k => a1 (ix2 r k)) (fun d k => w1 (ix2 k d)) (fun d => b1 (ix2 0 d)) d)
        + Cert.Spec.lin (fun k => a2 (ix2 r k)) (fun d k => w2 (ix2 k d)) (fun d => b2 (ix2 0 d)) d := rfl

/-- The body's block is a block of `Ge`: when the three row blocks are the row arrays read at rows `row y` and the
    matrices and bias rows are the arrays themselves. -/
theorem pay5_eq_Ge (a0 a1 a2 : Vec Ideal S3200000x16 .f32) (w0 w1 w2 : Vec Ideal S16x16 .f32) (b0 b1 b2 : Vec Ideal S1x16 .f32)
    (x0 x1 x2 : Vec Ideal S8000x16 .f32) (x3 x5 x7 : Vec Ideal S16x16 .f32) (x4 x6 x8 : Vec Ideal S1x16 .f32)
    (row : Fin 8000 → Fin 3200000)
    (h0 : ∀ y k, x0 (ix2 y k) = a0 (ix2 (row y) k)) (h1 : ∀ y k, x1 (ix2 y k) = a1 (ix2 (row y) k))
    (h2 : ∀ y k, x2 (ix2 y k) = a2 (ix2 (row y) k))
    (h3 : x3 = w0) (h5 : x5 = w1) (h7 : x7 = w2) (h4 : x4 = b0) (h6 : x6 = b1) (h8 : x8 = b2) (y : Fin 8000) (d : Fin 16) :
    k0_pay5 (F := Ideal) x0 x1 x2 x3 x5 x7 x4 x6 x8 (ix2 y d) = Ge a0 a1 a2 w0 w1 w2 b0 b1 b2 (ix2 (row y) d) := by
  rw [pay5_apply, Ge_apply, h3, h5, h7, h4, h6, h8]
  simp only [h0, h1, h2]

/-- The printed index maps, decided over the grid: at point `t` the blocks of windows 0, 1, 2 and 9 are at block row
    `t`; the blocks of windows 3..8, 10 and 11 are their whole arrays. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

section Blocks
variable (V : (c : Dev nD) → (b : Ref sig .tc) → Buf (Elt Ideal) ((c : Thread nD τ).loc b))

/-! ## The input blocks, read off the arrays -/

/-- Window 0's block at point `t` is rows `8000·t … 8000·t + 7999` of its array. -/
theorem iblk0_0_apply (c : Dev nD) (t : Fin cfg0.N) (y : Fin 8000) (k : Fin 16) :
    iblk0 V c 0 t (ix2 y k) = V c main_arg2 (ix2 (rowOf t y) k) := by
  obtain ⟨e00, e01, e10, e11, e20, e21, -, -, -, -, -, -, -, -, -, -, -, -, -, -, -, -, -, -⟩ := idx_facts0 t
  show V c main_arg2 (((cfg0.win 0).blk t).view.emb (ix2 y k)) = V c main_arg2 (ix2 (rowOf t y) k)
  congr 1
  funext a; apply Fin.ext
  match a with
  | ⟨0, _⟩ => show win0_0.index t (0 : Fin 2) * 8000 + 1 * y.val = 8000 * t.val + y.val; rw [e00]; omega
  | ⟨1, _⟩ => show win0_0.index t (1 : Fin 2) * 16 + 1 * k.val = k.val; rw [e01]; omega

/-- Window 1's block at point `t` is rows `8000·t … 8000·t + 7999` of its array. -/
theorem iblk0_1_apply (c : Dev nD) (t : Fin cfg0.N) (y : Fin 8000) (k : Fin 16) :
    iblk0 V c 1 t (ix2 y k) = V c main_v8 (ix2 (rowOf t y) k) := by
  obtain ⟨e00, e01, e10, e11, e20, e21, -, -, -, -, -, -, -, -, -, -, -, -, -, -, -, -, -, -⟩ := idx_facts0 t
  show V c main_v8 (((cfg0.win 1).blk t).view.emb (ix2 y k)) = V c main_v8 (ix2 (rowOf t y) k)
  congr 1
  funext a; apply Fin.ext
  match a with
  | ⟨0, _⟩ => show win0_1.index t (0 : Fin 2) * 8000 + 1 * y.val = 8000 * t.val + y.val; rw [e10]; omega
  | ⟨1, _⟩ => show win0_1.index t (1 : Fin 2) * 16 + 1 * k.val = k.val; rw [e11]; omega

/-- Window 2's block at point `t` is rows `8000·t … 8000·t + 7999` of its array. -/
theorem iblk0_2_apply (c : Dev nD) (t : Fin cfg0.N) (y : Fin 8000) (k : Fin 16) :
    iblk0 V c 2 t (ix2 y k) = V c main_v17 (ix2 (rowOf t y) k) := by
  obtain ⟨e00, e01, e10, e11, e20, e21, -, -, -, -, -, -, -, -, -, -, -, -, -, -, -, -, -, -⟩ := idx_facts0 t
  show V c main_v17 (((cfg0.win 2).blk t).view.emb (ix2 y k)) = V c main_v17 (ix2 (rowOf t y) k)
  congr 1
  funext a; apply Fin.ext
  match a with
  | ⟨0, _⟩ => show win0_2.index t (0 : Fin 2) * 8000 + 1 * y.val = 8000 * t.val + y.val; rw [e20]; omega
  | ⟨1, _⟩ => show win0_2.index t (1 : Fin 2) * 16 + 1 * k.val = k.val; rw [e21]; omega

/-- Window 3's block is its whole array at every point. -/
theorem iblk0_3_eq (c : Dev nD) (t : Fin cfg0.N) : iblk0 V c 3 t = V c main_v18 := by
  obtain ⟨-, -, -, -, -, -, e30, e31, e40, e41, e50, e51, e60, e61, e70, e71, e80, e81, -, -, -, -, -, -⟩ := idx_facts0 t
  funext j
  show V c main_v18 (((cfg0.win 3).blk t).view.emb j) = V c main_v18 j
  congr 1
  funext a; apply Fin.ext
  match a with
  | ⟨0, _⟩ => show win0_3.index t (0 : Fin 2) * 16 + 1 * (j 0).val = (j 0).val; rw [e30]; omega
  | ⟨1, _⟩ => show win0_3.index t (1 : Fin 2) * 16 + 1 * (j 1).val = (j 1).val; rw [e31]; omega

/-- Window 4's block is its whole array at every point. -/
theorem iblk0_4_eq (c : Dev nD) (t : Fin cfg0.N) : iblk0 V c 4 t = V c main_v21 := by
  obtain ⟨-, -, -, -, -, -, e30, e31, e40, e41, e50, e51, e60, e61, e70, e71, e80, e81, -, -, -, -, -, -⟩ := idx_facts0 t
  funext j
  show V c main_v21 (((cfg0.win 4).blk t).view.emb j) = V c main_v21 j
  congr 1
  funext a; apply Fin.ext
  match a with
  | ⟨0, _⟩ => show win0_4.index t (0 : Fin 2) * 1 + 1 * (j 0).val = (j 0).val; rw [e40]; omega
  | ⟨1, _⟩ => show win0_4.index t (1 : Fin 2) * 16 + 1 * (j 1).val = (j 1).val; rw [e41]; omega

/-- Window 5's block is its whole array at every point. -/
theorem iblk0_5_eq (c : Dev nD) (t : Fin cfg0.N) : iblk0 V c 5 t = V c main_v19 := by
  obtain ⟨-, -, -, -, -, -, e30, e31, e40, e41, e50, e51, e60, e61, e70, e71, e80, e81, -, -, -, -, -, -⟩ := idx_facts0 t
  funext j
  show V c main_v19 (((cfg0.win 5).blk t).view.emb j) = V c main_v19 j
  congr 1
  funext a; apply Fin.ext
  match a with
  | ⟨0, _⟩ => show win0_5.index t (0 : Fin 2) * 16 + 1 * (j 0).val = (j 0).val; rw [e50]; omega
  | ⟨1, _⟩ => show win0_5.index t (1 : Fin 2) * 16 + 1 * (j 1).val = (j 1).val; rw [e51]; omega

/-- Window 6's block is its whole array at every point. -/
theorem iblk0_6_eq (c : Dev nD) (t : Fin cfg0.N) : iblk0 V c 6 t = V c main_v22 := by
  obtain ⟨-, -, -, -, -, -, e30, e31, e40, e41, e50, e51, e60, e61, e70, e71, e80, e81, -, -, -, -, -, -⟩ := idx_facts0 t
  funext j
  show V c main_v22 (((cfg0.win 6).blk t).view.emb j) = V c main_v22 j
  congr 1
  funext a; apply Fin.ext
  match a with
  | ⟨0, _⟩ => show win0_6.index t (0 : Fin 2) * 1 + 1 * (j 0).val = (j 0).val; rw [e60]; omega
  | ⟨1, _⟩ => show win0_6.index t (1 : Fin 2) * 16 + 1 * (j 1).val = (j 1).val; rw [e61]; omega

/-- Window 7's block is its whole array at every point. -/
theorem iblk0_7_eq (c : Dev nD) (t : Fin cfg0.N) : iblk0 V c 7 t = V c main_v20 := by
  obtain ⟨-, -, -, -, -, -, e30, e31, e40, e41, e50, e51, e60, e61, e70, e71, e80, e81, -, -, -, -, -, -⟩ := idx_facts0 t
  funext j
  show V c main_v20 (((cfg0.win 7).blk t).view.emb j) = V c main_v20 j
  congr 1
  funext a; apply Fin.ext
  match a with
  | ⟨0, _⟩ => show win0_7.index t (0 : Fin 2) * 16 + 1 * (j 0).val = (j 0).val; rw [e70]; omega
  | ⟨1, _⟩ => show win0_7.index t (1 : Fin 2) * 16 + 1 * (j 1).val = (j 1).val; rw [e71]; omega

/-- Window 8's block is its whole array at every point. -/
theorem iblk0_8_eq (c : Dev nD) (t : Fin cfg0.N) : iblk0 V c 8 t = V c main_v23 := by
  obtain ⟨-, -, -, -, -, -, e30, e31, e40, e41, e50, e51, e60, e61, e70, e71, e80, e81, -, -, -, -, -, -⟩ := idx_facts0 t
  funext j
  show V c main_v23 (((cfg0.win 8).blk t).view.emb j) = V c main_v23 j
  congr 1
  funext a; apply Fin.ext
  match a with
  | ⟨0, _⟩ => show win0_8.index t (0 : Fin 2) * 1 + 1 * (j 0).val = (j 0).val; rw [e80]; omega
  | ⟨1, _⟩ => show win0_8.index t (1 : Fin 2) * 16 + 1 * (j 1).val = (j 1).val; rw [e81]; omega

/-- The block of pre-normalisation values point `t` computes is block `t` of `Ge` of the nine arrays. -/
theorem eblk_apply (c : Dev nD) (t : Fin cfg0.N) (y : Fin 8000) (d : Fin 16) :
    eblk V c t (ix2 y d) = Ge (V c main_arg2) (V c main_v8) (V c main_v17) (V c main_v18) (V c main_v19) (V c main_v20) (V c main_v21) (V c main_v22) (V c main_v23) (ix2 (rowOf t y) d) := by
  unfold eblk
  refine pay5_eq_Ge (V c main_arg2) (V c main_v8) (V c main_v17) (V c main_v18) (V c main_v19) (V c main_v20) (V c main_v21) (V c main_v22) (V c main_v23)
    (iblk0 V c 0 t) (iblk0 V c 1 t) (iblk0 V c 2 t) (iblk0 V c 3 t) (iblk0 V c 5 t) (iblk0 V c 7 t) (iblk0 V c 4 t) (iblk0 V c 6 t) (iblk0 V c 8 t)
    (rowOf t) ?_ ?_ ?_ ?_ ?_ ?_ ?_ ?_ ?_ y d
  · exact fun y k => iblk0_0_apply V c t y k
  · exact fun y k => iblk0_1_apply V c t y k
  · exact fun y k => iblk0_2_apply V c t y k
  · exact iblk0_3_eq V c t
  · exact iblk0_5_eq V c t
  · exact iblk0_7_eq V c t
  · exact iblk0_4_eq V c t
  · exact iblk0_6_eq V c t
  · exact iblk0_8_eq V c t

/-! ## The first output: the pre-normalisation values -/

/-- What point `t` writes back to the first output is block `t` of `Ge` of the nine arrays as the region finds them. -/
theorem flushed0_9_eq (c : Dev nD) (t : Fin cfg0.N) :
    (dat0 (F := Ideal) V c).flushed 9 t = ((cfg0.win 9).blk t).view.read (Elt Ideal) (Ge (V c main_arg2) (V c main_v8) (V c main_v17) (V c main_v18) (V c main_v19) (V c main_v20) (V c main_v21) (V c main_v22) (V c main_v23)) := by
  show (cfg0.win 9).cut (grid0.coords t) ((dat0 V c).after 9 t) = _
  rw [after0_9, blk_eq V c t.val t.isLt]
  obtain ⟨-, -, -, -, -, -, -, -, -, -, -, -, -, -, -, -, -, -, e90, e91, -, -, -, -⟩ := idx_facts0 t
  refine funext fun (j : S8000x16.Idx) => ?_
  obtain ⟨y, d, rfl⟩ : ∃ (y : Fin 8000) (d : Fin 16), j = ix2 y d := ⟨j 0, j 1, eq_ix2 j⟩
  refine (eblk_apply V c t y d).trans ?_
  show Ge (V c main_arg2) (V c main_v8) (V c main_v17) (V c main_v18) (V c main_v19) (V c main_v20) (V c main_v21) (V c main_v22) (V c main_v23) (ix2 (rowOf t y) d) = Ge (V c main_arg2) (V c main_v8) (V c main_v17) (V c main_v18) (V c main_v19) (V c main_v20) (V c main_v21) (V c main_v22) (V c main_v23) (((cfg0.win 9).blk t).view.emb (ix2 y d))
  congr 1
  funext a; apply Fin.ext
  match a with
  | ⟨0, _⟩ => show 8000 * t.val + y.val = win0_9.index t (0 : Fin 2) * 8000 + 1 * y.val; rw [e90]; omega
  | ⟨1, _⟩ => show d.val = win0_9.index t (1 : Fin 2) * 16 + 1 * d.val; rw [e91]; omega

/-- An index of the first output is in point `t`'s block iff each coordinate is in the block's range on its axis. -/
theorem mem_blk0_9 (t : Fin cfg0.N) (i : S3200000x16.Idx) :
    i ∈ ((cfg0.win 9).blk t).view.set ↔ ∀ a : Fin 2, win0_9.index t a * S8000x16.size a ≤ (i a).val ∧ (i a).val < win0_9.index t a * S8000x16.size a + S8000x16.size a := by
  show i ∈ ((View.whole main_v24_0).slice (win0_9.rect t)).set ↔ _
  rw [View.set_slice_whole, Rect.mem_set_unit]
  exact Iff.rfl

/-- Every index of the first output is in the block of the point its row falls to: row `r` in point `r / 8000`'s. -/
theorem covered0_9 (i : S3200000x16.Idx) :
    ∃ t : Fin cfg0.N, (cfg0.win 9).flush t = true ∧ i ∈ ((cfg0.win 9).blk t).view.set := by
  have hi0 : (i 0).val < 3200000 := (i 0).isLt
  have hi1 : (i 1).val < 16 := (i 1).isLt
  have hN : grid0.N = 400 := N_0
  have ht : (i 0).val / 8000 < cfg0.N := by show (i 0).val / 8000 < grid0.N; rw [hN]; omega
  obtain ⟨-, -, -, -, -, -, -, -, -, -, -, -, -, -, -, -, -, -, e90, e91, -, -, -, -⟩ := idx_facts0 ⟨(i 0).val / 8000, ht⟩
  refine ⟨⟨(i 0).val / 8000, ht⟩, flush0_9 _, ?_⟩
  rw [mem_blk0_9]
  intro a
  match a with
  | ⟨0, _⟩ =>
    show win0_9.index ⟨(i 0).val / 8000, ht⟩ (0 : Fin 2) * 8000 ≤ (i 0).val ∧ (i 0).val < win0_9.index ⟨(i 0).val / 8000, ht⟩ (0 : Fin 2) * 8000 + 8000
    rw [e90]; show (i 0).val / 8000 * 8000 ≤ (i 0).val ∧ (i 0).val < (i 0).val / 8000 * 8000 + 8000; omega
  | ⟨1, _⟩ =>
    show win0_9.index ⟨(i 0).val / 8000, ht⟩ (1 : Fin 2) * 16 ≤ (i 1).val ∧ (i 1).val < win0_9.index ⟨(i 0).val / 8000, ht⟩ (1 : Fin 2) * 16 + 16
    rw [e91]; omega

/-- The first output after the region: `Ge` of the nine input arrays as the region finds them. -/
theorem final0_9 (c : Dev nD) : (dat0 (F := Ideal) V c).arrAt 9 cfg0.N = Ge (V c main_arg2) (V c main_v8) (V c main_v17) (V c main_v18) (V c main_v19) (V c main_v20) (V c main_v21) (V c main_v22) (V c main_v23) :=
  (dat0 (F := Ideal) V c).arrAt_eq_of_cover 9 _ (fun t _ => flushed0_9_eq V c t) covered0_9

/-! ## The two small outputs: the sums -/

/-- Window 10's block is its whole array: read through the block, an array is itself. -/
theorem read_whole0_10 (t : Fin cfg0.N) (G : Vec Ideal S1x16 .f32) :
    ((cfg0.win 10).blk t).view.read (Elt Ideal) G = G := by
  obtain ⟨-, -, -, -, -, -, -, -, -, -, -, -, -, -, -, -, -, -, -, -, e100, e101, e110, e111⟩ := idx_facts0 t
  funext j
  show G (((cfg0.win 10).blk t).view.emb j) = G j
  congr 1
  funext a; apply Fin.ext
  match a with
  | ⟨0, _⟩ => show win0_10.index t (0 : Fin 2) * 1 + 1 * (j 0).val = (j 0).val; rw [e100]; omega
  | ⟨1, _⟩ => show win0_10.index t (1 : Fin 2) * 16 + 1 * (j 1).val = (j 1).val; rw [e101]; omega

/-- Window 10 is uncut: the part of its staging buffer that is written back is the whole buffer. -/
theorem cut_whole0_10 (t : Fin cfg0.N) (G : Vec Ideal S1x16 .f32) : (cfg0.win 10).cut (grid0.coords t) G = G := rfl

/-- What the last point writes back to window 10 is what its staging buffer holds then. -/
theorem flushed0_10_eq (c : Dev nD) (t : Fin cfg0.N) (hf : (cfg0.win 10).flush t = true) :
    (dat0 (F := Ideal) V c).flushed 10 t = ((cfg0.win 10).blk t).view.read (Elt Ideal) ((outsAt0 V c 399 h399).2.1) := by
  have h1 : t.val = 399 := by
    have := (flush0_10 t).mp hf
    have hN : grid0.N = 400 := N_0
    have hlt : t.val < grid0.N := t.isLt
    omega
  rw [read_whole0_10]
  show (cfg0.win 10).cut (grid0.coords t) ((dat0 V c).after 10 t) = _
  rw [cut_whole0_10, after0_10]
  obtain ⟨n, hn⟩ := t
  have h2 : n = 399 := h1
  subst h2
  dsimp only

/-- An index of window 10's array is in point `t`'s block iff each coordinate is in the block's range on its axis. -/
theorem mem_blk0_10 (t : Fin cfg0.N) (i : S1x16.Idx) :
    i ∈ ((cfg0.win 10).blk t).view.set ↔ ∀ a : Fin 2, win0_10.index t a * S1x16.size a ≤ (i a).val ∧ (i a).val < win0_10.index t a * S1x16.size a + S1x16.size a := by
  show i ∈ ((View.whole main_v24_1).slice (win0_10.rect t)).set ↔ _
  rw [View.set_slice_whole, Rect.mem_set_unit]
  exact Iff.rfl

/-- The last point's block is the whole array. -/
theorem covered0_10 (i : S1x16.Idx) :
    ∃ t : Fin cfg0.N, (cfg0.win 10).flush t = true ∧ i ∈ ((cfg0.win 10).blk t).view.set := by
  have hi0 : (i 0).val < 1 := (i 0).isLt
  have hi1 : (i 1).val < 16 := (i 1).isLt
  obtain ⟨-, -, -, -, -, -, -, -, -, -, -, -, -, -, -, -, -, -, -, -, e100, e101, e110, e111⟩ := idx_facts0 ⟨399, h399⟩
  refine ⟨⟨399, h399⟩, (flush0_10 _).mpr (by decide), ?_⟩
  rw [mem_blk0_10]
  intro a
  match a with
  | ⟨0, _⟩ =>
    show win0_10.index ⟨399, h399⟩ (0 : Fin 2) * 1 ≤ (i 0).val ∧ (i 0).val < win0_10.index ⟨399, h399⟩ (0 : Fin 2) * 1 + 1
    rw [e100]; omega
  | ⟨1, _⟩ =>
    show win0_10.index ⟨399, h399⟩ (1 : Fin 2) * 16 ≤ (i 1).val ∧ (i 1).val < win0_10.index ⟨399, h399⟩ (1 : Fin 2) * 16 + 16
    rw [e101]; omega

/-- Window 10's array after the region: what its staging buffer holds after the last point. -/
theorem final0_10 (c : Dev nD) : (dat0 (F := Ideal) V c).arrAt 10 cfg0.N = (outsAt0 V c 399 h399).2.1 :=
  (dat0 (F := Ideal) V c).arrAt_eq_of_cover 10 _ (fun t hf => flushed0_10_eq V c t hf) covered0_10

/-- Window 11's block is its whole array: read through the block, an array is itself. -/
theorem read_whole0_11 (t : Fin cfg0.N) (G : Vec Ideal S1x16 .f32) :
    ((cfg0.win 11).blk t).view.read (Elt Ideal) G = G := by
  obtain ⟨-, -, -, -, -, -, -, -, -, -, -, -, -, -, -, -, -, -, -, -, e100, e101, e110, e111⟩ := idx_facts0 t
  funext j
  show G (((cfg0.win 11).blk t).view.emb j) = G j
  congr 1
  funext a; apply Fin.ext
  match a with
  | ⟨0, _⟩ => show win0_11.index t (0 : Fin 2) * 1 + 1 * (j 0).val = (j 0).val; rw [e110]; omega
  | ⟨1, _⟩ => show win0_11.index t (1 : Fin 2) * 16 + 1 * (j 1).val = (j 1).val; rw [e111]; omega

/-- Window 11 is uncut: the part of its staging buffer that is written back is the whole buffer. -/
theorem cut_whole0_11 (t : Fin cfg0.N) (G : Vec Ideal S1x16 .f32) : (cfg0.win 11).cut (grid0.coords t) G = G := rfl

/-- What the last point writes back to window 11 is what its staging buffer holds then. -/
theorem flushed0_11_eq (c : Dev nD) (t : Fin cfg0.N) (hf : (cfg0.win 11).flush t = true) :
    (dat0 (F := Ideal) V c).flushed 11 t = ((cfg0.win 11).blk t).view.read (Elt Ideal) ((outsAt0 V c 399 h399).2.2.1) := by
  have h1 : t.val = 399 := by
    have := (flush0_11 t).mp hf
    have hN : grid0.N = 400 := N_0
    have hlt : t.val < grid0.N := t.isLt
    omega
  rw [read_whole0_11]
  show (cfg0.win 11).cut (grid0.coords t) ((dat0 V c).after 11 t) = _
  rw [cut_whole0_11, after0_11]
  obtain ⟨n, hn⟩ := t
  have h2 : n = 399 := h1
  subst h2
  dsimp only

/-- An index of window 11's array is in point `t`'s block iff each coordinate is in the block's range on its axis. -/
theorem mem_blk0_11 (t : Fin cfg0.N) (i : S1x16.Idx) :
    i ∈ ((cfg0.win 11).blk t).view.set ↔ ∀ a : Fin 2, win0_11.index t a * S1x16.size a ≤ (i a).val ∧ (i a).val < win0_11.index t a * S1x16.size a + S1x16.size a := by
  show i ∈ ((View.whole main_v24_2).slice (win0_11.rect t)).set ↔ _
  rw [View.set_slice_whole, Rect.mem_set_unit]
  exact Iff.rfl

/-- The last point's block is the whole array. -/
theorem covered0_11 (i : S1x16.Idx) :
    ∃ t : Fin cfg0.N, (cfg0.win 11).flush t = true ∧ i ∈ ((cfg0.win 11).blk t).view.set := by
  have hi0 : (i 0).val < 1 := (i 0).isLt
  have hi1 : (i 1).val < 16 := (i 1).isLt
  obtain ⟨-, -, -, -, -, -, -, -, -, -, -, -, -, -, -, -, -, -, -, -, e100, e101, e110, e111⟩ := idx_facts0 ⟨399, h399⟩
  refine ⟨⟨399, h399⟩, (flush0_11 _).mpr (by decide), ?_⟩
  rw [mem_blk0_11]
  intro a
  match a with
  | ⟨0, _⟩ =>
    show win0_11.index ⟨399, h399⟩ (0 : Fin 2) * 1 ≤ (i 0).val ∧ (i 0).val < win0_11.index ⟨399, h399⟩ (0 : Fin 2) * 1 + 1
    rw [e110]; omega
  | ⟨1, _⟩ =>
    show win0_11.index ⟨399, h399⟩ (1 : Fin 2) * 16 ≤ (i 1).val ∧ (i 1).val < win0_11.index ⟨399, h399⟩ (1 : Fin 2) * 16 + 16
    rw [e111]; omega

/-- Window 11's array after the region: what its staging buffer holds after the last point. -/
theorem final0_11 (c : Dev nD) : (dat0 (F := Ideal) V c).arrAt 11 cfg0.N = (outsAt0 V c 399 h399).2.2.1 :=
  (dat0 (F := Ideal) V c).arrAt_eq_of_cover 11 _ (fun t hf => flushed0_11_eq V c t hf) covered0_11

end Blocks

end Cert.KernelIdeal.Hand

end
-- ==== Proof.KIReg1Value.lean ====
/- The output block of the second kernel region at an index, on the extended reals: the body adds to the second
   input block the positive part of the first input block, centred by the row vector of window 2, scaled by the
   reciprocal square root of window 3's row vector plus ε, scaled by window 4's row vector and shifted by window 5's. -/
import proofs.«110224_j19997367730282_1_alg».proof.Proof.KIReg1
import proofs.«110224_j19997367730282_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The two rectangles the body reads and writes through start at the origin. -/
theorem hz1 : (![0, 0] : Fin 2 → Nat) = fun _ => 0 := funext fun a => by fin_cases a <;> rfl

/-- A reciprocal square root of a vector at an index is the reciprocal square root of the element. -/
theorem rsqrt_apply_ideal {s : Shape} {φ : FTy} (a : FVec Ideal s φ) (i : s.Idx) : rsqrt a i = Ideal.rsqrt (a i) := rfl

/-- The store's value as a function of the six loaded blocks, at row `y` and channel `d`. -/
theorem k1_pay1_apply (v0 v23 : Vec Ideal S8000x16 .f32) (v2 v4 v6 v8 : Vec Ideal S1x16 .f32) (y : Fin 8000) (d : Fin 16) :
    k1_pay1 (F := Ideal) v0 v2 v4 v6 v8 v23 (ix2 y d)
      = v23 (ix2 y d) + max (((v0 (ix2 y d) - v2 (ix2 0 d)) * Ideal.rsqrt (v4 (ix2 0 d) + Cert.Spec.cEps)) * v6 (ix2 0 d) + v8 (ix2 0 d)) 0 := by
  unfold k1_pay1
  simp only [shapeCast_self]
  rw [addf_apply, maximumf_apply, addf_apply, mulf_apply, mulf_apply, subf_apply, broadcast_apply]
  rw [broadcastTo_1b_ab_apply, broadcastTo_1b_ab_apply, broadcastTo_1b_ab_apply, broadcastTo_1b_ab_apply]
  rw [rsqrt_apply_ideal, addf_apply, broadcast_apply]
  rw [show Scalar.ofBits (F := Ideal) .f32 0x00000000#32 = (0 : EReal) from Ideal.ofBits_zero_f32]
  rfl

/-- The output block at an index. -/
theorem out1_6_apply (x0 x1 : Vec Ideal S8000x16 .f32) (x2 x3 x4 x5 : Vec Ideal S1x16 .f32) (y : Fin 8000) (d : Fin 16) :
    out1_6 (F := Ideal) x0 x1 x2 x3 x4 x5 (ValueIdx.ix2 y d)
      = x1 (ValueIdx.ix2 y d) + max (((x0 (ValueIdx.ix2 y d) - x2 (ValueIdx.ix2 0 d)) * Ideal.rsqrt (x3 (ValueIdx.ix2 0 d) + Cert.Spec.cEps)) * x4 (ValueIdx.ix2 0 d) + x5 (ValueIdx.ix2 0 d)) 0 := by
  unfold out1_6
  rw [View.canon_unit_zero hz1]
  simp only [View.ld_unit_zero (S := S8000x16) hz1, View.ld_unit_zero (S := S1x16) hz1]
  exact k1_pay1_apply x0 x1 x2 x3 x4 x5 y d

end Cert.KernelIdeal.Hand

end
-- ==== Proof.KIReg1Final.lean ====
/- From blocks to the array, for the output window of the second kernel region: every grid point writes back one block
   of 8000 rows, the blocks tile the 3200000 rows, and each block is the same index-by-index function of the region's
   six input arrays. So the output array ends holding that function. -/
import proofs.«110224_j19997367730282_1_alg».proof.Proof.KIReg1Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- What the output array ends holding, index by index: the second array plus the positive part of the first array,
    centred by `mu`, scaled by the reciprocal square root of `var + ε`, scaled by `g` and shifted by `bt`, the four row
    vectors read at the index's channel. -/
def G1 (e ea : Vec Ideal S3200000x16 .f32) (mu var g bt : Vec Ideal S1x16 .f32) : Vec Ideal S3200000x16 .f32 :=
  fun j => ea j + max (((e j - mu (ix2 (0 : Fin 1) (j 1 : Fin 16))) * Ideal.rsqrt (var (ix2 (0 : Fin 1) (j 1 : Fin 16)) + Cert.Spec.cEps))
    * g (ix2 (0 : Fin 1) (j 1 : Fin 16)) + bt (ix2 (0 : Fin 1) (j 1 : Fin 16))) 0

/-- The same at a row and a channel. -/
theorem G1_apply (e ea : Vec Ideal S3200000x16 .f32) (mu var g bt : Vec Ideal S1x16 .f32) (r : Fin 3200000) (d : Fin 16) :
    G1 e ea mu var g bt (ix2 r d)
      = ea (ix2 r d) + max (((e (ix2 r d) - mu (ix2 0 d)) * Ideal.rsqrt (var (ix2 0 d) + Cert.Spec.cEps)) * g (ix2 0 d) + bt (ix2 0 d)) 0 := rfl

/-- The body's output block is a block of `G1`: when the two moving input blocks are the arrays read through a map
    `emb` of block indices to array indices that keeps the channel, and the four row-vector blocks are the row vectors. -/
theorem out1_6_eq_G1 (e ea : Vec Ideal S3200000x16 .f32) (mu var g bt : Vec Ideal S1x16 .f32)
    (x0 x1 : Vec Ideal S8000x16 .f32) (x2 x3 x4 x5 : Vec Ideal S1x16 .f32) (emb : S8000x16.Idx → S3200000x16.Idx)
    (h0 : ∀ j, x0 j = e (emb j)) (h1 : ∀ j, x1 j = ea (emb j)) (h2 : x2 = mu) (h3 : x3 = var) (h4 : x4 = g) (h5 : x5 = bt)
    (hemb : ∀ j, ((emb j) 1).val = (j 1).val) (j : S8000x16.Idx) :
    out1_6 (F := Ideal) x0 x1 x2 x3 x4 x5 j = G1 e ea mu var g bt (emb j) := by
  obtain ⟨y, d, rfl⟩ : ∃ (y : Fin 8000) (d : Fin 16), j = ix2 y d := ⟨j 0, j 1, eq_ix2 j⟩
  rw [out1_6_apply, h0, h1, h2, h3, h4, h5]
  have hd : ((emb (ix2 y d)) 1 : Fin 16) = d := Fin.ext (hemb (ix2 y d))
  unfold G1
  rw [hd]

/-- The printed index maps, decided over the grid: at point `t` the blocks of windows 0, 1 and 6 are at block row `t`,
    and the blocks of windows 2..5 are the whole row vectors. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Blocks
variable (V : (c : Dev nD) → (b : Ref sig .tc) → Buf (Elt Ideal) ((c : Thread nD τ).loc b))

/-- What point `t` writes back is block `t` of `G1` of the six input arrays as the region finds them. -/
theorem flushed1_6_eq (c : Dev nD) (t : Fin cfg1.N) :
    (dat1 (F := Ideal) V c).flushed 6 t = ((cfg1.win 6).blk t).view.read (Elt Ideal)
      (G1 (V c main_v24_0) (V c main_arg2) (V c main_v26) (V c main_v30) (V c main_v31) (V c main_v32)) := by
  show (cfg1.win 6).cut (grid1.coords t) ((dat1 V c).after 6 t) = _
  rw [after1_6]
  obtain ⟨e00, e01, e10, e11, e20, e21, e30, e31, e40, e41, e50, e51, e60, e61⟩ := idx_facts1 t
  refine funext fun (j : S8000x16.Idx) => ?_
  refine out1_6_eq_G1 (V c main_v24_0) (V c main_arg2) (V c main_v26) (V c main_v30) (V c main_v31) (V c main_v32)
    (iblk1 V c 0 t) (iblk1 V c 1 t) (iblk1 V c 2 t) (iblk1 V c 3 t) (iblk1 V c 4 t) (iblk1 V c 5 t)
    (((cfg1.win 6).blk t).view.emb) ?_ ?_ ?_ ?_ ?_ ?_ ?_ j
  · intro j
    show V c main_v24_0 (((cfg1.win 0).blk t).view.emb j) = V c main_v24_0 (((cfg1.win 6).blk t).view.emb j)
    -- windows 0 and 6 have the same printed index map, so the two blocks sit at the same place
    rfl
  · intro j
    show V c main_arg2 (((cfg1.win 1).blk t).view.emb j) = V c main_arg2 (((cfg1.win 6).blk t).view.emb j)
    -- windows 1 and 6 have the same printed index map
    rfl
  · funext j
    show V c main_v26 (((cfg1.win 2).blk t).view.emb j) = V c main_v26 j
    congr 1
    funext a; apply Fin.ext
    match a with
    | ⟨0, _⟩ => show win1_2.index t (0 : Fin 2) * 1 + 1 * (j 0).val = (j 0).val; rw [e20]; omega
    | ⟨1, _⟩ => show win1_2.index t (1 : Fin 2) * 16 + 1 * (j 1).val = (j 1).val; rw [e21]; omega
  · funext j
    show V c main_v30 (((cfg1.win 3).blk t).view.emb j) = V c main_v30 j
    congr 1
    funext a; apply Fin.ext
    match a with
    | ⟨0, _⟩ => show win1_3.index t (0 : Fin 2) * 1 + 1 * (j 0).val = (j 0).val; rw [e30]; omega
    | ⟨1, _⟩ => show win1_3.index t (1 : Fin 2) * 16 + 1 * (j 1).val = (j 1).val; rw [e31]; omega
  · funext j
    show V c main_v31 (((cfg1.win 4).blk t).view.emb j) = V c main_v31 j
    congr 1
    funext a; apply Fin.ext
    match a with
    | ⟨0, _⟩ => show win1_4.index t (0 : Fin 2) * 1 + 1 * (j 0).val = (j 0).val; rw [e40]; omega
    | ⟨1, _⟩ => show win1_4.index t (1 : Fin 2) * 16 + 1 * (j 1).val = (j 1).val; rw [e41]; omega
  · funext j
    show V c main_v32 (((cfg1.win 5).blk t).view.emb j) = V c main_v32 j
    congr 1
    funext a; apply Fin.ext
    match a with
    | ⟨0, _⟩ => show win1_5.index t (0 : Fin 2) * 1 + 1 * (j 0).val = (j 0).val; rw [e50]; omega
    | ⟨1, _⟩ => show win1_5.index t (1 : Fin 2) * 16 + 1 * (j 1).val = (j 1).val; rw [e51]; omega
  · intro j
    show win1_6.index t (1 : Fin 2) * 16 + 1 * (j 1).val = (j 1).val
    rw [e61]; omega

/-- An index of the array is in point `t`'s block iff each coordinate is in the block's range on its axis. -/
theorem mem_blk1_6 (t : Fin cfg1.N) (i : S3200000x16.Idx) :
    i ∈ ((cfg1.win 6).blk t).view.set ↔ ∀ a : Fin 2, win1_6.index t a * S8000x16.size a ≤ (i a).val ∧ (i a).val < win1_6.index t a * S8000x16.size a + S8000x16.size a := by
  show i ∈ ((View.whole main_v33).slice (win1_6.rect t)).set ↔ _
  rw [View.set_slice_whole, Rect.mem_set_unit]
  exact Iff.rfl

/-- Every index of the array is in the block of the point its row falls to: row `r` in point `r / 8000`'s. -/
theorem covered1_6 (i : S3200000x16.Idx) :
    ∃ t : Fin cfg1.N, (cfg1.win 6).flush t = true ∧ i ∈ ((cfg1.win 6).blk t).view.set := by
  have hi0 : (i 0).val < 3200000 := (i 0).isLt
  have hi1 : (i 1).val < 16 := (i 1).isLt
  have hN : grid1.N = 400 := N_1
  have ht : (i 0).val / 8000 < cfg1.N := by show (i 0).val / 8000 < grid1.N; rw [hN]; omega
  obtain ⟨-, -, -, -, -, -, -, -, -, -, -, -, e60, e61⟩ := idx_facts1 ⟨(i 0).val / 8000, ht⟩
  refine ⟨⟨(i 0).val / 8000, ht⟩, flush1_6 _, ?_⟩
  rw [mem_blk1_6]
  intro a
  match a with
  | ⟨0, _⟩ =>
    show win1_6.index ⟨(i 0).val / 8000, ht⟩ (0 : Fin 2) * 8000 ≤ (i 0).val ∧ (i 0).val < win1_6.index ⟨(i 0).val / 8000, ht⟩ (0 : Fin 2) * 8000 + 8000
    rw [e60]; show (i 0).val / 8000 * 8000 ≤ (i 0).val ∧ (i 0).val < (i 0).val / 8000 * 8000 + 8000; omega
  | ⟨1, _⟩ =>
    show win1_6.index ⟨(i 0).val / 8000, ht⟩ (1 : Fin 2) * 16 ≤ (i 1).val ∧ (i 1).val < win1_6.index ⟨(i 0).val / 8000, ht⟩ (1 : Fin 2) * 16 + 16
    rw [e61]; omega

/-- The output array after the region: `G1` of the six input arrays as the region finds them. -/
theorem final1_6 (c : Dev nD) : (dat1 (F := Ideal) V c).arrAt 6 cfg1.N
    = G1 (V c main_v24_0) (V c main_arg2) (V c main_v26) (V c main_v30) (V c main_v31) (V c main_v32) :=
  (dat1 (F := Ideal) V c).arrAt_eq_of_cover 6 _ (fun t _ => flushed1_6_eq V c t) covered1_6

end Blocks

end Cert.KernelIdeal.Hand

end
-- ==== Proof.KIHost.lean ====
/-
  What the host operations around the two kernels write, as pure terms of what they read.

  Before the first kernel: the two gathers of node rows — each reads rows of the node array at one row of the
  [2, N] index array, flattened, a negative row number shifted up by the number of nodes, laid out as a column —,
  the three weight matrices transposed, and the three bias vectors given a leading unit axis.
  Between the kernels: the column sum and the column sum of squares each divided by the edge count, the variance
  as second moment minus squared mean, and the scale and shift vectors given a leading unit axis.
  On the extended reals, read at an index: a transpose swaps the two coordinates, a leading unit axis is ignored,
  and the division by the broadcast literal is the division by the edge count.
-/
import proofs.«110224_j19997367730282_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import proofs.«110224_j19997367730282_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.ValueIdx

variable {F : FTy → Type} [FloatOps F]

/-! ## The terms -/

/-- A flat vector of row numbers as a column, a negative number shifted up by 100000. -/
def normCol (v : (⟨S3200000, .i32⟩ : BufTy).Contents (Elt F)) : (⟨S3200000x1, .i32⟩ : BufTy).Contents (Elt F) :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- Row 0 of the index array (the source nodes) as a column of row numbers. -/
def srcCol (ei : (⟨S2x3200000, .i32⟩ : BufTy).Contents (Elt F)) : (⟨S3200000x1, .i32⟩ : BufTy).Contents (Elt F) :=
  normCol (F := F) (shapeCast S3200000 (extractStridedSlice S1x3200000 ![0, 0] ei slices_S2x3200000_S1x3200000_0_0)
    shapeCasts_S1x3200000_S3200000)

/-- Row 1 of the index array (the destination nodes) as a column of row numbers. -/
def dstCol (ei : (⟨S2x3200000, .i32⟩ : BufTy).Contents (Elt F)) : (⟨S3200000x1, .i32⟩ : BufTy).Contents (Elt F) :=
  normCol (F := F) (shapeCast S3200000 (extractStridedSlice S1x3200000 ![1, 0] ei slices_S2x3200000_S1x3200000_1_0)
    shapeCasts_S1x3200000_S3200000)

/-- The node rows gathered at the source nodes. -/
def gsrcK (x : (⟨S100000x16, .f32⟩ : BufTy).Contents (Elt F)) (ei : (⟨S2x3200000, .i32⟩ : BufTy).Contents (Elt F)) :
    (⟨S3200000x16, .f32⟩ : BufTy).Contents (Elt F) :=
  Host.gather gather_S100000x16_S3200000x1_S3200000x16_1_0_n_n_0_1_116 x (srcCol (F := F) ei)

/-- The node rows gathered at the destination nodes. -/
def gdstK (x : (⟨S100000x16, .f32⟩ : BufTy).Contents (Elt F)) (ei : (⟨S2x3200000, .i32⟩ : BufTy).Contents (Elt F)) :
    (⟨S3200000x16, .f32⟩ : BufTy).Contents (Elt F) :=
  Host.gather gather_S100000x16_S3200000x1_S3200000x16_1_0_n_n_0_1_116 x (dstCol (F := F) ei)

/-- A weight matrix transposed. -/
def wT (w : (⟨S16x16, .f32⟩ : BufTy).Contents (Elt F)) : (⟨S16x16, .f32⟩ : BufTy).Contents (Elt F) :=
  transpose S16x16 [1, 0] w transposes_S16x16_S16x16_1_0

/-- A vector given a leading unit axis. -/
def asRow (b : (⟨S16, .f32⟩ : BufTy).Contents (Elt F)) : (⟨S1x16, .f32⟩ : BufTy).Contents (Elt F) :=
  shapeCast S1x16 b shapeCasts_S16_S1x16

/-- A row of column sums divided by the edge count. -/
def hostMean (s : (⟨S1x16, .f32⟩ : BufTy).Contents (Elt F)) : (⟨S1x16, .f32⟩ : BufTy).Contents (Elt F) :=
  Host.divf s (broadcastInDim S1x16 ![] bcast_S_S1x16 (constant (F := F) S_ .f32 0x4A435000#32))

/-- The variance row: second moment minus squared mean. -/
def hostVar (s q : (⟨S1x16, .f32⟩ : BufTy).Contents (Elt F)) : (⟨S1x16, .f32⟩ : BufTy).Contents (Elt F) :=
  subf (hostMean (F := F) q) (mulf (hostMean (F := F) s) (hostMean (F := F) s))

/-! ## The first stretch -/

variable (W : Valuation τ sig (Elt F))

theorem after0_v8 : StableHlo.after (hostOps0 (F := F)) W (Proc.devRef .tc main_v8)
    = gsrcK (F := F) (W (Proc.devRef .tc main_arg0)) (W (Proc.devRef .tc main_arg1)) := by
  after_results; rfl

theorem after0_v17 : StableHlo.after (hostOps0 (F := F)) W (Proc.devRef .tc main_v17)
    = gdstK (F := F) (W (Proc.devRef .tc main_arg0)) (W (Proc.devRef .tc main_arg1)) := by
  after_results_simp; rfl

theorem after0_v18 : StableHlo.after (hostOps0 (F := F)) W (Proc.devRef .tc main_v18)
    = wT (F := F) (W (Proc.devRef .tc main_arg3)) := by
  after_results; rfl

theorem after0_v19 : StableHlo.after (hostOps0 (F := F)) W (Proc.devRef .tc main_v19)
    = wT (F := F) (W (Proc.devRef .tc main_arg5)) := by
  after_results; rfl

theorem after0_v20 : StableHlo.after (hostOps0 (F := F)) W (Proc.devRef .tc main_v20)
    = wT (F := F) (W (Proc.devRef .tc main_arg7)) := by
  after_results; rfl

theorem after0_v21 : StableHlo.after (hostOps0 (F := F)) W (Proc.devRef .tc main_v21)
    = asRow (F := F) (W (Proc.devRef .tc main_arg4)) := by
  after_results; rfl

theorem after0_v22 : StableHlo.after (hostOps0 (F := F)) W (Proc.devRef .tc main_v22)
    = asRow (F := F) (W (Proc.devRef .tc main_arg6)) := by
  after_results; rfl

theorem after0_v23 : StableHlo.after (hostOps0 (F := F)) W (Proc.devRef .tc main_v23)
    = asRow (F := F) (W (Proc.devRef .tc main_arg8)) := by
  after_results; rfl

/-! ## The second stretch -/

theorem after1_v26 : StableHlo.after (hostOps1 (F := F)) W (Proc.devRef .tc main_v26)
    = hostMean (F := F) (W (Proc.devRef .tc main_v24_1)) := by
  after_results; rfl

theorem after1_v28 : StableHlo.after (hostOps1 (F := F)) W (Proc.devRef .tc main_v28)
    = hostMean (F := F) (W (Proc.devRef .tc main_v24_2)) := by
  after_results; rfl

theorem after1_v30 : StableHlo.after (hostOps1 (F := F)) W (Proc.devRef .tc main_v30)
    = hostVar (F := F) (W (Proc.devRef .tc main_v24_1)) (W (Proc.devRef .tc main_v24_2)) := by
  after_results; rfl

theorem after1_v31 : StableHlo.after (hostOps1 (F := F)) W (Proc.devRef .tc main_v31)
    = asRow (F := F) (W (Proc.devRef .tc main_arg9)) := by
  after_results; rfl

theorem after1_v32 : StableHlo.after (hostOps1 (F := F)) W (Proc.devRef .tc main_v32)
    = asRow (F := F) (W (Proc.devRef .tc main_arg10)) := by
  after_results; rfl

/-! ## The terms read at an index, on the extended reals -/

/-- A transposed matrix at (k, d) is the matrix at (d, k). -/
theorem wT_apply (w : FVec Ideal S16x16 .f32) (k d : Fin 16) : wT (F := Ideal) w (ix2 k d) = w (ix2 d k) :=
  transpose_ix2_apply w transposes_S16x16_S16x16_1_0 k d

/-- A vector given a leading unit axis, at (0, d), is the vector at d. -/
theorem asRow_apply (b : FVec Ideal S16 .f32) (d : Fin 16) : asRow (F := Ideal) b (ix2 0 d) = b (ix1 d) :=
  shapeCast_a_1a_apply b shapeCasts_S16_S1x16 0 d

/-- The mean row at (0, d): the sum there divided by the edge count. -/
theorem hostMean_apply (s : FVec Ideal S1x16 .f32) (d : Fin 16) :
    hostMean (F := Ideal) s (ix2 0 d) = Ideal.div (s (ix2 0 d)) Cert.Spec.cN := rfl

/-- The variance row at (0, d): second moment minus squared mean. -/
theorem hostVar_apply (s q : FVec Ideal S1x16 .f32) (d : Fin 16) :
    hostVar (F := Ideal) s q (ix2 0 d)
      = Ideal.div (q (ix2 0 d)) Cert.Spec.cN
        - Ideal.div (s (ix2 0 d)) Cert.Spec.cN * Ideal.div (s (ix2 0 d)) Cert.Spec.cN := rfl

end Cert.KernelIdeal.Hand

end
-- ==== Proof.Algebra.lean ====
/-
  The real-number algebra behind the certificate.

  (1) The divisor literal denotes the real number 3 200 000, the number of edges.
  (2) On real entries the two variances agree: with N terms and μ = (Σ e)/N,
        (Σ e²)/N − μ²  =  (Σ (e − μ)²)/N ,
      because Σ (e − μ)² = Σ e² − 2 μ Σ e + N μ² and Σ e = N μ.
  (3) A linear layer of real entries is real, hence so is the pre-normalisation value.
-/
import proofs.«110224_j19997367730282_1_alg».proof.Proof.Spec

noncomputable section

namespace Cert.Spec

open Idealize.ShloMosaic

/-- The divisor literal is the real number 3 200 000: sign 0, exponent 148, significand 2²³ + 4411392,
    so the value is 12 800 000 · 2⁻². -/
theorem cN_eq : cN = ((3200000 : ℝ) : EReal) := by
  simp [cN, Ideal.ofBits, Ideal.ieee, -EReal.coe_mul]; norm_num

/-- The divisor is positive. -/
theorem cN_pos : (0 : EReal) < cN := by
  rw [cN_eq]; exact_mod_cast (by norm_num : (0 : ℝ) < 3200000)

/-- A coercion of a finite real sum is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Second moment minus squared mean is the mean of the squared deviations, over any finite index type with
    N elements: Σ (f − μ)² = Σ f² − 2 μ Σ f + N μ² and Σ f = N μ. -/
theorem var_identity {ι : Type*} [Fintype ι] (f : ι → ℝ) (N : ℝ) (hN : N = Fintype.card ι) (h0 : N ≠ 0) :
    (∑ i, f i * f i) * (1 / N) - (∑ i, f i) * (1 / N) * ((∑ i, f i) * (1 / N))
      = (∑ i, (f i - (∑ j, f j) * (1 / N)) * (f i - (∑ j, f j) * (1 / N))) * (1 / N) := by
  generalize hμ : (∑ j, f j) * (1 / N) = μ
  have hS : ∑ i, f i = N * μ := by rw [← hμ]; field_simp
  have h1 : ∑ i, (f i - μ) * (f i - μ) = (∑ i, f i * f i) - 2 * μ * (∑ i, f i) + N * (μ * μ) := by
    have h2 : ∀ i, (f i - μ) * (f i - μ) = f i * f i - 2 * μ * f i + μ * μ := fun i => by ring
    simp only [h2]
    rw [Finset.sum_add_distrib, Finset.sum_sub_distrib, ← Finset.mul_sum, Finset.sum_const, Finset.card_univ,
      nsmul_eq_mul, hN]
  rw [h1, hS]; field_simp; ring

/-- On real entries the kernel's variance (second moment minus squared mean) is the reference's (mean of the
    squared deviations). -/
theorem varK_eq_varR (e : Fin NE → Fin 16 → EReal) (he : ∀ r d, ∃ x : ℝ, e r d = (x : EReal)) (d : Fin 16) :
    varK e d = varR e d := by
  choose f hf using he
  have hN : (3200000 : ℝ) ≠ 0 := by norm_num
  have hcard : (3200000 : ℝ) = Fintype.card (Fin NE) := by rw [Fintype.card_fin]; norm_num
  have hS1 : S1 e d = ((∑ r, f r d : ℝ) : EReal) := by
    rw [S1, coe_sum]; exact Finset.sum_congr rfl (fun r _ => hf r d)
  have hS2 : S2 e d = ((∑ r, f r d * f r d : ℝ) : EReal) := by
    rw [S2, coe_sum]; exact Finset.sum_congr rfl (fun r _ => by rw [hf r d, EReal.coe_mul])
  have hmean : mean e d = (((∑ r, f r d) * (1 / 3200000) : ℝ) : EReal) := by
    rw [mean, hS1, cN_eq, Ideal.div_coe hN, ← EReal.coe_mul]
  have hdev : ∀ μ : ℝ, (∑ r : Fin NE, (e r d - (μ : EReal)) * (e r d - (μ : EReal)))
      = ((∑ r, (f r d - μ) * (f r d - μ) : ℝ) : EReal) := by
    intro μ
    rw [coe_sum]; exact Finset.sum_congr rfl (fun r _ => by rw [hf r d, ← EReal.coe_sub, ← EReal.coe_mul])
  rw [varK, varR, hmean, hS2, hdev, cN_eq, Ideal.div_coe hN, Ideal.div_coe hN]
  simp only [← EReal.coe_mul, ← EReal.coe_sub]
  exact congrArg _ (var_identity (fun r => f r d) 3200000 hcard hN)

/-- A linear layer of real entries is real. -/
theorem lin_real (a : Fin 16 → EReal) (W : Fin 16 → Fin 16 → EReal) (b : Fin 16 → EReal)
    (ha : ∀ k, ∃ x : ℝ, a k = x) (hW : ∀ d k, ∃ x : ℝ, W d k = x) (hb : ∀ d, ∃ x : ℝ, b d = x) (d : Fin 16) :
    ∃ x : ℝ, lin a W b d = x := by
  choose fa hfa using ha
  choose fW hfW using hW
  choose fb hfb using hb
  refine ⟨(∑ k, fa k * fW d k) + fb d, ?_⟩
  rw [lin, EReal.coe_add, coe_sum, hfb]
  congr 1
  exact Finset.sum_congr rfl (fun k _ => by rw [hfa, hfW, EReal.coe_mul])

/-- The pre-normalisation value of real inputs is real: a sum of three real linear layers. -/
theorem E_real (ea hs hd : Fin NE → Fin 16 → EReal) (W0 W1 W2 : Fin 16 → Fin 16 → EReal) (b0 b1 b2 : Fin 16 → EReal)
    (hea : ∀ r k, ∃ x : ℝ, ea r k = x) (hhs : ∀ r k, ∃ x : ℝ, hs r k = x) (hhd : ∀ r k, ∃ x : ℝ, hd r k = x)
    (hW0 : ∀ d k, ∃ x : ℝ, W0 d k = x) (hW1 : ∀ d k, ∃ x : ℝ, W1 d k = x) (hW2 : ∀ d k, ∃ x : ℝ, W2 d k = x)
    (hb0 : ∀ d, ∃ x : ℝ, b0 d = x) (hb1 : ∀ d, ∃ x : ℝ, b1 d = x) (hb2 : ∀ d, ∃ x : ℝ, b2 d = x) :
    ∀ r d, ∃ x : ℝ, E ea hs hd W0 W1 W2 b0 b1 b2 r d = x := by
  intro r d
  obtain ⟨x0, h0⟩ := lin_real (ea r) W0 b0 (hea r) hW0 hb0 d
  obtain ⟨x1, h1⟩ := lin_real (hs r) W1 b1 (hhs r) hW1 hb1 d
  obtain ⟨x2, h2⟩ := lin_real (hd r) W2 b2 (hhd r) hW2 hb2 d
  exact ⟨x0 + x1 + x2, by rw [E, h0, h1, h2, EReal.coe_add, EReal.coe_add]⟩

end Cert.Spec

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.KIBridge.lean ====
/-
  The kernel side's last algebraic step.

  (1) The column sums taken block by block are the column sums: the 3 200 000 rows are 400 blocks of 8000, row
      8000 · t + y being entry y of block t, and a finite sum may be regrouped by blocks. The same for the sums of
      squares.
  (2) With the accumulated rows equal to the column sum and the column sum of squares of the pre-normalisation
      values, what the second kernel leaves at (r, d) is the specification's result with the kernel's variance
      (second moment minus squared mean).
  (3) On real entries that is the specification's result with the reference's variance (mean of squared deviations).
-/
import proofs.«110224_j19997367730282_1_alg».proof.Proof.KIReg1Final
import proofs.«110224_j19997367730282_1_alg».proof.Proof.KIHost
import proofs.«110224_j19997367730282_1_alg».proof.Proof.Spec
import proofs.«110224_j19997367730282_1_alg».proof.Proof.Algebra
import proofs.«110224_j19997367730282_1_alg».proof.Proof.LibSumSplit

set_option maxRecDepth 16384

noncomputable section

namespace Cert.KernelIdeal.Hand

open Cert.KernelIdeal Cert.KernelIdeal.Gen
open Idealize.ShloMosaic Idealize.ShloMosaic.ValueIdx

/-- A sum over the 3 200 000 rows is the sum over the 400 blocks of the sums over each block's 8000 rows. -/
theorem sum_blocks {M : Type*} [AddCommMonoid M] (f : Fin Cert.Spec.NE → M) (b : ℕ → Fin 8000 → M)
    (hb : ∀ t (ht : t < 400) (y : Fin 8000), b t y = f (⟨8000 * t + y.val, by omega⟩ : Fin 3200000)) :
    ∑ t ∈ Finset.range 400, ∑ y : Fin 8000, b t y = ∑ n, f n := by
  rw [Cert.PointDist.sum_tiles (show 400 * 8000 = Cert.Spec.NE from rfl) f, Finset.sum_range]
  refine Finset.sum_congr rfl fun i _ => Finset.sum_congr rfl fun y _ => ?_
  rw [hb i.val i.isLt y]
  exact congrArg f (Fin.ext (by show 8000 * i.val + y.val = i.val * 8000 + y.val; omega))

/-- The column sums taken block by block are the column sums. -/
theorem S1_of_tiles (E : Fin Cert.Spec.NE → Fin 16 → EReal) (blk : ℕ → Fin 8000 → Fin 16 → EReal)
    (hblk : ∀ t (ht : t < 400) (y : Fin 8000) (d : Fin 16), blk t y d = E (⟨8000 * t + y.val, by omega⟩ : Fin 3200000) d)
    (d : Fin 16) : ∑ t ∈ Finset.range 400, ∑ y : Fin 8000, blk t y d = Cert.Spec.S1 E d :=
  sum_blocks (fun n => E n d) (fun t y => blk t y d) (fun t ht y => hblk t ht y d)

/-- The column sums of squares taken block by block are the column sums of squares. -/
theorem S2_of_tiles (E : Fin Cert.Spec.NE → Fin 16 → EReal) (blk : ℕ → Fin 8000 → Fin 16 → EReal)
    (hblk : ∀ t (ht : t < 400) (y : Fin 8000) (d : Fin 16), blk t y d = E (⟨8000 * t + y.val, by omega⟩ : Fin 3200000) d)
    (d : Fin 16) : ∑ t ∈ Finset.range 400, ∑ y : Fin 8000, blk t y d * blk t y d = Cert.Spec.S2 E d :=
  sum_blocks (fun n => E n d * E n d) (fun t y => blk t y d * blk t y d)
    (fun t ht y => by rw [hblk t ht y d])

/-- What the second kernel leaves at (r, d), given the accumulated rows, is the specification's result with the
    kernel's variance. -/
theorem out_bridge (e ea : Vec Ideal S3200000x16 .f32) (s q : Vec Ideal S1x16 .f32) (g bt : FVec Ideal S16 .f32)
    (E ea' : Fin Cert.Spec.NE → Fin 16 → EReal) (he : ∀ r d, e (ix2 r d) = E r d)
    (hea : ∀ r d, ea (ix2 r d) = ea' r d) (hs : ∀ d, s (ix2 0 d) = Cert.Spec.S1 E d)
    (hq : ∀ d, q (ix2 0 d) = Cert.Spec.S2 E d) (r : Fin 3200000) (d : Fin 16) :
    G1 e ea (hostMean (F := Ideal) s) (hostVar (F := Ideal) s q) (asRow (F := Ideal) g) (asRow (F := Ideal) bt)
        (ix2 r d)
      = Cert.Spec.out ea' E (Cert.Spec.varK E) (fun d => g (ix1 d)) (fun d => bt (ix1 d)) r d := by
  rw [G1_apply, hostMean_apply, hostVar_apply, asRow_apply, asRow_apply, he, hea, hs, hq]
  rfl

/-- On real entries the result with the kernel's variance is the result with the reference's. -/
theorem out_varK_eq_varR (ea' E : Fin Cert.Spec.NE → Fin 16 → EReal) (g bt : Fin 16 → EReal)
    (hE : ∀ r d, ∃ x : ℝ, E r d = (x : EReal)) (r : Fin Cert.Spec.NE) (d : Fin 16) :
    Cert.Spec.out ea' E (Cert.Spec.varK E) g bt r d = Cert.Spec.out ea' E (Cert.Spec.varR E) g bt r d := by
  unfold Cert.Spec.out
  rw [Cert.Spec.varK_eq_varR E hE d]

end Cert.KernelIdeal.Hand

end
-- ==== Proof.KIValue.lean ====
/-
  The kernel program's result, entry by entry, as the specification's formula over the launch memory.

  The first host stretch leaves the gathered node rows, the transposed weights and the bias rows; the statistics
  kernel leaves the array of pre-normalisation values (three linear layers summed) and its two rows of column sums,
  accumulated block by block; the second host stretch divides those by the edge count and forms the variance as second
  moment minus squared mean; the normalisation kernel leaves, at (r, d), the edge attribute plus the positive part
  of the normalised, scaled and shifted pre-normalisation value. Chaining these boundary by boundary gives the result as
  the specification's formula with the kernel's variance.
-/
import proofs.«110224_j19997367730282_1_alg».proof.Proof.KIFrame
import proofs.«110224_j19997367730282_1_alg».proof.Proof.KIReg0Final
import proofs.«110224_j19997367730282_1_alg».proof.Proof.KIReg1Final
import proofs.«110224_j19997367730282_1_alg».proof.Proof.KIHost
import proofs.«110224_j19997367730282_1_alg».proof.Proof.KIBridge
import proofs.«110224_j19997367730282_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-! ## The launch contents and the specification's inputs -/

/-- Core c's launch contents of a buffer. -/
abbrev A (b : Ref sig .tc) := m ((c.tc : Thread nD τ).loc b)

/-- The edge attributes, row by row. -/
abbrev eaOf : Fin Cert.Spec.NE → Fin 16 → EReal := fun (r : Fin 3200000) (k : Fin 16) => A m c main_arg2 (ix2 r k)

/-- The pre-normalisation values of the launch memory: the three linear layers of the edge attributes and of the node
    rows gathered at the source and at the destination nodes. -/
abbrev EOf : Fin Cert.Spec.NE → Fin 16 → EReal :=
  Cert.Spec.E (eaOf m c)
    (fun (r : Fin 3200000) (k : Fin 16) => gsrcK (F := Ideal) (A m c main_arg0) (A m c main_arg1) (ix2 r k))
    (fun (r : Fin 3200000) (k : Fin 16) => gdstK (F := Ideal) (A m c main_arg0) (A m c main_arg1) (ix2 r k))
    (fun d k => A m c main_arg3 (ix2 d k)) (fun d k => A m c main_arg5 (ix2 d k)) (fun d k => A m c main_arg7 (ix2 d k))
    (fun d => A m c main_arg4 (ix1 d)) (fun d => A m c main_arg6 (ix1 d)) (fun d => A m c main_arg8 (ix1 d))

/-! ## After the first host stretch -/

theorem V1_arg2 : V1 m c main_arg2 = A m c main_arg2 :=
  (StableHlo.after_of_writes_sub hostOps0 _ hostOps0_writes (by decide)).trans rfl
theorem V1_v8 : V1 m c main_v8 = gsrcK (F := Ideal) (A m c main_arg0) (A m c main_arg1) := after0_v8 (W0 m c)
theorem V1_v17 : V1 m c main_v17 = gdstK (F := Ideal) (A m c main_arg0) (A m c main_arg1) := after0_v17 (W0 m c)
theorem V1_v18 : V1 m c main_v18 = wT (F := Ideal) (A m c main_arg3) := after0_v18 (W0 m c)
theorem V1_v19 : V1 m c main_v19 = wT (F := Ideal) (A m c main_arg5) := after0_v19 (W0 m c)
theorem V1_v20 : V1 m c main_v20 = wT (F := Ideal) (A m c main_arg7) := after0_v20 (W0 m c)
theorem V1_v21 : V1 m c main_v21 = asRow (F := Ideal) (A m c main_arg4) := after0_v21 (W0 m c)
theorem V1_v22 : V1 m c main_v22 = asRow (F := Ideal) (A m c main_arg6) := after0_v22 (W0 m c)
theorem V1_v23 : V1 m c main_v23 = asRow (F := Ideal) (A m c main_arg8) := after0_v23 (W0 m c)

/-- The three summed linear layers over transposed weights and bias rows are the specification's value. -/
theorem Ge_eq_E (a0 a1 a2 : Vec Ideal S3200000x16 .f32) (w0 w1 w2 : FVec Ideal S16x16 .f32) (b0 b1 b2 : FVec Ideal S16 .f32)
    (r : Fin 3200000) (d : Fin 16) :
    Ge a0 a1 a2 (wT (F := Ideal) w0) (wT (F := Ideal) w1) (wT (F := Ideal) w2)
        (asRow (F := Ideal) b0) (asRow (F := Ideal) b1) (asRow (F := Ideal) b2) (ix2 r d)
      = Cert.Spec.E (fun (r : Fin 3200000) (k : Fin 16) => a0 (ix2 r k)) (fun (r : Fin 3200000) (k : Fin 16) => a1 (ix2 r k))
          (fun (r : Fin 3200000) (k : Fin 16) => a2 (ix2 r k))
          (fun d k => w0 (ix2 d k)) (fun d k => w1 (ix2 d k)) (fun d k => w2 (ix2 d k))
          (fun d => b0 (ix1 d)) (fun d => b1 (ix1 d)) (fun d => b2 (ix1 d)) r d := by
  rw [Ge_apply]
  unfold Cert.Spec.E
  simp only [wT_apply, asRow_apply]

/-- The statistics kernel's array of pre-normalisation values, at (r, d), is the specification's value. -/
theorem Ge_V1_apply (r : Fin 3200000) (d : Fin 16) :
    Ge (V1 m c main_arg2) (V1 m c main_v8) (V1 m c main_v17) (V1 m c main_v18) (V1 m c main_v19) (V1 m c main_v20)
        (V1 m c main_v21) (V1 m c main_v22) (V1 m c main_v23) (ix2 r d) = EOf m c r d := by
  rw [V1_arg2, V1_v8, V1_v17, V1_v18, V1_v19, V1_v20, V1_v21, V1_v22, V1_v23]
  exact Ge_eq_E _ _ _ _ _ _ _ _ _ r d

/-- Entry y of block t of the pre-normalisation values is the specification's value at row 8000 · t + y. -/
theorem eblkN_eq (t : ℕ) (ht : t < 400) (y : Fin 8000) (d : Fin 16) :
    eblkN (V1 m) c t (ix2 y d) = EOf m c (⟨8000 * t + y.val, by omega⟩ : Fin 3200000) d := by
  have ht' : t < cfg0.N := by show t < grid0.N; rw [N_0]; exact ht
  rw [eblkN_of_lt (V1 m) c t ht', eblk_apply (V1 m) c ⟨t, ht'⟩ y d]
  exact Ge_V1_apply m c (rowOf ⟨t, ht'⟩ y) d

/-! ## After the statistics kernel -/

theorem W2_v24_0 : W2 m c (Proc.devRef .tc main_v24_0)
    = Ge (V1 m c main_arg2) (V1 m c main_v8) (V1 m c main_v17) (V1 m c main_v18) (V1 m c main_v19) (V1 m c main_v20)
        (V1 m c main_v21) (V1 m c main_v22) (V1 m c main_v23) :=
  (W2_arr m c 9).trans (final0_9 (V1 m) c)

/-- The first small output, at channel d, is the column sum of the pre-normalisation values. -/
theorem W2_v24_1_apply (d : Fin 16) : W2 m c (Proc.devRef .tc main_v24_1) (ix2 0 d) = Cert.Spec.S1 (EOf m c) d := by
  rw [show W2 m c (Proc.devRef .tc main_v24_1) = (dat0 (V1 m) c).arrAt 10 cfg0.N from W2_arr m c 10, final0_10]
  exact (out10_sum (V1 m) c 399 h399 d).trans
    (S1_of_tiles (EOf m c) (fun t y d => eblkN (V1 m) c t (ix2 y d)) (eblkN_eq m c) d)

/-- The second small output, at channel d, is the column sum of their squares. -/
theorem W2_v24_2_apply (d : Fin 16) : W2 m c (Proc.devRef .tc main_v24_2) (ix2 0 d) = Cert.Spec.S2 (EOf m c) d := by
  rw [show W2 m c (Proc.devRef .tc main_v24_2) = (dat0 (V1 m) c).arrAt 11 cfg0.N from W2_arr m c 11, final0_11]
  exact (out11_sum (V1 m) c 399 h399 d).trans
    (S2_of_tiles (EOf m c) (fun t y d => eblkN (V1 m) c t (ix2 y d)) (eblkN_eq m c) d)

theorem W2_arg2 : W2 m c (Proc.devRef .tc main_arg2) = A m c main_arg2 :=
  ((W2_arr m c 0).trans (((dat0 (V1 m) c).arrAt_in 0 rfl _).trans (A_eq0 (V1 m) c 0))).trans (V1_arg2 m c)
theorem W2_arg9 : W2 m c (Proc.devRef .tc main_arg9) = A m c main_arg9 :=
  (W2_of_ne m c main_arg9 (by decide)).trans
    ((StableHlo.after_of_writes_sub hostOps0 _ hostOps0_writes (by decide)).trans rfl)
theorem W2_arg10 : W2 m c (Proc.devRef .tc main_arg10) = A m c main_arg10 :=
  (W2_of_ne m c main_arg10 (by decide)).trans
    ((StableHlo.after_of_writes_sub hostOps0 _ hostOps0_writes (by decide)).trans rfl)

/-! ## After the second host stretch -/

theorem V3_v24_0 : V3 m c main_v24_0
    = Ge (V1 m c main_arg2) (V1 m c main_v8) (V1 m c main_v17) (V1 m c main_v18) (V1 m c main_v19) (V1 m c main_v20)
        (V1 m c main_v21) (V1 m c main_v22) (V1 m c main_v23) :=
  (StableHlo.after_of_writes_sub hostOps1 _ hostOps1_writes (by decide)).trans (W2_v24_0 m c)
theorem V3_arg2 : V3 m c main_arg2 = A m c main_arg2 :=
  (StableHlo.after_of_writes_sub hostOps1 _ hostOps1_writes (by decide)).trans (W2_arg2 m c)
theorem V3_v26 : V3 m c main_v26 = hostMean (F := Ideal) (W2 m c (Proc.devRef .tc main_v24_1)) := after1_v26 (W2 m c)
theorem V3_v30 : V3 m c main_v30
    = hostVar (F := Ideal) (W2 m c (Proc.devRef .tc main_v24_1)) (W2 m c (Proc.devRef .tc main_v24_2)) := after1_v30 (W2 m c)
theorem V3_v31 : V3 m c main_v31 = asRow (F := Ideal) (A m c main_arg9) :=
  (after1_v31 (W2 m c)).trans (congrArg (asRow (F := Ideal)) (W2_arg9 m c))
theorem V3_v32 : V3 m c main_v32 = asRow (F := Ideal) (A m c main_arg10) :=
  (after1_v32 (W2 m c)).trans (congrArg (asRow (F := Ideal)) (W2_arg10 m c))

/-! ## After the normalisation kernel -/

/-- THE KERNEL PROGRAM'S RESULT at (r, d): the specification's formula, with the kernel's variance, over the launch
    memory. -/
theorem kernel_value (r : Fin 3200000) (d : Fin 16) :
    W4 (F := Ideal) m c (Proc.devRef .tc main_v33) (ix2 r d)
      = Cert.Spec.out (eaOf m c) (EOf m c) (Cert.Spec.varK (EOf m c)) (fun d => A m c main_arg9 (ix1 d))
          (fun d => A m c main_arg10 (ix1 d)) r d := by
  have h1 : W4 m c (Proc.devRef .tc main_v33)
      = G1 (V3 m c main_v24_0) (V3 m c main_arg2) (V3 m c main_v26) (V3 m c main_v30) (V3 m c main_v31) (V3 m c main_v32) :=
    (W4_arr m c 6).trans (final1_6 (V3 m) c)
  rw [h1, V3_v24_0, V3_arg2, V3_v26, V3_v30, V3_v31, V3_v32]
  exact out_bridge _ _ _ _ _ _ (EOf m c) (eaOf m c) (Ge_V1_apply m c) (fun _ _ => rfl) (W2_v24_1_apply m c)
    (W2_v24_2_apply m c) r d

end Cert.KernelIdeal.Hand

end
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.KIGather.lean ====
/-
  Every gathered entry is a real number.

  The program's gather takes whole rows of the [100000, 16] node array at a column of row numbers: entry (r, d) of
  the result is the node array at the row number read at r — as a signed integer, clamped into [0, 99999] — and
  column d. So every entry of the result is an entry of the node array, and is real when all of those are.
-/
import proofs.«110224_j19997367730282_1_alg».proof.Proof.KIHost
import proofs.«110224_j19997367730282_1_alg».proof.Proof.LibGatherRows

set_option maxRecDepth 16384

noncomputable section

namespace Cert.KernelIdeal.Hand

open Cert.KernelIdeal Cert.KernelIdeal.Gen
open Idealize.ShloMosaic Idealize.ShloMosaic.ValueIdx
open Cert.Lib.GatherRows

/-- The program's gather is the gather of whole rows: operand [100000, 16], row numbers [3200000, 1]. -/
theorem gather_eq_rows :
    gather_S100000x16_S3200000x1_S3200000x16_1_0_n_n_0_1_116
      = rowsDims 100000 3200000 16 gather_S100000x16_S3200000x1_S3200000x16_1_0_n_n_0_1_116.wf := rfl

/-- The gather read at an index: the node array at the clamped row number and the same column. -/
theorem gather_apply {α : Type} (x : S100000x16.Idx → α) (idx : IVec S3200000x1 32) (y : S3200000x16.Idx) :
    Host.gather gather_S100000x16_S3200000x1_S3200000x16_1_0_n_n_0_1_116 x idx y
      = x (ix2 (⟨min (idx (rowsIdx y)).toInt.toNat (100000 - 1), by omega⟩ : Fin 100000)
            (⟨(y 1).val, idx2_lt1 y⟩ : Fin 16)) :=
  gather_rows_apply (N := 100000) (R := 3200000) (D := 16) (by norm_num)
    gather_S100000x16_S3200000x1_S3200000x16_1_0_n_n_0_1_116.wf x idx y

/-- A gather of rows of an array of real numbers has only real entries. -/
theorem gather_real (x : FVec Ideal S100000x16 .f32) (hx : ∀ i, ∃ r : ℝ, x i = (r : EReal))
    (idx : IVec S3200000x1 32) (y : S3200000x16.Idx) :
    ∃ r : ℝ, Host.gather gather_S100000x16_S3200000x1_S3200000x16_1_0_n_n_0_1_116 x idx y = (r : EReal) := by
  obtain ⟨r, hr⟩ := hx (ix2 (⟨min (idx (rowsIdx y)).toInt.toNat (100000 - 1), by omega⟩ : Fin 100000)
    (⟨(y 1).val, idx2_lt1 y⟩ : Fin 16))
  exact ⟨r, (gather_apply x idx y).trans hr⟩

/-- The rows gathered at the source nodes are real when the node array is. -/
theorem gsrcK_real (x : FVec Ideal S100000x16 .f32) (hx : ∀ i, ∃ r : ℝ, x i = (r : EReal))
    (ei : IVec S2x3200000 32) (y : S3200000x16.Idx) : ∃ r : ℝ, gsrcK (F := Ideal) x ei y = (r : EReal) :=
  gather_real x hx (srcCol (F := Ideal) ei) y

/-- The rows gathered at the destination nodes are real when the node array is. -/
theorem gdstK_real (x : FVec Ideal S100000x16 .f32) (hx : ∀ i, ∃ r : ℝ, x i = (r : EReal))
    (ei : IVec S2x3200000 32) (y : S3200000x16.Idx) : ∃ r : ℝ, gdstK (F := Ideal) x ei y = (r : EReal) :=
  gather_real x hx (dstCol (F := Ideal) ei) y

end Cert.KernelIdeal.Hand

end
-- ==== Proof.Finite.lean ====
/-
  From the precondition to "every entry of every float argument is a real number".

  The precondition is the conjunction, over the ten float arguments, of "every entry x has |x| < +∞", each
  conjunct an all-reduction by "and" of the entrywise comparison. A conjunction that is 1 has every conjunct 1;
  an all-reduction that is 1 has every compared entry 1; and an extended real x with max x (−x) < +∞ is neither
  +∞ nor −∞, hence a real number.
-/
import proofs.«110224_j19997367730282_1_alg».proof.Defs
import proofs.«110224_j19997367730282_1_alg».proof.Proof.Gen.Pre_finite_inputs
import Idealize.ShloMosaic.Lib.ReduceAll
import Idealize.ShloMosaic.Lib.ValueIdx

set_option maxRecDepth 16384

noncomputable section

namespace Cert.KernelIdeal.Finite

open Idealize.ShloMosaic Idealize.SL.Sem
open Cert.Pre_finite_inputs.Facts

/-- The result of an all-reduction has one index. -/
instance : Subsingleton Cert.Pre_finite_inputs.S_.Idx := ⟨fun a b => funext fun d => d.elim0⟩

/-- An extended real whose absolute value max x (−x) is below +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- One conjunct of the precondition: if the all-reduction of "|x i| < +∞" is 1 then every entry of x is real. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] bc (constant (F := Ideal) Cert.Pre_finite_inputs.S_ .f32 0x7F800000#32)))
          init hr hu j = 1#1)
    (i : s.Idx) : ∃ r : ℝ, x i = (r : EReal) :=
  real_of_abs_lt_inf (x i) (Host.reduce_andi_all _ init hr hu j e i)

variable [Cert.Pre_finite_inputs.Facts]
variable (m : (ℓ : Loc Cert.KernelIdeal.nD Cert.KernelIdeal.τ Cert.KernelIdeal.sig) → Buf (Elt Ideal) ℓ)

/-- The float argument K as the region finds it on device c. -/
abbrev A (c : Dev Cert.KernelIdeal.nD) (r : Ref Cert.KernelIdeal.sig .tc) :=
  m ((c.tc : Thread Cert.KernelIdeal.nD Cert.KernelIdeal.τ).loc r)

/-- The precondition read back: every entry of each of the ten float arguments is real. -/
theorem decode (h : Cert.Pre_KernelIdeal m) (c : Dev Cert.KernelIdeal.nD) :
    (∀ i, ∃ r : ℝ, A m c main_arg0 i = (r : EReal)) ∧ (∀ i, ∃ r : ℝ, A m c main_arg2 i = (r : EReal))
    ∧ (∀ i, ∃ r : ℝ, A m c main_arg3 i = (r : EReal)) ∧ (∀ i, ∃ r : ℝ, A m c main_arg4 i = (r : EReal))
    ∧ (∀ i, ∃ r : ℝ, A m c main_arg5 i = (r : EReal)) ∧ (∀ i, ∃ r : ℝ, A m c main_arg6 i = (r : EReal))
    ∧ (∀ i, ∃ r : ℝ, A m c main_arg7 i = (r : EReal)) ∧ (∀ i, ∃ r : ℝ, A m c main_arg8 i = (r : EReal))
    ∧ (∀ i, ∃ r : ℝ, A m c main_arg9 i = (r : EReal)) ∧ (∀ i, ∃ r : ℝ, A m c main_arg10 i = (r : EReal)) := by
  have e := congrFun (h c) ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨e0, e2⟩, e3⟩, e4⟩, e5⟩, e6⟩, e7⟩, e8⟩, e9⟩, e10⟩ := e
  exact ⟨all_real _ _ _ _ _ _ e0, all_real _ _ _ _ _ _ e2, all_real _ _ _ _ _ _ e3, all_real _ _ _ _ _ _ e4,
    all_real _ _ _ _ _ _ e5, all_real _ _ _ _ _ _ e6, all_real _ _ _ _ _ _ e7, all_real _ _ _ _ _ _ e8,
    all_real _ _ _ _ _ _ e9, all_real _ _ _ _ _ _ e10⟩

/-- Every entry of float argument 0 is a real number. -/
theorem arg0_real (h : Cert.Pre_KernelIdeal m) (c : Dev Cert.KernelIdeal.nD) (i : Cert.KernelIdeal.S100000x16.Idx) :
    ∃ x : ℝ, m ((c.tc : Thread Cert.KernelIdeal.nD Cert.KernelIdeal.τ).loc Cert.KernelIdeal.main_arg0) i = (x : EReal) :=
  (decode m h c).1 i

/-- Every entry of float argument 2 is a real number. -/
theorem arg2_real (h : Cert.Pre_KernelIdeal m) (c : Dev Cert.KernelIdeal.nD) (i : Cert.KernelIdeal.S3200000x16.Idx) :
    ∃ x : ℝ, m ((c.tc : Thread Cert.KernelIdeal.nD Cert.KernelIdeal.τ).loc Cert.KernelIdeal.main_arg2) i = (x : EReal) :=
  (decode m h c).2.1 i

/-- Every entry of float argument 3 is a real number. -/
theorem arg3_real (h : Cert.Pre_KernelIdeal m) (c : Dev Cert.KernelIdeal.nD) (i : Cert.KernelIdeal.S16x16.Idx) :
    ∃ x : ℝ, m ((c.tc : Thread Cert.KernelIdeal.nD Cert.KernelIdeal.τ).loc Cert.KernelIdeal.main_arg3) i = (x : EReal) :=
  (decode m h c).2.2.1 i

/-- Every entry of float argument 4 is a real number. -/
theorem arg4_real (h : Cert.Pre_KernelIdeal m) (c : Dev Cert.KernelIdeal.nD) (i : Cert.KernelIdeal.S16.Idx) :
    ∃ x : ℝ, m ((c.tc : Thread Cert.KernelIdeal.nD Cert.KernelIdeal.τ).loc Cert.KernelIdeal.main_arg4) i = (x : EReal) :=
  (decode m h c).2.2.2.1 i

/-- Every entry of float argument 5 is a real number. -/
theorem arg5_real (h : Cert.Pre_KernelIdeal m) (c : Dev Cert.KernelIdeal.nD) (i : Cert.KernelIdeal.S16x16.Idx) :
    ∃ x : ℝ, m ((c.tc : Thread Cert.KernelIdeal.nD Cert.KernelIdeal.τ).loc Cert.KernelIdeal.main_arg5) i = (x : EReal) :=
  (decode m h c).2.2.2.2.1 i

/-- Every entry of float argument 6 is a real number. -/
theorem arg6_real (h : Cert.Pre_KernelIdeal m) (c : Dev Cert.KernelIdeal.nD) (i : Cert.KernelIdeal.S16.Idx) :
    ∃ x : ℝ, m ((c.tc : Thread Cert.KernelIdeal.nD Cert.KernelIdeal.τ).loc Cert.KernelIdeal.main_arg6) i = (x : EReal) :=
  (decode m h c).2.2.2.2.2.1 i

/-- Every entry of float argument 7 is a real number. -/
theorem arg7_real (h : Cert.Pre_KernelIdeal m) (c : Dev Cert.KernelIdeal.nD) (i : Cert.KernelIdeal.S16x16.Idx) :
    ∃ x : ℝ, m ((c.tc : Thread Cert.KernelIdeal.nD Cert.KernelIdeal.τ).loc Cert.KernelIdeal.main_arg7) i = (x : EReal) :=
  (decode m h c).2.2.2.2.2.2.1 i

/-- Every entry of float argument 8 is a real number. -/
theorem arg8_real (h : Cert.Pre_KernelIdeal m) (c : Dev Cert.KernelIdeal.nD) (i : Cert.KernelIdeal.S16.Idx) :
    ∃ x : ℝ, m ((c.tc : Thread Cert.KernelIdeal.nD Cert.KernelIdeal.τ).loc Cert.KernelIdeal.main_arg8) i = (x : EReal) :=
  (decode m h c).2.2.2.2.2.2.2.1 i

/-- Every entry of float argument 9 is a real number. -/
theorem arg9_real (h : Cert.Pre_KernelIdeal m) (c : Dev Cert.KernelIdeal.nD) (i : Cert.KernelIdeal.S16.Idx) :
    ∃ x : ℝ, m ((c.tc : Thread Cert.KernelIdeal.nD Cert.KernelIdeal.τ).loc Cert.KernelIdeal.main_arg9) i = (x : EReal) :=
  (decode m h c).2.2.2.2.2.2.2.2.1 i

/-- Every entry of float argument 10 is a real number. -/
theorem arg10_real (h : Cert.Pre_KernelIdeal m) (c : Dev Cert.KernelIdeal.nD) (i : Cert.KernelIdeal.S16.Idx) :
    ∃ x : ℝ, m ((c.tc : Thread Cert.KernelIdeal.nD Cert.KernelIdeal.τ).loc Cert.KernelIdeal.main_arg10) i = (x : EReal) :=
  (decode m h c).2.2.2.2.2.2.2.2.2 i

end Cert.KernelIdeal.Finite

end
-- ==== Proof.RefRun.lean ====
/-
  The reference program's run, written out: @main as one straight line of its 87 host operations, the three
  outlined functions (the biased variance, its guarding select, and the rectifier) listed at their call sites
  over the buffers of those calls. Every weakly fair execution terminates with the result buffer at the
  operations' composed term of the eleven argument arrays, the arguments unchanged.

  The composed term is built from named pieces so that it can be read one stage at a time:
  the two gathered node-feature arrays, the sum of the three linear layers, the column mean, the column
  variance (mean of squared deviations, behind a select that guards a zero divisor), and the normalised,
  rectified, residual result.
-/
import proofs.«110224_j19997367730282_1_alg».proof.Defs
import proofs.«110224_j19997367730282_1_alg».proof.Proof.Gen.ReferenceIdeal
import Idealize.ShloMosaic.Lib.StableHlo.Run
import Idealize.ShloMosaic.Lib.Pipeline.Regions

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's 87 operations in order, each call's body in place of the call, at the buffers of that call. -/
abbrev ops : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.nullary main_c (constantI S_ 32 0#32),
    StableHlo.unary main_c main_v2 (broadcastInDim S3200000 ![] bcast_S_S3200000 : (⟨S_, .i32⟩ : BufTy).Contents (Elt F) → (⟨S3200000, .i32⟩ : BufTy).Contents (Elt F)),
    StableHlo.binary main_v1 main_v2 main_v3 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v4 (broadcastInDim S3200000 ![] bcast_S_S3200000 : (⟨S_, .i32⟩ : BufTy).Contents (Elt F) → (⟨S3200000, .i32⟩ : BufTy).Contents (Elt F)),
    StableHlo.binary main_v1 main_v4 main_v5 (addi : (⟨S3200000, .i32⟩ : BufTy).Contents (Elt F) → (⟨S3200000, .i32⟩ : BufTy).Contents (Elt F) → (⟨S3200000, .i32⟩ : BufTy).Contents (Elt F)),
    StableHlo.ternary main_v3 main_v5 main_v1 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v6 main_v7 (broadcastInDim S3200000x1 ![0] bcast_S3200000_S3200000x1_0 : (⟨S3200000, .i32⟩ : BufTy).Contents (Elt F) → (⟨S3200000x1, .i32⟩ : BufTy).Contents (Elt F)),
    StableHlo.binary main_arg0 main_v7 main_v8 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_arg1 main_v9 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v9 main_v10 rfl shapeCasts_S1x3200000_S3200000,
    StableHlo.nullary main_c_1 (constantI S_ 32 0#32),
    StableHlo.unary main_c_1 main_v11 (broadcastInDim S3200000 ![] bcast_S_S3200000 : (⟨S_, .i32⟩ : BufTy).Contents (Elt F) → (⟨S3200000, .i32⟩ : BufTy).Contents (Elt F)),
    StableHlo.binary main_v10 main_v11 main_v12 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v13 (broadcastInDim S3200000 ![] bcast_S_S3200000 : (⟨S_, .i32⟩ : BufTy).Contents (Elt F) → (⟨S3200000, .i32⟩ : BufTy).Contents (Elt F)),
    StableHlo.binary main_v10 main_v13 main_v14 (addi : (⟨S3200000, .i32⟩ : BufTy).Contents (Elt F) → (⟨S3200000, .i32⟩ : BufTy).Contents (Elt F) → (⟨S3200000, .i32⟩ : BufTy).Contents (Elt F)),
    StableHlo.ternary main_v12 main_v14 main_v10 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v15 main_v16 (broadcastInDim S3200000x1 ![0] bcast_S3200000_S3200000x1_0 : (⟨S3200000, .i32⟩ : BufTy).Contents (Elt F) → (⟨S3200000x1, .i32⟩ : BufTy).Contents (Elt F)),
    StableHlo.binary main_arg0 main_v16 main_v17 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_arg3 main_v18 ((transpose S16x16 [1, 0] · transposes_S16x16_S16x16_1_0) : (⟨S16x16, .f32⟩ : BufTy).Contents (Elt F) → (⟨S16x16, .f32⟩ : BufTy).Contents (Elt F)),
    StableHlo.binary main_arg2 main_v18 main_v19 ((fun l r => Host.dotGeneral dot_S3200000x16_S16x16_S3200000x16_1_0_0_1_n_n none l r) : (⟨S3200000x16, .f32⟩ : BufTy).Contents (Elt F) → (⟨S16x16, .f32⟩ : BufTy).Contents (Elt F) → (⟨S3200000x16, .f32⟩ : BufTy).Contents (Elt F)),
    StableHlo.unary main_arg4 main_v20 (broadcastInDim S1x16 ![1] bcast_S16_S1x16_1 : (⟨S16, .f32⟩ : BufTy).Contents (Elt F) → (⟨S1x16, .f32⟩ : BufTy).Contents (Elt F)),
    StableHlo.unary main_v20 main_v21 (broadcastInDim S3200000x16 ![0, 1] bcast_S1x16_S3200000x16_0_1 : (⟨S1x16, .f32⟩ : BufTy).Contents (Elt F) → (⟨S3200000x16, .f32⟩ : BufTy).Contents (Elt F)),
    StableHlo.binary main_v19 main_v21 main_v22 (addf : (⟨S3200000x16, .f32⟩ : BufTy).Contents (Elt F) → (⟨S3200000x16, .f32⟩ : BufTy).Contents (Elt F) → (⟨S3200000x16, .f32⟩ : BufTy).Contents (Elt F)),
    StableHlo.unary main_arg5 main_v23 ((transpose S16x16 [1, 0] · transposes_S16x16_S16x16_1_0) : (⟨S16x16, .f32⟩ : BufTy).Contents (Elt F) → (⟨S16x16, .f32⟩ : BufTy).Contents (Elt F)),
    StableHlo.binary main_v8 main_v23 main_v24 ((fun l r => Host.dotGeneral dot_S3200000x16_S16x16_S3200000x16_1_0_0_1_n_n none l r) : (⟨S3200000x16, .f32⟩ : BufTy).Contents (Elt F) → (⟨S16x16, .f32⟩ : BufTy).Contents (Elt F) → (⟨S3200000x16, .f32⟩ : BufTy).Contents (Elt F)),
    StableHlo.unary main_arg6 main_v25 (broadcastInDim S1x16 ![1] bcast_S16_S1x16_1 : (⟨S16, .f32⟩ : BufTy).Contents (Elt F) → (⟨S1x16, .f32⟩ : BufTy).Contents (Elt F)),
    StableHlo.unary main_v25 main_v26 (broadcastInDim S3200000x16 ![0, 1] bcast_S1x16_S3200000x16_0_1 : (⟨S1x16, .f32⟩ : BufTy).Contents (Elt F) → (⟨S3200000x16, .f32⟩ : BufTy).Contents (Elt F)),
    StableHlo.binary main_v24 main_v26 main_v27 (addf : (⟨S3200000x16, .f32⟩ : BufTy).Contents (Elt F) → (⟨S3200000x16, .f32⟩ : BufTy).Contents (Elt F) → (⟨S3200000x16, .f32⟩ : BufTy).Contents (Elt F)),
    StableHlo.binary main_v22 main_v27 main_v28 (addf : (⟨S3200000x16, .f32⟩ : BufTy).Contents (Elt F) → (⟨S3200000x16, .f32⟩ : BufTy).Contents (Elt F) → (⟨S3200000x16, .f32⟩ : BufTy).Contents (Elt F)),
    StableHlo.unary main_arg7 main_v29 ((transpose S16x16 [1, 0] · transposes_S16x16_S16x16_1_0) : (⟨S16x16, .f32⟩ : BufTy).Contents (Elt F) → (⟨S16x16, .f32⟩ : BufTy).Contents (Elt F)),
    StableHlo.binary main_v17 main_v29 main_v30 ((fun l r => Host.dotGeneral dot_S3200000x16_S16x16_S3200000x16_1_0_0_1_n_n none l r) : (⟨S3200000x16, .f32⟩ : BufTy).Contents (Elt F) → (⟨S16x16, .f32⟩ : BufTy).Contents (Elt F) → (⟨S3200000x16, .f32⟩ : BufTy).Contents (Elt F)),
    StableHlo.unary main_arg8 main_v31 (broadcastInDim S1x16 ![1] bcast_S16_S1x16_1 : (⟨S16, .f32⟩ : BufTy).Contents (Elt F) → (⟨S1x16, .f32⟩ : BufTy).Contents (Elt F)),
    StableHlo.unary main_v31 main_v32 (broadcastInDim S3200000x16 ![0, 1] bcast_S1x16_S3200000x16_0_1 : (⟨S1x16, .f32⟩ : BufTy).Contents (Elt F) → (⟨S3200000x16, .f32⟩ : BufTy).Contents (Elt F)),
    StableHlo.binary main_v30 main_v32 main_v33 (addf : (⟨S3200000x16, .f32⟩ : BufTy).Contents (Elt F) → (⟨S3200000x16, .f32⟩ : BufTy).Contents (Elt F) → (⟨S3200000x16, .f32⟩ : BufTy).Contents (Elt F)),
    StableHlo.binary main_v28 main_v33 main_v34 (addf : (⟨S3200000x16, .f32⟩ : BufTy).Contents (Elt F) → (⟨S3200000x16, .f32⟩ : BufTy).Contents (Elt F) → (⟨S3200000x16, .f32⟩ : BufTy).Contents (Elt F)),
    StableHlo.nullary main_cst (constant S_ .f32 0x00000000#32),
    StableHlo.binary main_v34 main_cst main_v35 ((fun x v => Host.reduceAdd x v reducesTo_S3200000x16_S16_d0 h_S_) : (⟨S3200000x16, .f32⟩ : BufTy).Contents (Elt F) → (⟨S_, .f32⟩ : BufTy).Contents (Elt F) → (⟨S16, .f32⟩ : BufTy).Contents (Elt F)),
    StableHlo.nullary main_cst_3 (constant S_ .f32 0x4A435000#32),
    StableHlo.unary main_cst_3 main_v36 (broadcastInDim S16 ![] bcast_S_S16 : (⟨S_, .f32⟩ : BufTy).Contents (Elt F) → (⟨S16, .f32⟩ : BufTy).Contents (Elt F)),
    StableHlo.binary main_v35 main_v36 main_v37 (Host.divf : (⟨S16, .f32⟩ : BufTy).Contents (Elt F) → (⟨S16, .f32⟩ : BufTy).Contents (Elt F) → (⟨S16, .f32⟩ : BufTy).Contents (Elt F)),
    StableHlo.nullary main_c_4 (constantI S_ 32 0#32),
    StableHlo.nullary main_call0_cst (constant S_ .f32 0x00000000#32),
    StableHlo.binary main_v34 main_call0_cst main_call0_v0 (fun x v => Host.reduceAdd x v reducesTo_S3200000x16_S16_d0 h_S_),
    StableHlo.unary main_call0_v0 main_call0_v1 (broadcastInDim S1x16 ![1] bcast_S16_S1x16_1),
    StableHlo.nullary main_call0_cst_0 (constant S_ .f32 0x4A435000#32),
    StableHlo.unary main_call0_cst_0 main_call0_v2 (broadcastInDim S1x16 ![] bcast_S_S1x16),
    StableHlo.binary main_call0_v1 main_call0_v2 main_call0_v3 Host.divf,
    StableHlo.unary main_call0_v3 main_call0_v4 (broadcastInDim S3200000x16 ![0, 1] bcast_S1x16_S3200000x16_0_1),
    StableHlo.binary main_v34 main_call0_v4 main_call0_v5 subf,
    StableHlo.binary main_call0_v5 main_call0_v5 main_call0_v6 mulf,
    StableHlo.unary main_c_4 main_call0_v7 (sitofp .f32),
    StableHlo.nullary main_call0_cst_1 (constant S_ .f32 0x4A435000#32),
    StableHlo.binary main_call0_cst_1 main_call0_v7 main_call0_v8 subf,
    StableHlo.nullary main_call0_cst_2 (constant S_ .f32 0x00000000#32),
    StableHlo.binary main_call0_v6 main_call0_cst_2 main_call0_v9 (fun x v => Host.reduceAdd x v reducesTo_S3200000x16_S16_d0 h_S_),
    StableHlo.unary main_call0_v8 main_call0_v10 (broadcastInDim S16 ![] bcast_S_S16),
    StableHlo.binary main_call0_v9 main_call0_v10 main_call0_v11 Host.divf,
    StableHlo.nullary main_call0_cst_3 (constant S_ .f32 0x00000000#32),
    StableHlo.binary main_call0_v8 main_call0_cst_3 main_call0_v12 (cmpf .ogt),
    StableHlo.nullary main_call0_cst_4 (constant S_ .f32 0x7FC00000#32),
    StableHlo.unary main_call0_cst_4 main_call0_call0_v0 id,
    StableHlo.unary main_call0_call0_v0 main_call0_call0_v1 (broadcastInDim S16 ![] bcast_S_S16),
    StableHlo.ternary main_call0_v12 main_call0_v11 main_call0_call0_v1 main_v38 (fun p a b => select (broadcastInDim S16 ![] bcast_S_S16 p) a b),
    StableHlo.unary main_v37 main_v39 (broadcastInDim S1x16 ![1] bcast_S16_S1x16_1 : (⟨S16, .f32⟩ : BufTy).Contents (Elt F) → (⟨S1x16, .f32⟩ : BufTy).Contents (Elt F)),
    StableHlo.unary main_v39 main_v40 (broadcastInDim S3200000x16 ![0, 1] bcast_S1x16_S3200000x16_0_1 : (⟨S1x16, .f32⟩ : BufTy).Contents (Elt F) → (⟨S3200000x16, .f32⟩ : BufTy).Contents (Elt F)),
    StableHlo.binary main_v34 main_v40 main_v41 (subf : (⟨S3200000x16, .f32⟩ : BufTy).Contents (Elt F) → (⟨S3200000x16, .f32⟩ : BufTy).Contents (Elt F) → (⟨S3200000x16, .f32⟩ : BufTy).Contents (Elt F)),
    StableHlo.nullary main_cst_5 (constant S_ .f32 0x3727C5AC#32),
    StableHlo.unary main_cst_5 main_v42 (broadcastInDim S16 ![] bcast_S_S16 : (⟨S_, .f32⟩ : BufTy).Contents (Elt F) → (⟨S16, .f32⟩ : BufTy).Contents (Elt F)),
    StableHlo.binary main_v38 main_v42 main_v43 (addf : (⟨S16, .f32⟩ : BufTy).Contents (Elt F) → (⟨S16, .f32⟩ : BufTy).Contents (Elt F) → (⟨S16, .f32⟩ : BufTy).Contents (Elt F)),
    StableHlo.unary main_v43 main_v44 (Host.rsqrt : (⟨S16, .f32⟩ : BufTy).Contents (Elt F) → (⟨S16, .f32⟩ : BufTy).Contents (Elt F)),
    StableHlo.unary main_v44 main_v45 (broadcastInDim S1x16 ![1] bcast_S16_S1x16_1 : (⟨S16, .f32⟩ : BufTy).Contents (Elt F) → (⟨S1x16, .f32⟩ : BufTy).Contents (Elt F)),
    StableHlo.unary main_v45 main_v46 (broadcastInDim S3200000x16 ![0, 1] bcast_S1x16_S3200000x16_0_1 : (⟨S1x16, .f32⟩ : BufTy).Contents (Elt F) → (⟨S3200000x16, .f32⟩ : BufTy).Contents (Elt F)),
    StableHlo.binary main_v41 main_v46 main_v47 (mulf : (⟨S3200000x16, .f32⟩ : BufTy).Contents (Elt F) → (⟨S3200000x16, .f32⟩ : BufTy).Contents (Elt F) → (⟨S3200000x16, .f32⟩ : BufTy).Contents (Elt F)),
    StableHlo.unary main_arg9 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S3200000x16 ![0, 1] bcast_S1x16_S3200000x16_0_1 : (⟨S1x16, .f32⟩ : BufTy).Contents (Elt F) → (⟨S3200000x16, .f32⟩ : BufTy).Contents (Elt F)),
    StableHlo.binary main_v47 main_v49 main_v50 (mulf : (⟨S3200000x16, .f32⟩ : BufTy).Contents (Elt F) → (⟨S3200000x16, .f32⟩ : BufTy).Contents (Elt F) → (⟨S3200000x16, .f32⟩ : BufTy).Contents (Elt F)),
    StableHlo.unary main_arg10 main_v51 (broadcastInDim S1x16 ![1] bcast_S16_S1x16_1 : (⟨S16, .f32⟩ : BufTy).Contents (Elt F) → (⟨S1x16, .f32⟩ : BufTy).Contents (Elt F)),
    StableHlo.unary main_v51 main_v52 (broadcastInDim S3200000x16 ![0, 1] bcast_S1x16_S3200000x16_0_1 : (⟨S1x16, .f32⟩ : BufTy).Contents (Elt F) → (⟨S3200000x16, .f32⟩ : BufTy).Contents (Elt F)),
    StableHlo.binary main_v50 main_v52 main_v53 (addf : (⟨S3200000x16, .f32⟩ : BufTy).Contents (Elt F) → (⟨S3200000x16, .f32⟩ : BufTy).Contents (Elt F) → (⟨S3200000x16, .f32⟩ : BufTy).Contents (Elt F)),
    StableHlo.nullary main_call1_cst (constant S_ .f32 0x00000000#32),
    StableHlo.unary main_call1_cst main_call1_v0 (broadcastInDim S3200000x16 ![] bcast_S_S3200000x16),
    StableHlo.binary main_v53 main_call1_v0 main_v54 maximumf,
    StableHlo.binary main_arg2 main_v54 main_v55 (addf : (⟨S3200000x16, .f32⟩ : BufTy).Contents (Elt F) → (⟨S3200000x16, .f32⟩ : BufTy).Contents (Elt F) → (⟨S3200000x16, .f32⟩ : BufTy).Contents (Elt F)) ]

/-- @main is that straight line: its two windows and the three functions unfolded, sequencing reassociated
    (checked by definitional unfolding). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    unary_bufs_sub .., unary_bufs_sub .., binary_bufs_sub .., unary_bufs_sub .., binary_bufs_sub .., unary_bufs_sub ..,
    unary_bufs_sub .., binary_bufs_sub .., binary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub ..⟩

/-! ## The line in four stretches

The operations up to the sum of the three linear layers; the column mean; the variance function with its guarding
select; the normalisation, the rectifier and the residual. Each stretch is read over an arbitrary starting
valuation, so the pre-normalisation array — read by all three later stretches — is walked once. -/

/-- The operations through the pre-normalisation value (%34). -/
abbrev opsE : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.nullary main_c (constantI S_ 32 0#32),
    StableHlo.unary main_c main_v2 (broadcastInDim S3200000 ![] bcast_S_S3200000 : (⟨S_, .i32⟩ : BufTy).Contents (Elt F) → (⟨S3200000, .i32⟩ : BufTy).Contents (Elt F)),
    StableHlo.binary main_v1 main_v2 main_v3 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v4 (broadcastInDim S3200000 ![] bcast_S_S3200000 : (⟨S_, .i32⟩ : BufTy).Contents (Elt F) → (⟨S3200000, .i32⟩ : BufTy).Contents (Elt F)),
    StableHlo.binary main_v1 main_v4 main_v5 (addi : (⟨S3200000, .i32⟩ : BufTy).Contents (Elt F) → (⟨S3200000, .i32⟩ : BufTy).Contents (Elt F) → (⟨S3200000, .i32⟩ : BufTy).Contents (Elt F)),
    StableHlo.ternary main_v3 main_v5 main_v1 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v6 main_v7 (broadcastInDim S3200000x1 ![0] bcast_S3200000_S3200000x1_0 : (⟨S3200000, .i32⟩ : BufTy).Contents (Elt F) → (⟨S3200000x1, .i32⟩ : BufTy).Contents (Elt F)),
    StableHlo.binary main_arg0 main_v7 main_v8 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_arg1 main_v9 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v9 main_v10 rfl shapeCasts_S1x3200000_S3200000,
    StableHlo.nullary main_c_1 (constantI S_ 32 0#32),
    StableHlo.unary main_c_1 main_v11 (broadcastInDim S3200000 ![] bcast_S_S3200000 : (⟨S_, .i32⟩ : BufTy).Contents (Elt F) → (⟨S3200000, .i32⟩ : BufTy).Contents (Elt F)),
    StableHlo.binary main_v10 main_v11 main_v12 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v13 (broadcastInDim S3200000 ![] bcast_S_S3200000 : (⟨S_, .i32⟩ : BufTy).Contents (Elt F) → (⟨S3200000, .i32⟩ : BufTy).Contents (Elt F)),
    StableHlo.binary main_v10 main_v13 main_v14 (addi : (⟨S3200000, .i32⟩ : BufTy).Contents (Elt F) → (⟨S3200000, .i32⟩ : BufTy).Contents (Elt F) → (⟨S3200000, .i32⟩ : BufTy).Contents (Elt F)),
    StableHlo.ternary main_v12 main_v14 main_v10 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v15 main_v16 (broadcastInDim S3200000x1 ![0] bcast_S3200000_S3200000x1_0 : (⟨S3200000, .i32⟩ : BufTy).Contents (Elt F) → (⟨S3200000x1, .i32⟩ : BufTy).Contents (Elt F)),
    StableHlo.binary main_arg0 main_v16 main_v17 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_arg3 main_v18 ((transpose S16x16 [1, 0] · transposes_S16x16_S16x16_1_0) : (⟨S16x16, .f32⟩ : BufTy).Contents (Elt F) → (⟨S16x16, .f32⟩ : BufTy).Contents (Elt F)),
    StableHlo.binary main_arg2 main_v18 main_v19 ((fun l r => Host.dotGeneral dot_S3200000x16_S16x16_S3200000x16_1_0_0_1_n_n none l r) : (⟨S3200000x16, .f32⟩ : BufTy).Contents (Elt F) → (⟨S16x16, .f32⟩ : BufTy).Contents (Elt F) → (⟨S3200000x16, .f32⟩ : BufTy).Contents (Elt F)),
    StableHlo.unary main_arg4 main_v20 (broadcastInDim S1x16 ![1] bcast_S16_S1x16_1 : (⟨S16, .f32⟩ : BufTy).Contents (Elt F) → (⟨S1x16, .f32⟩ : BufTy).Contents (Elt F)),
    StableHlo.unary main_v20 main_v21 (broadcastInDim S3200000x16 ![0, 1] bcast_S1x16_S3200000x16_0_1 : (⟨S1x16, .f32⟩ : BufTy).Contents (Elt F) → (⟨S3200000x16, .f32⟩ : BufTy).Contents (Elt F)),
    StableHlo.binary main_v19 main_v21 main_v22 (addf : (⟨S3200000x16, .f32⟩ : BufTy).Contents (Elt F) → (⟨S3200000x16, .f32⟩ : BufTy).Contents (Elt F) → (⟨S3200000x16, .f32⟩ : BufTy).Contents (Elt F)),
    StableHlo.unary main_arg5 main_v23 ((transpose S16x16 [1, 0] · transposes_S16x16_S16x16_1_0) : (⟨S16x16, .f32⟩ : BufTy).Contents (Elt F) → (⟨S16x16, .f32⟩ : BufTy).Contents (Elt F)),
    StableHlo.binary main_v8 main_v23 main_v24 ((fun l r => Host.dotGeneral dot_S3200000x16_S16x16_S3200000x16_1_0_0_1_n_n none l r) : (⟨S3200000x16, .f32⟩ : BufTy).Contents (Elt F) → (⟨S16x16, .f32⟩ : BufTy).Contents (Elt F) → (⟨S3200000x16, .f32⟩ : BufTy).Contents (Elt F)),
    StableHlo.unary main_arg6 main_v25 (broadcastInDim S1x16 ![1] bcast_S16_S1x16_1 : (⟨S16, .f32⟩ : BufTy).Contents (Elt F) → (⟨S1x16, .f32⟩ : BufTy).Contents (Elt F)),
    StableHlo.unary main_v25 main_v26 (broadcastInDim S3200000x16 ![0, 1] bcast_S1x16_S3200000x16_0_1 : (⟨S1x16, .f32⟩ : BufTy).Contents (Elt F) → (⟨S3200000x16, .f32⟩ : BufTy).Contents (Elt F)),
    StableHlo.binary main_v24 main_v26 main_v27 (addf : (⟨S3200000x16, .f32⟩ : BufTy).Contents (Elt F) → (⟨S3200000x16, .f32⟩ : BufTy).Contents (Elt F) → (⟨S3200000x16, .f32⟩ : BufTy).Contents (Elt F)),
    StableHlo.binary main_v22 main_v27 main_v28 (addf : (⟨S3200000x16, .f32⟩ : BufTy).Contents (Elt F) → (⟨S3200000x16, .f32⟩ : BufTy).Contents (Elt F) → (⟨S3200000x16, .f32⟩ : BufTy).Contents (Elt F)),
    StableHlo.unary main_arg7 main_v29 ((transpose S16x16 [1, 0] · transposes_S16x16_S16x16_1_0) : (⟨S16x16, .f32⟩ : BufTy).Contents (Elt F) → (⟨S16x16, .f32⟩ : BufTy).Contents (Elt F)),
    StableHlo.binary main_v17 main_v29 main_v30 ((fun l r => Host.dotGeneral dot_S3200000x16_S16x16_S3200000x16_1_0_0_1_n_n none l r) : (⟨S3200000x16, .f32⟩ : BufTy).Contents (Elt F) → (⟨S16x16, .f32⟩ : BufTy).Contents (Elt F) → (⟨S3200000x16, .f32⟩ : BufTy).Contents (Elt F)),
    StableHlo.unary main_arg8 main_v31 (broadcastInDim S1x16 ![1] bcast_S16_S1x16_1 : (⟨S16, .f32⟩ : BufTy).Contents (Elt F) → (⟨S1x16, .f32⟩ : BufTy).Contents (Elt F)),
    StableHlo.unary main_v31 main_v32 (broadcastInDim S3200000x16 ![0, 1] bcast_S1x16_S3200000x16_0_1 : (⟨S1x16, .f32⟩ : BufTy).Contents (Elt F) → (⟨S3200000x16, .f32⟩ : BufTy).Contents (Elt F)),
    StableHlo.binary main_v30 main_v32 main_v33 (addf : (⟨S3200000x16, .f32⟩ : BufTy).Contents (Elt F) → (⟨S3200000x16, .f32⟩ : BufTy).Contents (Elt F) → (⟨S3200000x16, .f32⟩ : BufTy).Contents (Elt F)),
    StableHlo.binary main_v28 main_v33 main_v34 (addf : (⟨S3200000x16, .f32⟩ : BufTy).Contents (Elt F) → (⟨S3200000x16, .f32⟩ : BufTy).Contents (Elt F) → (⟨S3200000x16, .f32⟩ : BufTy).Contents (Elt F)) ]
/-- The column mean (%37). -/
abbrev opsM : List (HloOp τ sig (Elt F)) :=
  [ StableHlo.nullary main_cst (constant S_ .f32 0x00000000#32),
    StableHlo.binary main_v34 main_cst main_v35 ((fun x v => Host.reduceAdd x v reducesTo_S3200000x16_S16_d0 h_S_) : (⟨S3200000x16, .f32⟩ : BufTy).Contents (Elt F) → (⟨S_, .f32⟩ : BufTy).Contents (Elt F) → (⟨S16, .f32⟩ : BufTy).Contents (Elt F)),
    StableHlo.nullary main_cst_3 (constant S_ .f32 0x4A435000#32),
    StableHlo.unary main_cst_3 main_v36 (broadcastInDim S16 ![] bcast_S_S16 : (⟨S_, .f32⟩ : BufTy).Contents (Elt F) → (⟨S16, .f32⟩ : BufTy).Contents (Elt F)),
    StableHlo.binary main_v35 main_v36 main_v37 (Host.divf : (⟨S16, .f32⟩ : BufTy).Contents (Elt F) → (⟨S16, .f32⟩ : BufTy).Contents (Elt F) → (⟨S16, .f32⟩ : BufTy).Contents (Elt F)) ]
/-- The variance function and its select (%38), from the integer zero it is called with. -/
abbrev opsV : List (HloOp τ sig (Elt F)) :=
  [ StableHlo.nullary main_c_4 (constantI S_ 32 0#32),
    StableHlo.nullary main_call0_cst (constant S_ .f32 0x00000000#32),
    StableHlo.binary main_v34 main_call0_cst main_call0_v0 (fun x v => Host.reduceAdd x v reducesTo_S3200000x16_S16_d0 h_S_),
    StableHlo.unary main_call0_v0 main_call0_v1 (broadcastInDim S1x16 ![1] bcast_S16_S1x16_1),
    StableHlo.nullary main_call0_cst_0 (constant S_ .f32 0x4A435000#32),
    StableHlo.unary main_call0_cst_0 main_call0_v2 (broadcastInDim S1x16 ![] bcast_S_S1x16),
    StableHlo.binary main_call0_v1 main_call0_v2 main_call0_v3 Host.divf,
    StableHlo.unary main_call0_v3 main_call0_v4 (broadcastInDim S3200000x16 ![0, 1] bcast_S1x16_S3200000x16_0_1),
    StableHlo.binary main_v34 main_call0_v4 main_call0_v5 subf,
    StableHlo.binary main_call0_v5 main_call0_v5 main_call0_v6 mulf,
    StableHlo.unary main_c_4 main_call0_v7 (sitofp .f32),
    StableHlo.nullary main_call0_cst_1 (constant S_ .f32 0x4A435000#32),
    StableHlo.binary main_call0_cst_1 main_call0_v7 main_call0_v8 subf,
    StableHlo.nullary main_call0_cst_2 (constant S_ .f32 0x00000000#32),
    StableHlo.binary main_call0_v6 main_call0_cst_2 main_call0_v9 (fun x v => Host.reduceAdd x v reducesTo_S3200000x16_S16_d0 h_S_),
    StableHlo.unary main_call0_v8 main_call0_v10 (broadcastInDim S16 ![] bcast_S_S16),
    StableHlo.binary main_call0_v9 main_call0_v10 main_call0_v11 Host.divf,
    StableHlo.nullary main_call0_cst_3 (constant S_ .f32 0x00000000#32),
    StableHlo.binary main_call0_v8 main_call0_cst_3 main_call0_v12 (cmpf .ogt),
    StableHlo.nullary main_call0_cst_4 (constant S_ .f32 0x7FC00000#32),
    StableHlo.unary main_call0_cst_4 main_call0_call0_v0 id,
    StableHlo.unary main_call0_call0_v0 main_call0_call0_v1 (broadcastInDim S16 ![] bcast_S_S16),
    StableHlo.ternary main_call0_v12 main_call0_v11 main_call0_call0_v1 main_v38 (fun p a b => select (broadcastInDim S16 ![] bcast_S_S16 p) a b) ]
/-- Normalise, scale and shift, rectify, add the residual (%55). -/
abbrev opsO : List (HloOp τ sig (Elt F)) :=
  [ StableHlo.unary main_v37 main_v39 (broadcastInDim S1x16 ![1] bcast_S16_S1x16_1 : (⟨S16, .f32⟩ : BufTy).Contents (Elt F) → (⟨S1x16, .f32⟩ : BufTy).Contents (Elt F)),
    StableHlo.unary main_v39 main_v40 (broadcastInDim S3200000x16 ![0, 1] bcast_S1x16_S3200000x16_0_1 : (⟨S1x16, .f32⟩ : BufTy).Contents (Elt F) → (⟨S3200000x16, .f32⟩ : BufTy).Contents (Elt F)),
    StableHlo.binary main_v34 main_v40 main_v41 (subf : (⟨S3200000x16, .f32⟩ : BufTy).Contents (Elt F) → (⟨S3200000x16, .f32⟩ : BufTy).Contents (Elt F) → (⟨S3200000x16, .f32⟩ : BufTy).Contents (Elt F)),
    StableHlo.nullary main_cst_5 (constant S_ .f32 0x3727C5AC#32),
    StableHlo.unary main_cst_5 main_v42 (broadcastInDim S16 ![] bcast_S_S16 : (⟨S_, .f32⟩ : BufTy).Contents (Elt F) → (⟨S16, .f32⟩ : BufTy).Contents (Elt F)),
    StableHlo.binary main_v38 main_v42 main_v43 (addf : (⟨S16, .f32⟩ : BufTy).Contents (Elt F) → (⟨S16, .f32⟩ : BufTy).Contents (Elt F) → (⟨S16, .f32⟩ : BufTy).Contents (Elt F)),
    StableHlo.unary main_v43 main_v44 (Host.rsqrt : (⟨S16, .f32⟩ : BufTy).Contents (Elt F) → (⟨S16, .f32⟩ : BufTy).Contents (Elt F)),
    StableHlo.unary main_v44 main_v45 (broadcastInDim S1x16 ![1] bcast_S16_S1x16_1 : (⟨S16, .f32⟩ : BufTy).Contents (Elt F) → (⟨S1x16, .f32⟩ : BufTy).Contents (Elt F)),
    StableHlo.unary main_v45 main_v46 (broadcastInDim S3200000x16 ![0, 1] bcast_S1x16_S3200000x16_0_1 : (⟨S1x16, .f32⟩ : BufTy).Contents (Elt F) → (⟨S3200000x16, .f32⟩ : BufTy).Contents (Elt F)),
    StableHlo.binary main_v41 main_v46 main_v47 (mulf : (⟨S3200000x16, .f32⟩ : BufTy).Contents (Elt F) → (⟨S3200000x16, .f32⟩ : BufTy).Contents (Elt F) → (⟨S3200000x16, .f32⟩ : BufTy).Contents (Elt F)),
    StableHlo.unary main_arg9 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S3200000x16 ![0, 1] bcast_S1x16_S3200000x16_0_1 : (⟨S1x16, .f32⟩ : BufTy).Contents (Elt F) → (⟨S3200000x16, .f32⟩ : BufTy).Contents (Elt F)),
    StableHlo.binary main_v47 main_v49 main_v50 (mulf : (⟨S3200000x16, .f32⟩ : BufTy).Contents (Elt F) → (⟨S3200000x16, .f32⟩ : BufTy).Contents (Elt F) → (⟨S3200000x16, .f32⟩ : BufTy).Contents (Elt F)),
    StableHlo.unary main_arg10 main_v51 (broadcastInDim S1x16 ![1] bcast_S16_S1x16_1 : (⟨S16, .f32⟩ : BufTy).Contents (Elt F) → (⟨S1x16, .f32⟩ : BufTy).Contents (Elt F)),
    StableHlo.unary main_v51 main_v52 (broadcastInDim S3200000x16 ![0, 1] bcast_S1x16_S3200000x16_0_1 : (⟨S1x16, .f32⟩ : BufTy).Contents (Elt F) → (⟨S3200000x16, .f32⟩ : BufTy).Contents (Elt F)),
    StableHlo.binary main_v50 main_v52 main_v53 (addf : (⟨S3200000x16, .f32⟩ : BufTy).Contents (Elt F) → (⟨S3200000x16, .f32⟩ : BufTy).Contents (Elt F) → (⟨S3200000x16, .f32⟩ : BufTy).Contents (Elt F)),
    StableHlo.nullary main_call1_cst (constant S_ .f32 0x00000000#32),
    StableHlo.unary main_call1_cst main_call1_v0 (broadcastInDim S3200000x16 ![] bcast_S_S3200000x16),
    StableHlo.binary main_v53 main_call1_v0 main_v54 maximumf,
    StableHlo.binary main_arg2 main_v54 main_v55 (addf : (⟨S3200000x16, .f32⟩ : BufTy).Contents (Elt F) → (⟨S3200000x16, .f32⟩ : BufTy).Contents (Elt F) → (⟨S3200000x16, .f32⟩ : BufTy).Contents (Elt F)) ]

/-- The line is its four stretches end to end. -/
theorem ops_split : (ops : List (HloOp τ sig (Elt F))) = opsE ++ (opsM ++ (opsV ++ opsO)) := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Every buffer the line writes: one per operation, none of them an argument. -/
abbrev written : List (Ref sig .tc) :=
  [ main_v0, main_v1, main_c, main_v2, main_v3, main_c_0, main_v4, main_v5,
    main_v6, main_v7, main_v8, main_v9, main_v10, main_c_1, main_v11, main_v12,
    main_c_2, main_v13, main_v14, main_v15, main_v16, main_v17, main_v18, main_v19,
    main_v20, main_v21, main_v22, main_v23, main_v24, main_v25, main_v26, main_v27,
    main_v28, main_v29, main_v30, main_v31, main_v32, main_v33, main_v34, main_cst,
    main_v35, main_cst_3, main_v36, main_v37, main_c_4, main_call0_cst, main_call0_v0, main_call0_v1,
    main_call0_cst_0, main_call0_v2, main_call0_v3, main_call0_v4, main_call0_v5, main_call0_v6, main_call0_v7, main_call0_cst_1,
    main_call0_v8, main_call0_cst_2, main_call0_v9, main_call0_v10, main_call0_v11, main_call0_cst_3, main_call0_v12, main_call0_cst_4,
    main_call0_call0_v0, main_call0_call0_v1, main_v38, main_v39, main_v40, main_v41, main_cst_5, main_v42,
    main_v43, main_v44, main_v45, main_v46, main_v47, main_v48, main_v49, main_v50,
    main_v51, main_v52, main_v53, main_call1_cst, main_call1_v0, main_v54, main_v55 ]

/-- A buffer in the list, as a singleton, lies in the list's set of device buffers. -/
theorem single_sub {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem h))

/-- Each operation writes its one result buffer, which is in the list. -/
theorem writes_sub : (ops : List (HloOp τ sig (Elt F))).Forall fun op =>
    op.writes ⊆ (written.map (Proc.devRef (τ := τ) .tc)).toFinset :=
  ⟨single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide), single_sub (by decide),
    single_sub (by decide), single_sub (by decide), single_sub (by decide)⟩

/-- An argument buffer is written by no operation: it keeps its contents. -/
theorem arg_eq (V : Valuation τ sig (Elt F)) {r : Ref sig .tc} (hr : r ∉ written) :
    after (ops (F := F)) V (Proc.devRef .tc r) = V (Proc.devRef .tc r) :=
  after_of_writes_sub ops V writes_sub hr

/-! ## The composed term, in named pieces (at the exact extended-real values) -/

section Pieces

/-- Row 0 or 1 of the edge list as a flat vector of node numbers. -/
def edgeRow0 (ei : IVec S2x3200000 32) : IVec S3200000 32 :=
  shapeCast S3200000 (extractStridedSlice S1x3200000 ![0, 0] ei slices_S2x3200000_S1x3200000_0_0) shapeCasts_S1x3200000_S3200000
@[inherit_doc edgeRow0]
def edgeRow1 (ei : IVec S2x3200000 32) : IVec S3200000 32 :=
  shapeCast S3200000 (extractStridedSlice S1x3200000 ![1, 0] ei slices_S2x3200000_S1x3200000_1_0) shapeCasts_S1x3200000_S3200000

/-- A vector of node numbers as the one-column index array a gather takes, a number below zero counted from the
    end (100000 added). -/
def nodeCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The source node's features per edge: the rows of `x` at the first row of the edge list. -/
def gsrc (x : FVec Ideal S100000x16 .f32) (ei : IVec S2x3200000 32) : FVec Ideal S3200000x16 .f32 :=
  Host.gather gather_S100000x16_S3200000x1_S3200000x16_1_0_n_n_0_1_116 x (nodeCol (edgeRow0 ei))

/-- The destination node's features per edge: the rows of `x` at the second row of the edge list. -/
def gdst (x : FVec Ideal S100000x16 .f32) (ei : IVec S2x3200000 32) : FVec Ideal S3200000x16 .f32 :=
  Host.gather gather_S100000x16_S3200000x1_S3200000x16_1_0_n_n_0_1_116 x (nodeCol (edgeRow1 ei))

/-- A vector over the 16 channels repeated down every edge row. -/
def rowBcast (v : FVec Ideal S16 .f32) : FVec Ideal S3200000x16 .f32 :=
  broadcastInDim S3200000x16 ![0, 1] bcast_S1x16_S3200000x16_0_1 (broadcastInDim S1x16 ![1] bcast_S16_S1x16_1 v)

/-- One linear layer: the rows of `a` against the transposed weight matrix, plus the bias on every row. -/
def linR (a : FVec Ideal S3200000x16 .f32) (Wt : FVec Ideal S16x16 .f32) (b : FVec Ideal S16 .f32) : FVec Ideal S3200000x16 .f32 :=
  addf (Host.dotGeneral (F := Ideal) dot_S3200000x16_S16x16_S3200000x16_1_0_0_1_n_n none a
      (transpose S16x16 [1, 0] Wt transposes_S16x16_S16x16_1_0)) (rowBcast b)

/-- The pre-normalisation value: the three linear layers summed, associated to the left. -/
def eR (x : FVec Ideal S100000x16 .f32) (ei : IVec S2x3200000 32) (ea : FVec Ideal S3200000x16 .f32) (W0 : FVec Ideal S16x16 .f32) (b0 : FVec Ideal S16 .f32) (W1 : FVec Ideal S16x16 .f32) (b1 : FVec Ideal S16 .f32)
    (W2 : FVec Ideal S16x16 .f32) (b2 : FVec Ideal S16 .f32) : FVec Ideal S3200000x16 .f32 :=
  addf (addf (linR ea W0 b0) (linR (gsrc x ei) W1 b1)) (linR (gdst x ei) W2 b2)

/-- The column sum from zero. -/
def colSum (e : FVec Ideal S3200000x16 .f32) : FVec Ideal S16 .f32 :=
  Host.reduceAdd (F := Ideal) e (constant (F := Ideal) S_ .f32 0x00000000#32) reducesTo_S3200000x16_S16_d0 h_S_

/-- The column mean: the column sum over the literal 3.2e6. -/
def meanR (e : FVec Ideal S3200000x16 .f32) : FVec Ideal S16 .f32 :=
  Host.divf (F := Ideal) (colSum e) (broadcastInDim S16 ![] bcast_S_S16 (constant (F := Ideal) S_ .f32 0x4A435000#32))

/-- The deviation from the column mean as the variance function computes it (its mean taken on a one-row array). -/
def devR (e : FVec Ideal S3200000x16 .f32) : FVec Ideal S3200000x16 .f32 :=
  subf e (broadcastInDim S3200000x16 ![0, 1] bcast_S1x16_S3200000x16_0_1
    (Host.divf (F := Ideal) (broadcastInDim S1x16 ![1] bcast_S16_S1x16_1 (colSum e))
      (broadcastInDim S1x16 ![] bcast_S_S1x16 (constant (F := Ideal) S_ .f32 0x4A435000#32))))

/-- The variance's divisor: 3.2e6 less the degrees-of-freedom correction, an integer zero converted. -/
def cntR : FVec Ideal S_ .f32 :=
  subf (constant (F := Ideal) S_ .f32 0x4A435000#32) (sitofp (F := Ideal) .f32 (constantI S_ 32 0#32))

/-- The column variance: the mean of the squared deviations where the divisor is positive, else the quiet NaN word. -/
def varRr (e : FVec Ideal S3200000x16 .f32) : FVec Ideal S16 .f32 :=
  select (broadcastInDim S16 ![] bcast_S_S16 (cmpf .ogt cntR (constant (F := Ideal) S_ .f32 0x00000000#32)))
    (Host.divf (F := Ideal) (colSum (mulf (devR e) (devR e))) (broadcastInDim S16 ![] bcast_S_S16 cntR))
    (broadcastInDim S16 ![] bcast_S_S16 (constant (F := Ideal) S_ .f32 0x7FC00000#32))

/-- Normalise by mean and variance, scale and shift, rectify, add the residual. -/
def outR (ea e : FVec Ideal S3200000x16 .f32) (mean var g bt : FVec Ideal S16 .f32) : FVec Ideal S3200000x16 .f32 :=
  addf ea (maximumf
    (addf (mulf (mulf (subf e (rowBcast mean))
        (rowBcast (Host.rsqrt (F := Ideal) (addf var (broadcastInDim S16 ![] bcast_S_S16 (constant (F := Ideal) S_ .f32 0x3727C5AC#32))))))
      (rowBcast g)) (rowBcast bt))
    (broadcastInDim S3200000x16 ![] bcast_S_S3200000x16 (constant (F := Ideal) S_ .f32 0x00000000#32)))

/-- The reference's result as a function of its eleven argument arrays. -/
def res (x : FVec Ideal S100000x16 .f32) (ei : IVec S2x3200000 32) (ea : FVec Ideal S3200000x16 .f32) (W0 : FVec Ideal S16x16 .f32) (b0 : FVec Ideal S16 .f32) (W1 : FVec Ideal S16x16 .f32) (b1 : FVec Ideal S16 .f32)
    (W2 : FVec Ideal S16x16 .f32) (b2 : FVec Ideal S16 .f32) (g bt : FVec Ideal S16 .f32) : FVec Ideal S3200000x16 .f32 :=
  outR ea (eR x ei ea W0 b0 W1 b1 W2 b2) (meanR (eR x ei ea W0 b0 W1 b1 W2 b2)) (varRr (eR x ei ea W0 b0 W1 b1 W2 b2)) g bt

set_option maxRecDepth 16384 in
/-- After the first stretch the pre-normalisation buffer holds the three linear layers summed. -/
theorem stageE (V : Valuation τ sig (Elt Ideal)) :
    after (opsE (F := Ideal)) V (main_v34 : DevRef τ sig)
      = eR (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl
theorem keepE_main_arg2 (V : Valuation τ sig (Elt Ideal)) :
    after (opsE (F := Ideal)) V (main_arg2 : DevRef τ sig) = V (main_arg2 : DevRef τ sig) := by
  after_results_simp
theorem keepE_main_arg9 (V : Valuation τ sig (Elt Ideal)) :
    after (opsE (F := Ideal)) V (main_arg9 : DevRef τ sig) = V (main_arg9 : DevRef τ sig) := by
  after_results_simp
theorem keepE_main_arg10 (V : Valuation τ sig (Elt Ideal)) :
    after (opsE (F := Ideal)) V (main_arg10 : DevRef τ sig) = V (main_arg10 : DevRef τ sig) := by
  after_results_simp

/-- After the second stretch the mean buffer holds the column mean of the pre-normalisation buffer. -/
theorem stageM (V : Valuation τ sig (Elt Ideal)) :
    after (opsM (F := Ideal)) V (main_v37 : DevRef τ sig) = meanR (V (main_v34 : DevRef τ sig)) := by
  after_results_simp
  rfl
theorem keepM_main_v34 (V : Valuation τ sig (Elt Ideal)) :
    after (opsM (F := Ideal)) V (main_v34 : DevRef τ sig) = V (main_v34 : DevRef τ sig) := by
  after_results_simp
theorem keepM_main_arg2 (V : Valuation τ sig (Elt Ideal)) :
    after (opsM (F := Ideal)) V (main_arg2 : DevRef τ sig) = V (main_arg2 : DevRef τ sig) := by
  after_results_simp
theorem keepM_main_arg9 (V : Valuation τ sig (Elt Ideal)) :
    after (opsM (F := Ideal)) V (main_arg9 : DevRef τ sig) = V (main_arg9 : DevRef τ sig) := by
  after_results_simp
theorem keepM_main_arg10 (V : Valuation τ sig (Elt Ideal)) :
    after (opsM (F := Ideal)) V (main_arg10 : DevRef τ sig) = V (main_arg10 : DevRef τ sig) := by
  after_results_simp

set_option maxRecDepth 16384 in
/-- After the third stretch the variance buffer holds the guarded column variance of the pre-normalisation buffer. -/
theorem stageV (V : Valuation τ sig (Elt Ideal)) :
    after (opsV (F := Ideal)) V (main_v38 : DevRef τ sig) = varRr (V (main_v34 : DevRef τ sig)) := by
  after_results_simp
  rfl
theorem keepV_main_v34 (V : Valuation τ sig (Elt Ideal)) :
    after (opsV (F := Ideal)) V (main_v34 : DevRef τ sig) = V (main_v34 : DevRef τ sig) := by
  after_results_simp
theorem keepV_main_v37 (V : Valuation τ sig (Elt Ideal)) :
    after (opsV (F := Ideal)) V (main_v37 : DevRef τ sig) = V (main_v37 : DevRef τ sig) := by
  after_results_simp
theorem keepV_main_arg2 (V : Valuation τ sig (Elt Ideal)) :
    after (opsV (F := Ideal)) V (main_arg2 : DevRef τ sig) = V (main_arg2 : DevRef τ sig) := by
  after_results_simp
theorem keepV_main_arg9 (V : Valuation τ sig (Elt Ideal)) :
    after (opsV (F := Ideal)) V (main_arg9 : DevRef τ sig) = V (main_arg9 : DevRef τ sig) := by
  after_results_simp
theorem keepV_main_arg10 (V : Valuation τ sig (Elt Ideal)) :
    after (opsV (F := Ideal)) V (main_arg10 : DevRef τ sig) = V (main_arg10 : DevRef τ sig) := by
  after_results_simp

set_option maxRecDepth 16384 in
/-- After the last stretch the result buffer holds the normalised, rectified value plus the residual. -/
theorem stageO (V : Valuation τ sig (Elt Ideal)) :
    after (opsO (F := Ideal)) V (main_v55 : DevRef τ sig)
      = outR (V (main_arg2 : DevRef τ sig)) (V (main_v34 : DevRef τ sig)) (V (main_v37 : DevRef τ sig)) (V (main_v38 : DevRef τ sig)) (V (main_arg9 : DevRef τ sig)) (V (main_arg10 : DevRef τ sig)) := by
  after_results_simp
  rfl

/-- The fold at the result buffer is `res` of the arguments' contents. -/
theorem out_eq (V : Valuation τ sig (Elt Ideal)) :
    after (ops (F := Ideal)) V (main_v55 : DevRef τ sig)
      = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [ops_split, after_append, after_append, after_append, stageO, stageV, keepV_main_v34, keepV_main_v37, keepV_main_arg2,
    keepV_main_arg9, keepV_main_arg10, stageM, keepM_main_v34, keepM_main_arg2, keepM_main_arg9, keepM_main_arg10, stageE,
    keepE_main_arg2, keepE_main_arg9, keepE_main_arg10]
  rfl

/-- On the one device, from any memory with zero counters: every weakly fair execution of @main terminates with the
    result buffer at `res` of the eleven argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55)
        = res (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v55).trans (out_eq _),
      (h c main_arg0).trans (arg_eq _ (by decide)),
      (h c main_arg1).trans (arg_eq _ (by decide)),
      (h c main_arg2).trans (arg_eq _ (by decide)),
      (h c main_arg3).trans (arg_eq _ (by decide)),
      (h c main_arg4).trans (arg_eq _ (by decide)),
      (h c main_arg5).trans (arg_eq _ (by decide)),
      (h c main_arg6).trans (arg_eq _ (by decide)),
      (h c main_arg7).trans (arg_eq _ (by decide)),
      (h c main_arg8).trans (arg_eq _ (by decide)),
      (h c main_arg9).trans (arg_eq _ (by decide)),
      (h c main_arg10).trans (arg_eq _ (by decide))⟩)
    (run_seq scopedRefs_eq scopedSems_eq defs main (fun _ => ops) main_eq (fun _ => ops_sub) m ρ)

end Pieces

end Cert.ReferenceIdeal.RefValue

end
-- ==== Proof.RefRead.lean ====
/-
  The reference's result read index by index: it is the specification.

  Each named piece of the reference's composed term is read at an index. A channel vector broadcast down the
  rows reads its channel; a linear layer at (r, d) is Σₖ a r k · W d k + b d (the transpose puts the weights'
  second axis on the contracted one); the column sum from the zero literal is the plain sum down the rows; the
  mean divides it by the literal 3.2e6; the variance function's select keeps its quotient because the divisor
  3.2e6 − 0 is positive, and that quotient is the mean of the squared deviations; the last stage normalises,
  scales, shifts, rectifies and adds the residual. The two gathered node-feature arrays are never opened.
-/
import proofs.«110224_j19997367730282_1_alg».proof.Proof.RefRun
import proofs.«110224_j19997367730282_1_alg».proof.Proof.Algebra
import Idealize.ShloMosaic.Lib.IdealHost
import Idealize.ShloMosaic.Lib.Pipeline.Value

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

section Read

open Idealize.ShloMosaic.ValueIdx

variable [Cert.ReferenceIdeal.Facts]

/-- The dimension numbers of the three products: rows against the contracted axis of the transposed weights. -/
abbrev dotD : DotDims S3200000x16 S16x16 S3200000x16 := dot_S3200000x16_S16x16_S3200000x16_1_0_0_1_n_n

theorem lhs_0 (i : S3200000x16.Idx) (q : dotD.contr.Idx) : (dotD.lhsIdx i q 0).val = (i 0).val := by
  unfold DotDims.lhsIdx
  rw [dif_neg (show ¬(0 : Fin S3200000x16.rank) ∈ dotD.lhsBatch by decide),
    dif_pos (show (0 : Fin S3200000x16.rank) ∈ dotD.lhsNonContracting by decide)]
  rfl
theorem lhs_1 (i : S3200000x16.Idx) (q : dotD.contr.Idx) : (dotD.lhsIdx i q 1).val = (q ⟨0, by decide⟩).val :=
  dotD.lhsIdx_val_of_single rfl i q
theorem rhs_0 (i : S3200000x16.Idx) (q : dotD.contr.Idx) : (dotD.rhsIdx i q 0).val = (q ⟨0, by decide⟩).val :=
  dotD.rhsIdx_val_of_single rfl i q
theorem rhs_1 (i : S3200000x16.Idx) (q : dotD.contr.Idx) : (dotD.rhsIdx i q 1).val = (i 1).val := by
  unfold DotDims.rhsIdx
  rw [dif_neg (show ¬(1 : Fin S16x16.rank) ∈ dotD.rhsBatch by decide),
    dif_pos (show (1 : Fin S16x16.rank) ∈ dotD.rhsNonContracting by decide)]
  rfl

/-- A channel vector repeated down the rows reads its channel at every row. -/
theorem rowBcast_apply (v : FVec Ideal S16 .f32) (r : Fin 3200000) (d : Fin 16) : rowBcast v (ix2 r d) = v (ix1 d) := by
  unfold rowBcast
  rw [broadcastInDim_apply _ _ _ (ix2 r d) (ix2 (0 : Fin 1) d) (fun a => by match a with | ⟨0, _⟩ => rfl | ⟨1, _⟩ => rfl),
    broadcastInDim_apply _ _ _ (ix2 (0 : Fin 1) d) (ix1 d) (fun a => by match a with | ⟨0, _⟩ => rfl)]

/-- A linear layer at (r, d): the row of `a` against row d of the weight matrix, plus the bias. The transpose puts
    the weights' second axis on the contracted one, so the product runs over W d k. -/
theorem linR_apply (a : FVec Ideal S3200000x16 .f32) (Wt : FVec Ideal S16x16 .f32) (b : FVec Ideal S16 .f32) (r : Fin 3200000) (d : Fin 16) :
    linR a Wt b (ix2 r d) = (∑ k : Fin 16, a (ix2 r k) * Wt (ix2 d k)) + b (ix1 d) := by
  unfold linR
  rw [addf_apply, rowBcast_apply]
  refine congrArg (· + b (ix1 d)) ?_
  simp only [Host.dotGeneral]
  rw [Ideal.dotGeneral_apply, ← Equiv.sum_comp (contrEquiv1 dotD 16 rfl rfl).symm]
  refine Finset.sum_congr rfl fun k _ => ?_
  have hk := contrEquiv1_symm_val dotD 16 rfl rfl k
  have el : dotD.lhsIdx (ix2 r d) ((contrEquiv1 dotD 16 rfl rfl).symm k) = ix2 r k := funext fun a => Fin.ext (by
    match a with
    | ⟨0, _⟩ => exact lhs_0 _ _
    | ⟨1, _⟩ => exact (lhs_1 _ _).trans hk)
  have er : dotD.rhsIdx (ix2 r d) ((contrEquiv1 dotD 16 rfl rfl).symm k) = ix2 k d := funext fun a => Fin.ext (by
    match a with
    | ⟨0, _⟩ => exact (rhs_0 _ _).trans hk
    | ⟨1, _⟩ => exact rhs_1 _ _)
  rw [el, er, transpose_apply _ _ _ (ix2 k d) (ix2 d k) (fun b => by match b with | ⟨0, _⟩ => rfl | ⟨1, _⟩ => rfl)]

/-- The pre-normalisation value at (r, d) is the specification's, the two gathered arrays left as they are. -/
theorem eR_apply (x : FVec Ideal S100000x16 .f32) (ei : IVec S2x3200000 32) (ea : FVec Ideal S3200000x16 .f32) (W0 : FVec Ideal S16x16 .f32) (b0 : FVec Ideal S16 .f32)
    (W1 : FVec Ideal S16x16 .f32) (b1 : FVec Ideal S16 .f32) (W2 : FVec Ideal S16x16 .f32) (b2 : FVec Ideal S16 .f32) (r : Fin 3200000) (d : Fin 16) :
    eR x ei ea W0 b0 W1 b1 W2 b2 (ix2 r d)
      = Cert.Spec.E (fun r k => ea (ix2 r k)) (fun r k => gsrc x ei (ix2 r k)) (fun r k => gdst x ei (ix2 r k))
          (fun d k => W0 (ix2 d k)) (fun d k => W1 (ix2 d k)) (fun d k => W2 (ix2 d k))
          (fun d => b0 (ix1 d)) (fun d => b1 (ix1 d)) (fun d => b2 (ix1 d)) r d := by
  unfold eR Cert.Spec.E Cert.Spec.lin
  rw [addf_apply, addf_apply, linR_apply, linR_apply, linR_apply]

/-- The column sum from zero at channel d is the plain sum down the rows. -/
theorem colSum_apply (e : FVec Ideal S3200000x16 .f32) (d : Fin 16) : colSum e (ix1 d) = ∑ r : Fin 3200000, e (ix2 r d) := by
  unfold colSum
  rw [hostReduceAdd_apply, Ideal.hostReduceAdd_single reducesTo_S3200000x16_S16_d0 (by decide), constant_apply,
    Ideal.ofBits_zero_f32, zero_add]
  refine Finset.sum_congr rfl fun k _ => ?_
  exact congrArg e (funext fun a => Fin.ext (by match a with | ⟨0, _⟩ => rfl | ⟨1, _⟩ => rfl))

/-- The column mean at channel d is the specification's. -/
theorem meanR_apply (e : FVec Ideal S3200000x16 .f32) (d : Fin 16) : meanR e (ix1 d) = Cert.Spec.mean (fun r k => e (ix2 r k)) d := by
  unfold meanR Cert.Spec.mean Cert.Spec.S1
  rw [hostDivf_apply, colSum_apply, broadcastInDim_scalar_apply, constant_apply]

/-- The variance function's deviation at (r, d): the entry less the column mean. -/
theorem devR_apply (e : FVec Ideal S3200000x16 .f32) (r : Fin 3200000) (d : Fin 16) :
    devR e (ix2 r d) = e (ix2 r d) - Cert.Spec.mean (fun r k => e (ix2 r k)) d := by
  unfold devR Cert.Spec.mean Cert.Spec.S1
  rw [subf_apply, broadcastInDim_apply _ _ _ (ix2 r d) (ix2 (0 : Fin 1) d) (fun a => by match a with | ⟨0, _⟩ => rfl | ⟨1, _⟩ => rfl),
    hostDivf_apply, broadcastInDim_apply _ _ _ (ix2 (0 : Fin 1) d) (ix1 d) (fun a => by match a with | ⟨0, _⟩ => rfl),
    colSum_apply, broadcastInDim_scalar_apply, constant_apply]

/-- The variance's divisor is the literal 3.2e6: the integer zero converts to the real zero. -/
theorem cntR_apply : cntR ix0 = Cert.Spec.cN := by
  unfold cntR
  rw [subf_apply, constant_apply, sitofp_apply]
  show Cert.Spec.cN - (((0#32 : BitVec 32).toInt : ℝ) : EReal) = Cert.Spec.cN
  rw [show ((0#32 : BitVec 32).toInt) = 0 from by decide, Int.cast_zero, EReal.coe_zero, sub_zero]

/-- The select keeps the quotient, 3.2e6 being positive: the column variance at channel d is the specification's
    mean of squared deviations. -/
theorem varRr_apply (e : FVec Ideal S3200000x16 .f32) (d : Fin 16) : varRr e (ix1 d) = Cert.Spec.varR (fun r k => e (ix2 r k)) d := by
  unfold varRr Cert.Spec.varR
  rw [select_apply, broadcastInDim_scalar_apply, cmpf_apply, cntR_apply, constant_apply, Ideal.ofBits_zero_f32, Ideal.cmpf_def]
  have hc : Ideal.cmp .ogt Cert.Spec.cN 0 = 1#1 := by
    unfold Ideal.cmp
    simp only [decide_eq_true Cert.Spec.cN_pos]
    rfl
  rw [hc, select_one, hostDivf_apply, colSum_apply, broadcastInDim_scalar_apply, cntR_apply]
  refine congrArg (Ideal.div · Cert.Spec.cN) (Finset.sum_congr rfl fun r _ => ?_)
  rw [mulf_apply, devR_apply]

/-- The result at (r, d) is the specification's, for any variance vector. -/
theorem outR_apply (ea e : FVec Ideal S3200000x16 .f32) (var g bt : FVec Ideal S16 .f32) (r : Fin 3200000) (d : Fin 16) :
    outR ea e (meanR e) var g bt (ix2 r d)
      = Cert.Spec.out (fun r k => ea (ix2 r k)) (fun r k => e (ix2 r k)) (fun d => var (ix1 d)) (fun d => g (ix1 d))
          (fun d => bt (ix1 d)) r d := by
  unfold outR Cert.Spec.out
  rw [addf_apply, maximumf_apply, addf_apply, mulf_apply, mulf_apply, subf_apply, rowBcast_apply, rowBcast_apply,
    rowBcast_apply, rowBcast_apply, meanR_apply, broadcastInDim_scalar_apply, constant_apply, Ideal.ofBits_zero_f32]
  show _ + max ((_ * FloatOps.hostUnary .rsqrt (addf var _ (ix1 d))) * _ + _) 0 = _
  rw [Ideal.hostUnary_rsqrt_def, addf_apply, broadcastInDim_scalar_apply, constant_apply]

/-- The reference's result, index by index, is the specification at the reference's variance. -/
theorem res_eq (x : FVec Ideal S100000x16 .f32) (ei : IVec S2x3200000 32) (ea : FVec Ideal S3200000x16 .f32) (W0 : FVec Ideal S16x16 .f32) (b0 : FVec Ideal S16 .f32)
    (W1 : FVec Ideal S16x16 .f32) (b1 : FVec Ideal S16 .f32) (W2 : FVec Ideal S16x16 .f32) (b2 : FVec Ideal S16 .f32) (g bt : FVec Ideal S16 .f32) :
    res x ei ea W0 b0 W1 b1 W2 b2 g bt = fun j =>
      Cert.Spec.out (fun r k => ea (ix2 r k))
        (Cert.Spec.E (fun r k => ea (ix2 r k)) (fun r k => gsrc x ei (ix2 r k)) (fun r k => gdst x ei (ix2 r k))
          (fun d k => W0 (ix2 d k)) (fun d k => W1 (ix2 d k)) (fun d k => W2 (ix2 d k))
          (fun d => b0 (ix1 d)) (fun d => b1 (ix1 d)) (fun d => b2 (ix1 d)))
        (Cert.Spec.varR (Cert.Spec.E (fun r k => ea (ix2 r k)) (fun r k => gsrc x ei (ix2 r k)) (fun r k => gdst x ei (ix2 r k))
          (fun d k => W0 (ix2 d k)) (fun d k => W1 (ix2 d k)) (fun d k => W2 (ix2 d k))
          (fun d => b0 (ix1 d)) (fun d => b1 (ix1 d)) (fun d => b2 (ix1 d))))
        (fun d => g (ix1 d)) (fun d => bt (ix1 d)) (j 0) (j 1) := by
  funext j
  obtain ⟨r, d, rfl⟩ : ∃ (r : Fin 3200000) (d : Fin 16), j = ix2 r d := ⟨j 0, j 1, eq_ix2 j⟩
  have hE : (fun (r : Fin Cert.Spec.NE) (k : Fin 16) => eR x ei ea W0 b0 W1 b1 W2 b2 (ix2 r k))
      = Cert.Spec.E (fun r k => ea (ix2 r k)) (fun r k => gsrc x ei (ix2 r k)) (fun r k => gdst x ei (ix2 r k))
          (fun d k => W0 (ix2 d k)) (fun d k => W1 (ix2 d k)) (fun d k => W2 (ix2 d k))
          (fun d => b0 (ix1 d)) (fun d => b1 (ix1 d)) (fun d => b2 (ix1 d)) :=
    funext fun r => funext fun k => eR_apply x ei ea W0 b0 W1 b1 W2 b2 r k
  unfold res
  rw [outR_apply, (funext fun d => varRr_apply _ d : (fun d => varRr (eR x ei ea W0 b0 W1 b1 W2 b2) (ix1 d)) = _), hE]

end Read

end Cert.ReferenceIdeal.RefValue

end
-- ==== Proof.GatherSame.lean ====
/- The two programs gather the same node rows: each program's gathered array is the rows of the node-feature array
   at one row of the edge list, flattened, a negative node number shifted up by the number of nodes, laid out as a
   column. The two printed programs state their shapes, side conditions and gather dimension records separately, with
   the same values; so the two terms are one function, by unfolding. -/
import proofs.«110224_j19997367730282_1_alg».proof.Proof.RefRun
import proofs.«110224_j19997367730282_1_alg».proof.Proof.KIHost

set_option maxRecDepth 16384

noncomputable section

namespace Cert.Proof.Bridge

open Idealize.ShloMosaic

/-- The rows gathered at the source nodes are the same array in the two programs. -/
theorem gsrc_eq (x : FVec Ideal Cert.ReferenceIdeal.S100000x16 .f32) (ei : IVec Cert.ReferenceIdeal.S2x3200000 32) :
    Cert.ReferenceIdeal.RefValue.gsrc x ei = Cert.KernelIdeal.Hand.gsrcK (F := Ideal) x ei := by
  unfold Cert.ReferenceIdeal.RefValue.gsrc Cert.KernelIdeal.Hand.gsrcK Cert.KernelIdeal.Hand.srcCol
    Cert.KernelIdeal.Hand.normCol Cert.ReferenceIdeal.RefValue.nodeCol Cert.ReferenceIdeal.RefValue.edgeRow0
  rfl

/-- The rows gathered at the destination nodes are the same array in the two programs. -/
theorem gdst_eq (x : FVec Ideal Cert.ReferenceIdeal.S100000x16 .f32) (ei : IVec Cert.ReferenceIdeal.S2x3200000 32) :
    Cert.ReferenceIdeal.RefValue.gdst x ei = Cert.KernelIdeal.Hand.gdstK (F := Ideal) x ei := by
  unfold Cert.ReferenceIdeal.RefValue.gdst Cert.KernelIdeal.Hand.gdstK Cert.KernelIdeal.Hand.dstCol
    Cert.KernelIdeal.Hand.normCol Cert.ReferenceIdeal.RefValue.nodeCol Cert.ReferenceIdeal.RefValue.edgeRow1
  rfl

end Cert.Proof.Bridge

end
-- ==== Proof.lean ====
/-
  The kernel computes, per edge, the sum of three linear layers (of the edge's own attributes and of its two end nodes'
  features, gathered by the edge's two node indices), normalises each channel by the batch statistics over all edges,
  applies the affine map, clamps at zero and adds the edge attributes back. It does so in two passes: the first writes the
  pre-normalisation values and accumulates, tile by tile, each channel's sum and sum of squares; the second normalises
  with the mean and with the variance taken as the second moment minus the squared mean. The reference takes the variance
  as the mean of the squared deviations. On real entries the two variances are the same number, and every other
  operation is the same operation on both sides, the tiled sums being the whole sums regrouped.
-/
import proofs.«110224_j19997367730282_1_alg».proof.Defs
import proofs.«110224_j19997367730282_1_alg».proof.Proof.Gen.Kernel
import proofs.«110224_j19997367730282_1_alg».proof.Proof.Gen.KernelIdeal
import proofs.«110224_j19997367730282_1_alg».proof.Proof.Gen.ReferenceIdeal
import proofs.«110224_j19997367730282_1_alg».proof.Proof.Gen.Pre_finite_inputs
import proofs.«110224_j19997367730282_1_alg».proof.Proof.KFrame
import proofs.«110224_j19997367730282_1_alg».proof.Proof.KIFrame
import proofs.«110224_j19997367730282_1_alg».proof.Proof.KIValue
import proofs.«110224_j19997367730282_1_alg».proof.Proof.KIGather
import proofs.«110224_j19997367730282_1_alg».proof.Proof.KIBridge
import proofs.«110224_j19997367730282_1_alg».proof.Proof.Finite
import proofs.«110224_j19997367730282_1_alg».proof.Proof.Algebra
import proofs.«110224_j19997367730282_1_alg».proof.Proof.RefRead
import proofs.«110224_j19997367730282_1_alg».proof.Proof.GatherSame

noncomputable section

namespace Cert.Proof

open Idealize.ShloMosaic Idealize.ShloMosaic.ValueIdx Idealize.SL.Sem
open Cert.KernelIdeal.Hand

/-- The kernel program runs to the end and leaves its arguments as launched. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealized kernel's run with its result array named: what the last boundary holds there. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v33) = W4 (F := Ideal) m c (Proc.devRef .tc Cert.KernelIdeal.main_v33)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun _ h c => ⟨h c _ (mem_uc Cert.KernelIdeal.main_v33 (by decide)),
    (h c _ (mem_uc Cert.KernelIdeal.main_arg0 (by decide))).trans (W4_main_arg0 m c),
    (h c _ (mem_uc Cert.KernelIdeal.main_arg1 (by decide))).trans (W4_main_arg1 m c),
    (h c _ (mem_uc Cert.KernelIdeal.main_arg2 (by decide))).trans (W4_main_arg2 m c),
    (h c _ (mem_uc Cert.KernelIdeal.main_arg3 (by decide))).trans (W4_main_arg3 m c),
    (h c _ (mem_uc Cert.KernelIdeal.main_arg4 (by decide))).trans (W4_main_arg4 m c),
    (h c _ (mem_uc Cert.KernelIdeal.main_arg5 (by decide))).trans (W4_main_arg5 m c),
    (h c _ (mem_uc Cert.KernelIdeal.main_arg6 (by decide))).trans (W4_main_arg6 m c),
    (h c _ (mem_uc Cert.KernelIdeal.main_arg7 (by decide))).trans (W4_main_arg7 m c),
    (h c _ (mem_uc Cert.KernelIdeal.main_arg8 (by decide))).trans (W4_main_arg8 m c),
    (h c _ (mem_uc Cert.KernelIdeal.main_arg9 (by decide))).trans (W4_main_arg9 m c),
    (h c _ (mem_uc Cert.KernelIdeal.main_arg10 (by decide))).trans (W4_main_arg10 m c)⟩) (run_all m ρ)

/-- Under the precondition the pre-normalisation values are real: they are sums of products of real entries. -/
theorem E_real_of_pre (m : (ℓ : Loc Cert.KernelIdeal.nD Cert.KernelIdeal.τ Cert.KernelIdeal.sig) → Buf (Elt Ideal) ℓ) (h : Cert.Pre_KernelIdeal m) (c : Dev Cert.KernelIdeal.nD) :
    ∀ r d, ∃ x : ℝ, EOf m c r d = (x : EReal) :=
  Cert.Spec.E_real _ _ _ _ _ _ _ _ _
    (fun r k => Cert.KernelIdeal.Finite.arg2_real m h c _)
    (fun r k => gsrcK_real _ (fun i => Cert.KernelIdeal.Finite.arg0_real m h c i) _ _)
    (fun r k => gdstK_real _ (fun i => Cert.KernelIdeal.Finite.arg0_real m h c i) _ _)
    (fun d k => Cert.KernelIdeal.Finite.arg3_real m h c _)
    (fun d k => Cert.KernelIdeal.Finite.arg5_real m h c _)
    (fun d k => Cert.KernelIdeal.Finite.arg7_real m h c _)
    (fun d => Cert.KernelIdeal.Finite.arg4_real m h c _)
    (fun d => Cert.KernelIdeal.Finite.arg6_real m h c _)
    (fun d => Cert.KernelIdeal.Finite.arg8_real m h c _)

/-- THE VALUES AGREE: the reference's result of the kernel's arguments is what the kernel leaves in its result array —
    entry by entry both are the specification's `out`, with the two variances equal on real entries. -/
theorem value_eq (m : (ℓ : Loc Cert.KernelIdeal.nD Cert.KernelIdeal.τ Cert.KernelIdeal.sig) → Buf (Elt Ideal) ℓ) (h : Cert.Pre_KernelIdeal m) (c : Dev Cert.KernelIdeal.nD) :
    Cert.ReferenceIdeal.RefValue.res (A m c Cert.KernelIdeal.main_arg0) (A m c Cert.KernelIdeal.main_arg1) (A m c Cert.KernelIdeal.main_arg2) (A m c Cert.KernelIdeal.main_arg3) (A m c Cert.KernelIdeal.main_arg4) (A m c Cert.KernelIdeal.main_arg5) (A m c Cert.KernelIdeal.main_arg6) (A m c Cert.KernelIdeal.main_arg7) (A m c Cert.KernelIdeal.main_arg8) (A m c Cert.KernelIdeal.main_arg9) (A m c Cert.KernelIdeal.main_arg10)
      = W4 (F := Ideal) m c (Proc.devRef .tc Cert.KernelIdeal.main_v33) := by
  funext j
  obtain ⟨r, d, rfl⟩ : ∃ (r : Fin 3200000) (d : Fin 16), j = ix2 r d := ⟨j 0, j 1, eq_ix2 j⟩
  rw [Cert.ReferenceIdeal.RefValue.res_eq, kernel_value m c r d, Cert.Proof.Bridge.gsrc_eq, Cert.Proof.Bridge.gdst_eq]
  exact (out_varK_eq_varR _ _ _ _ (E_real_of_pre m h c) r d).symm

/-- The idealized kernel and the idealized reference, run from memories agreeing on the arguments, end with equal results. -/
theorem algebraic : Cert.algebraic_KernelIdeal_ReferenceIdeal := by
  intro m ρ m' ρ' hpre hagree
  refine ⟨fun c => W4 (F := Ideal) m c (Proc.devRef .tc Cert.KernelIdeal.main_v33), kernel_run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10⟩ := hagree c
  rw [h0, h1, h2, h3, h4, h5, h6, h7, h8, h9, h10]
  exact value_eq m hpre c

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
